-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x20 : Shape := ⟨2, ![16384, 20]⟩
abbrev S100000x1 : Shape := ⟨2, ![100000, 1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S16384x20 : S_.BroadcastsInDim S16384x20 (![] : Fin 0 → Fin S16384x20.rank)
  reducesTo_S16384x20_S_d0_1 : S16384x20.ReducesTo [0, 1] S_

variable [Facts]

def fn {F : FTy → Type} [FloatOps F] (main_arg0 : IVec S16384x20 32) (main_arg1 : FVec F S100000x1 .f32) : IVec S_ 1 :=
  let main_v0 : FVec F S100000x1 .f32 := Host.absf main_arg1
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_c_0 : IVec S_ 32 := constantI S_ 32 0#32
  let main_v4 : IVec S16384x20 32 := broadcastInDim S16384x20 ![] bcast_S_S16384x20 main_c_0
  let main_v5 : IVec S16384x20 1 := cmpi .sge main_arg0 main_v4
  let main_c_1 : IVec S_ 32 := constantI S_ 32 99999#32
  let main_v6 : IVec S16384x20 32 := broadcastInDim S16384x20 ![] bcast_S_S16384x20 main_c_1
  let main_v7 : IVec S16384x20 1 := cmpi .sle main_arg0 main_v6
  let main_v8 : IVec S16384x20 1 := andi main_v5 main_v7
  let main_c_2 : IVec S_ 1 := constantI S_ 1 1#1
  let main_v9 : IVec S_ 1 := (fun x v => Host.reduce IntOp.andi x v reducesTo_S16384x20_S_d0_1 h_S_) main_v8 main_c_2
  let main_v10 : IVec S_ 1 := andi main_v3 main_v9
  main_v10
-- ==== Kernel.lean ====
abbrev S16384x20 : Shape := ⟨2, ![16384, 20]⟩
abbrev S100000x1 : Shape := ⟨2, ![100000, 1]⟩
abbrev S20x16384 : Shape := ⟨2, ![20, 16384]⟩
abbrev S_ : Shape := ⟨0, ![]⟩
abbrev S24x16384 : Shape := ⟨2, ![24, 16384]⟩
abbrev S393216 : Shape := ⟨1, ![393216]⟩
abbrev S100000 : Shape := ⟨1, ![100000]⟩
abbrev S16384 : Shape := ⟨1, ![16384]⟩
abbrev S10240 : Shape := ⟨1, ![10240]⟩
abbrev S512 : Shape := ⟨1, ![512]⟩
abbrev S16 : Shape := ⟨1, ![16]⟩
abbrev S16384x1x1 : Shape := ⟨3, ![16384, 1, 1]⟩

abbrev nBuf : Table → Nat
  | .hbm => 10
  | .shared => 1
  | .local .scVector .vmem => 3
  | _ => 0

abbrev bufTy : (tb : Table) → Fin (nBuf tb) → BufTy
  | .hbm, ⟨0, _⟩ => ⟨S16384x20, .i32⟩
  | .hbm, ⟨1, _⟩ => ⟨S100000x1, .f32⟩
  | .hbm, ⟨2, _⟩ => ⟨S20x16384, .i32⟩
  | .hbm, ⟨3, _⟩ => ⟨S_, .i32⟩
  | .hbm, ⟨4, _⟩ => ⟨S_, .i32⟩
  | .hbm, ⟨5, _⟩ => ⟨S24x16384, .i32⟩
  | .hbm, ⟨6, _⟩ => ⟨S393216, .i32⟩
  | .hbm, ⟨7, _⟩ => ⟨S100000, .f32⟩
  | .hbm, ⟨8, _⟩ => ⟨S16384, .f32⟩
  | .hbm, ⟨9, _⟩ => ⟨S16384x1x1, .f32⟩
  | .shared, ⟨0, _⟩ => ⟨S100000, .f32⟩
  | .local .scVector .vmem, ⟨0, _⟩ => ⟨S10240, .i32⟩
  | .local .scVector .vmem, ⟨1, _⟩ => ⟨S10240, .f32⟩
  | .local .scVector .vmem, ⟨2, _⟩ => ⟨S512, .f32⟩
  | _, _ => ⟨S16384x20, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 5 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi c0_i32 v2
  ![v3.toNat]
@[reducible] def k0_t1_loop : Scf.Loop 32 :=
  let c0_i32_67 : BitVec 32 := 0#32
  let c32_i32 : BitVec 32 := 32#32
  let v188 : BitVec 32 := Scalar.addi c0_i32_67 c32_i32
  let c1_i32 : BitVec 32 := 1#32
  ⟨c0_i32_67, v188, c1_i32⟩
def k0_off2 (k0_t1 : Fin k0_t1_loop.trips) : Fin 1 → Nat :=
  let c0_i32_67 : BitVec 32 := 0#32
  let c1_i32 : BitVec 32 := 1#32
  let arg11 : BitVec 32 := Scf.iv c0_i32_67 c1_i32 k0_t1
  let c16_i32 : BitVec 32 := 16#32
  let v190 : BitVec 32 := Scalar.muli arg11 c16_i32
  let v191 : Index := Scalar.indexCast v190
  ![v191.toNat]
def k0_off3 (k0_t1 : Fin k0_t1_loop.trips) (c512_i32_70 : BitVec 32) : Fin 1 → Nat :=
  let c0_i32_67 : BitVec 32 := 0#32
  let c1_i32 : BitVec 32 := 1#32
  let arg11 : BitVec 32 := Scf.iv c0_i32_67 c1_i32 k0_t1
  let c16_i32 : BitVec 32 := 16#32
  let v190 : BitVec 32 := Scalar.muli arg11 c16_i32
  let v193 : BitVec 32 := Scalar.addi c512_i32_70 v190
  let v194 : Index := Scalar.indexCast v193
  ![v194.toNat]
def k0_off4 (k0_t1 : Fin k0_t1_loop.trips) : Fin 1 → Nat :=
  let c0_i32_67 : BitVec 32 := 0#32
  let c1_i32 : BitVec 32 := 1#32
  let arg11 : BitVec 32 := Scf.iv c0_i32_67 c1_i32 k0_t1
  let c16_i32 : BitVec 32 := 16#32
  let v190 : BitVec 32 := Scalar.muli arg11 c16_i32
  let v269 : Index := Scalar.indexCast v190
  ![v269.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_69 : BitVec 32 := 512#32
  let v189 : BitVec 32 := Scalar.muli v1 c512_i32_69
  ![v189.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x20_S20x16384_1_0 : S16384x20.Transposes [1, 0] S20x16384
  pads_S20x16384_S24x16384_040_000 : S20x16384.Pads (![0, 0] : Fin 2 → Nat) ![4, 0] ![0, 0] S24x16384
  h_S_ : 0 < S_.numel
  shapeCasts_S24x16384_S393216 : S24x16384.ShapeCasts S393216
  shapeCasts_S100000x1_S100000 : S100000x1.ShapeCasts S100000
  inb_S10240_S512_0 : ∀ a, (![0] : Fin 1 → Nat) a + S512.size a ≤ S10240.size a
  inb_S10240_S512_512 : ∀ a, (![512] : Fin 1 → Nat) a + S512.size a ≤ S10240.size a
  inb_S10240_S512_1024 : ∀ a, (![1024] : Fin 1 → Nat) a + S512.size a ≤ S10240.size a
  inb_S10240_S512_1536 : ∀ a, (![1536] : Fin 1 → Nat) a + S512.size a ≤ S10240.size a
  inb_S10240_S512_2048 : ∀ a, (![2048] : Fin 1 → Nat) a + S512.size a ≤ S10240.size a
  inb_S10240_S512_2560 : ∀ a, (![2560] : Fin 1 → Nat) a + S512.size a ≤ S10240.size a
  inb_S10240_S512_3072 : ∀ a, (![3072] : Fin 1 → Nat) a + S512.size a ≤ S10240.size a
  inb_S10240_S512_3584 : ∀ a, (![3584] : Fin 1 → Nat) a + S512.size a ≤ S10240.size a
  inb_S10240_S512_4096 : ∀ a, (![4096] : Fin 1 → Nat) a + S512.size a ≤ S10240.size a
  inb_S10240_S512_4608 : ∀ a, (![4608] : Fin 1 → Nat) a + S512.size a ≤ S10240.size a
  inb_S10240_S512_5120 : ∀ a, (![5120] : Fin 1 → Nat) a + S512.size a ≤ S10240.size a
  inb_S10240_S512_5632 : ∀ a, (![5632] : Fin 1 → Nat) a + S512.size a ≤ S10240.size a
  inb_S10240_S512_6144 : ∀ a, (![6144] : Fin 1 → Nat) a + S512.size a ≤ S10240.size a
  inb_S10240_S512_6656 : ∀ a, (![6656] : Fin 1 → Nat) a + S512.size a ≤ S10240.size a
  inb_S10240_S512_7168 : ∀ a, (![7168] : Fin 1 → Nat) a + S512.size a ≤ S10240.size a
  inb_S10240_S512_7680 : ∀ a, (![7680] : Fin 1 → Nat) a + S512.size a ≤ S10240.size a
  inb_S10240_S512_8192 : ∀ a, (![8192] : Fin 1 → Nat) a + S512.size a ≤ S10240.size a
  inb_S10240_S512_8704 : ∀ a, (![8704] : Fin 1 → Nat) a + S512.size a ≤ S10240.size a
  inb_S10240_S512_9216 : ∀ a, (![9216] : Fin 1 → Nat) a + S512.size a ≤ S10240.size a
  inb_S10240_S512_9728 : ∀ a, (![9728] : Fin 1 → Nat) a + S512.size a ≤ S10240.size a
  inb_S100000_S100000_0 : ∀ a, (![0] : Fin 1 → Nat) a + S100000.size a ≤ S100000.size a
  gathers_S100000_S10240 : S100000.Gathers 0 S10240
  h_S16 : 0 < S16.numel
  shapeCasts_S16384_S16384x1x1 : S16384.ShapeCasts S16384x1x1
  hcc0_scratch4 : 0 + S_.numel ≤ 4
  hcc0_scratch5 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 20), ∀ a, (k0_off1 i (BitVec.ofNat 32 (16384 * r.val))) a + S512.size a ≤ S393216.size a
  k0_t1_ok : k0_t1_loop.OK
  k0_off2_inb : ∀ k0_t1 : Fin k0_t1_loop.trips, ∀ a, (k0_off2 k0_t1) a + S16.size a ≤ S10240.size a
  k0_off3_inb : ∀ k0_t1 : Fin k0_t1_loop.trips, ∀ (r : Fin 19), ∀ a, (k0_off3 k0_t1 (BitVec.ofNat 32 (512 + 512 * r.val))) a + S16.size a ≤ S10240.size a
  k0_off4_inb : ∀ k0_t1 : Fin k0_t1_loop.trips, ∀ a, (k0_off4 k0_t1) a + S16.size a ≤ S512.size a
  k0_off5_inb : ∀ i : grid0.Coords, ∀ a, (k0_off5 i) a + S512.size a ≤ S16384.size a

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S16384x20 : Shape := ⟨2, ![16384, 20]⟩
abbrev S100000x1 : Shape := ⟨2, ![100000, 1]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x1 : Shape := ⟨2, ![16384, 1]⟩
abbrev S16384x1x1 : Shape := ⟨3, ![16384, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S100000x1, .f32⟩
  | .hbm, ⟨2, _⟩ => ⟨S_, .i32⟩
  | .hbm, ⟨3, _⟩ => ⟨S16384x20, .i32⟩
  | .hbm, ⟨4, _⟩ => ⟨S16384x20, .i1⟩
  | .hbm, ⟨5, _⟩ => ⟨S_, .i32⟩
  | .hbm, ⟨6, _⟩ => ⟨S16384x20, .i32⟩
  | .hbm, ⟨7, _⟩ => ⟨S16384x20, .i32⟩
  | .hbm, ⟨8, _⟩ => ⟨S16384x20, .i32⟩
  | .hbm, ⟨9, _⟩ => ⟨S16384x20x1, .i32⟩
  | .hbm, ⟨10, _⟩ => ⟨S1, .i32⟩
  | .hbm, ⟨11, _⟩ => ⟨S_, .i32⟩
  | .hbm, ⟨12, _⟩ => ⟨S16384x20x1, .i32⟩
  | .hbm, ⟨13, _⟩ => ⟨S16384x20x1, .i1⟩
  | .hbm, ⟨14, _⟩ => ⟨S1x1x1, .i32⟩
  | .hbm, ⟨15, _⟩ => ⟨S16384x20x1, .i32⟩
  | .hbm, ⟨16, _⟩ => ⟨S16384x20x1, .i1⟩
  | .hbm, ⟨17, _⟩ => ⟨S16384x20x1, .i1⟩
  | .hbm, ⟨18, _⟩ => ⟨S_, .i1⟩
  | .hbm, ⟨19, _⟩ => ⟨S16384x20, .i1⟩
  | .hbm, ⟨20, _⟩ => ⟨S16384x20x1, .f32⟩
  | .hbm, ⟨21, _⟩ => ⟨S16384x20x1, .i1⟩
  | .hbm, ⟨22, _⟩ => ⟨S_, .f32⟩
  | .hbm, ⟨23, _⟩ => ⟨S16384x20x1, .f32⟩
  | .hbm, ⟨24, _⟩ => ⟨S16384x20x1, .f32⟩
  | .hbm, ⟨25, _⟩ => ⟨S_, .f32⟩
  | .hbm, ⟨26, _⟩ => ⟨S16384x1, .f32⟩
  | .hbm, ⟨27, _⟩ => ⟨S16384x1x1, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  reducesTo_S16384x20x1_S16384x1_d1 : S16384x20x1.ReducesTo [1] S16384x1
  bcast_S16384x1_S16384x1x1_0_2 : S16384x1.BroadcastsInDim S16384x1x1 (![0, 2] : Fin 2 → Fin S16384x1x1.rank)
  gather_S100000x1_S16384x20x1_S16384x20x1_2_0_n_n_0_2_11_wf : GatherDims.WF S100000x1 S16384x20x1 S16384x20x1 [2] [0] [] [0] [] 2 ![1, 1]

variable [Facts₀]

def gather_S100000x1_S16384x20x1_S16384x20x1_2_0_n_n_0_2_11 : GatherDims S100000x1 S16384x20x1 S16384x20x1 where
  offsetDims := [2]
  collapsedSliceDims := [0]
  operandBatchingDims := []
  startIndicesBatchingDims := []
  startIndexMap := [0]
  indexVectorDim := 2
  sliceSizes := ![1, 1]
  wf := gather_S100000x1_S16384x20x1_S16384x20x1_2_0_n_n_0_2_11_wf

class Facts : Prop extends Facts₀ where

variable [Facts]
-- ==== Proof.KSpec.lean ====
/-
  What one vector subcore computes, as pure functions of the two arrays the SparseCore kernel is handed: the flat list of
  member words `tf` (member `t` of team `b` at position `t * 16384 + b`) and the flat skill table `sf`. The gathered value for
  a word `w` is the table's row `w` (rows past the table's end are never named where the words are in range); a team's result
  is the left-nested sum `((v 0 + v 1) + v 2) + … + v 19` of its twenty gathered values, in the float instance's own addition.
-/
import Idealize.ShloMosaic.PureOps
import Idealize.ShloMosaic.Lib.ValueIdx

noncomputable section

namespace Cert.TeamSkill

open Idealize.ShloMosaic Idealize.ShloMosaic.ValueIdx

variable {F : FTy → Type} [FloatOps F]

/-- The table's row named by the word `w` (row 0 when `w` names none). -/
def tblAt (sf : FVec F ⟨1, ![100000]⟩ .f32) (w : BitVec 32) : F .f32 :=
  if h : w.toNat < 100000 then sf (ix1 (⟨w.toNat, h⟩ : Fin 100000)) else sf (ix1 (⟨0, by decide⟩ : Fin 100000))

/-- Member `t`'s word of team `b` in the flat layout. -/
def wordAt (tf : IVec ⟨1, ![393216]⟩ 32) (t : Fin 20) (b : Fin 16384) : BitVec 32 :=
  tf (ix1 (⟨t.val * 16384 + b.val, by have := t.isLt; have := b.isLt; omega⟩ : Fin 393216))

/-- The left-nested sum of the gathered values of members `0 … n` of team `b`. -/
def accTo (tf : IVec ⟨1, ![393216]⟩ 32) (sf : FVec F ⟨1, ![100000]⟩ .f32) (b : Fin 16384) : (n : Nat) → n < 20 → F .f32
  | 0, h => tblAt sf (wordAt tf ⟨0, h⟩ b)
  | n + 1, h => FloatOps.addf (accTo tf sf b n (Nat.lt_of_succ_lt h)) (tblAt sf (wordAt tf ⟨n + 1, h⟩ b))

/-- The kernel's result array: every team's left-nested sum. -/
def kOut (tf : IVec ⟨1, ![393216]⟩ 32) (sf : FVec F ⟨1, ![100000]⟩ .f32) : FVec F ⟨1, ![16384]⟩ .f32 :=
  fun i => accTo tf sf (i 0 : Fin 16384) 19 (by decide)

end Cert.TeamSkill

end
-- ==== Proof.CommonKI.lean ====
/-
  The launch's vocabulary for the kernel's frame and value: the program as the launch theorem sees it, the ghost state
  (the handshakes' rounds, the barrier cells' rounds, the transfers' counters), the arrays the SparseCore call is handed
  and the shares each tile holds of them, the subcore barrier's schedule, and what each handshake carries.

  The mathematics of the protocol. Thirty-two tiles (two SparseCores of sixteen) each read twenty 512-word pieces of the
  flat member list and the whole skill table, and write one 512-word piece of the result; tile `(c, i)` writes piece
  `2 i + c`. The table is staged ONCE per SparseCore, by its tile 0, into the SparseCore's shared memory; the other
  fifteen tiles may read it only after the subcore barrier. So the barrier CARRIES the table: tile 0's duty in tile `j`'s
  round hands over read token `j` of the shared buffer at the table's contents; every other duty hands over nothing.
  After the barrier every tile holds a read token of the table; tile 0 also keeps the remainder of the share, so that the
  sixteen tokens and the remainder rejoin to the whole buffer at the tasks' end.
-/
import proofs.«203918_g8735963480385_cont_9to1c4b_274_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203918_g8735963480385_cont_9to1c4b_274_26_alg».proof.Proof.Gen.KernelIdeal
import proofs.«203918_g8735963480385_cont_9to1c4b_274_26_alg».proof.Proof.Gen.KernelIdeal.Skeleton
import proofs.«203918_g8735963480385_cont_9to1c4b_274_26_alg».proof.Proof.KSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

abbrev tfLoc (d : Dev nD) : Loc nD τ sig := (SparseCore.T d).loc main_v2
abbrev sfLoc (d : Dev nD) : Loc nD τ sig := (SparseCore.T d).loc main_v3
abbrev oLoc (d : Dev nD) : Loc nD τ sig := (SparseCore.T d).loc main_v4

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-- The region-entry contents of the three arrays the call is handed (the member list, the table, the result's buffer),
    per device: parameters of everything below. -/
structure Arrays (F : FTy → Type) where
  tf : (d : Dev nD) → Buf (Elt F) (tfLoc d)
  sf : (d : Dev nD) → Buf (Elt F) (sfLoc d)
  o₀ : (d : Dev nD) → Buf (Elt F) (oLoc d)

variable (A : Arrays F)

/-- The table as the shared scratch's contents. -/
abbrev shTbl (d : Dev nD) (c : Fin τ.nSC) : Buf (Elt F) (shLoc d c) := A.sf d

/-! ## The result's thirty-two pieces -/

theorem odiv : 32 ∣ S16384.size 0 := ⟨512, rfl⟩
abbrev oPart (w : Fin 32) : Rect S16384 := Rect.part (s := S16384) (a₀ := 0) odiv w
abbrev oSet (w : Fin 32) : Finset S16384.Idx := ((View.whole (main_v4_scv : Ref sig .scVector)).slice (oPart w)).set
/-- The piece tile `i` of SparseCore `c` writes. -/
def widOf (c : Fin 2) (i : Fin 16) : Fin 32 := ⟨2 * i.val + c.val, by have := c.isLt; have := i.isLt; omega⟩

/-! ## The read shares -/

/-- SparseCore `c`'s read token of an input array, and tile `i`'s token of that. -/
abbrev qc (c : Fin 2) : PosShare TreeShare := shareTok fullShare 2 c
abbrev qt (c : Fin 2) (i : Fin 16) : PosShare TreeShare := shareTok (qc c) 16 i
/-- Tile `i`'s read token of its SparseCore's shared table, and the remainder tile 0 keeps. -/
abbrev qs (i : Fin 16) : PosShare TreeShare := shareTok fullShare 16 i
abbrev qs₀ : PosShare TreeShare := shareDrop fullShare 16

variable [FloatOps F]

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read token of the shared table at the table's contents. -/
abbrev shTok (d : Dev nD) (c : Fin τ.nSC) (j : Fin 16) : sProp 𝕄 := shLoc d c ↦{qs j} shTbl A d c

/-- What a duty in tile `j`'s round hands over: tile 0's, tile `j`'s read token of the table; the others', nothing. -/
def bPay (g : GSem nD τ sig) (n : ℕ) : sProp 𝕄 :=
  match g with
  | ((d, .scVector c j), _) => if n = 0 then shTok A d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay A g n
  amount_pos _ _ _ _ := Nat.one_pos

instance bRd_payload_storable (g : GSem nD τ sig) (r n : ℕ) : BI.Storable (upEmb : UEmb _ 𝕄) ((bRd (F := F) A).payload g r n) := by
  show BI.Storable upEmb (bPay A g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) A).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) A).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) A).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) A) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- A read token of the member list and of the table at their region-entry contents. -/
abbrev tfPts (d : Dev nD) (q : PosShare TreeShare) : sProp 𝕄 := tfLoc d ↦{q} A.tf d
abbrev sfPts (d : Dev nD) (q : PosShare TreeShare) : sProp 𝕄 := sfLoc d ↦{q} A.sf d
/-- Piece `w` of the result's buffer at contents `f`. -/
abbrev oPts (d : Dev nD) (w : Fin 32) (f : Buf (Elt F) (oLoc d)) : sProp 𝕄 := oLoc d ↦[oSet w]{fullShare} f
/-- Piece `w` of the result's buffer holds the kernel's result there. -/
def oDone (d : Dev nD) (w : Fin 32) : sProp 𝕄 :=
  iprop(∃ f : Buf (Elt F) (oLoc d), oPts d w f ∗ ⌜∀ j ∈ oSet w, f j = Cert.TeamSkill.kOut (F := F) (A.tf d) (A.sf d) j⌝)

/-- The shared scratch whole, at some contents: what tile 0 is handed to stage the table into. -/
abbrev shAny (d : Dev nD) (c : Fin τ.nSC) : sProp 𝕄 := iprop(∃ f : Buf (Elt F) (shLoc d c), shLoc d c ↦{fullShare} f)
/-- What tile `i` hands back of the shared scratch: its read token of the table, tile 0 the remainder too. -/
def shBack (d : Dev nD) (c : Fin τ.nSC) (i : Fin 16) : sProp 𝕄 :=
  iprop(shTok A d c i ∗ if i.val = 0 then shLoc d c ↦{qs₀} shTbl A d c else iprop(emp))

abbrev cOf (c : Fin ((K (F := F)).nCore 0)) : Fin 2 := Fin.cast nCore_zero c
abbrev iOf (i : Fin ((K (F := F)).nSub 0)) : Fin 16 := Fin.cast nSub_zero i
/-- The SparseCore of the call's core number `c`. -/
abbrev coreOf (c : Fin ((K (F := F)).nCore 0)) : Fin τ.nSC := (K (F := F)).core 0 c

/-- The one call takes, per SparseCore, a read token of the member list and of the table and the sixteen pieces of the
    result its tiles write; each task its tokens and its piece, tile 0 also the shared scratch; each brings back its
    piece holding the result there and its part of the shared scratch; each task's proof consumes its barrier kit; each
    tile owes its arrivals. -/
def P : (K (F := F)).Pay (nD := nD) (Val := Elt F) (Name := ℕ) (U := UU) where
  st := fun q d c => match q with
    | 0 => iprop(tfPts A d (qc (cOf c)) ∗ sfPts A d (qc (cOf c)) ∗ bigSep Finset.univ fun i : Fin 16 => oPts d (widOf (cOf c) i) (A.o₀ d))
  dn := fun q d c => match q with
    | 0 => bigSep Finset.univ fun i : Fin 16 => oDone A d (widOf (cOf c) i)
  go := fun q d c i => match q with
    | 0 => iprop(tfPts A d (qt (cOf c) (iOf i)) ∗ sfPts A d (qt (cOf c) (iOf i)) ∗ oPts d (widOf (cOf c) (iOf i)) (A.o₀ d)
        ∗ if (iOf i).val = 0 then shAny d (coreOf c) else iprop(emp))
  td := fun q d c i => match q with
    | 0 => iprop(oDone A d (widOf (cOf c) (iOf i)) ∗ shBack A d (coreOf c) (iOf i))
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

end Cert.Proof.KI

end
-- ==== Proof.MainKI.lean ====
/-
  @main on the TensorCore, and what the final memory says.

  @main runs six host operations, the SparseCore call, and one more host operation. Before the call: the member array
  [16384, 20] is transposed to [20, 16384], padded with four rows of the word 0 to [24, 16384] and read row-major as
  a flat list of 393216 words (`teamFlat`); the skill table [100000, 1] is read as a flat list of 100000 values
  (`skillFlat`). The call is handed the two flat arrays read-only, one read token per SparseCore, and the result's
  16384-element buffer cut into its thirty-two 512-element pieces, piece `2 i + c` to SparseCore `c` for its tile
  `i`; it brings every piece back holding the kernel's result `kOut` there, so the buffer whole holds `kOut`. After
  the call the result is read as [16384, 1, 1] (`outCast`). The two argument arrays are never handed over and never
  written, so they end as they began.
-/
import proofs.«203918_g8735963480385_cont_9to1c4b_274_26_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split)

variable {F : FTy → Type}

local notation "𝕄" => MT nD τ sig (HIx 1) (Elt F) ℕ UU ℕ

/-! ## The host operations' pure terms -/

/-- The member array as the call reads it: transposed, padded by four rows of zero words, flattened row-major. -/
def teamFlat (team : IVec S16384x20 32) : IVec S393216 32 :=
  shapeCast S393216
    (pad S24x16384 ![0, 0] ![4, 0] ![0, 0] (transpose S20x16384 [1, 0] team transposes_S16384x20_S20x16384_1_0)
      (constantI S_ 32 0#32) pads_S20x16384_S24x16384_040_000 h_S_)
    shapeCasts_S24x16384_S393216

/-- The skill table as the call reads it: flattened. -/
def skillFlat (skill : FVec F S100000x1 .f32) : FVec F S100000 .f32 := shapeCast S100000 skill shapeCasts_S100000x1_S100000

/-- The call's result as @main returns it: one team per row of a [16384, 1, 1] array. -/
def outCast (o : FVec F S16384 .f32) : FVec F S16384x1x1 .f32 := shapeCast S16384x1x1 o shapeCasts_S16384_S16384x1x1

/-! ## The arrays the call is handed -/

abbrev a0Loc (d : Dev nD) : Loc nD τ sig := (SparseCore.T d).loc main_arg0
abbrev a1Loc (d : Dev nD) : Loc nD τ sig := (SparseCore.T d).loc main_arg1
abbrev v5Loc (d : Dev nD) : Loc nD τ sig := (SparseCore.T d).loc main_v5

/-- The region-entry contents of the call's three arrays, from the launch memory: the two flat arrays @main computes
    and the result's buffer as the launch left it. -/
def arrays (m : (ℓ : Loc nD τ sig) → Buf (Elt F) ℓ) : Arrays F where
  tf d := teamFlat (m (a0Loc d))
  sf d := skillFlat (m (a1Loc d))
  o₀ d := m (oLoc d)

/-! ## @main's ten arrays and seven host operations -/

abbrev a0' : DevRef τ sig := Proc.devRef .tc (main_arg0 : Ref sig .tc)
abbrev a1' : DevRef τ sig := Proc.devRef .tc (main_arg1 : Ref sig .tc)
abbrev t0' : DevRef τ sig := Proc.devRef .tc (main_v0 : Ref sig .tc)
abbrev c' : DevRef τ sig := Proc.devRef .tc (main_c : Ref sig .tc)
abbrev cv' : DevRef τ sig := Proc.devRef .tc (main_call0_v0 : Ref sig .tc)
abbrev p1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opT : HloOp τ sig (Elt F) :=
  StableHlo.unary main_arg0 main_v0 ((transpose S20x16384 [1, 0] · transposes_S16384x20_S20x16384_1_0) : (⟨S16384x20, .i32⟩ : BufTy).Contents (Elt F) → (⟨S20x16384, .i32⟩ : BufTy).Contents (Elt F))
abbrev opC : HloOp τ sig (Elt F) := StableHlo.nullary main_c (constantI S_ 32 0#32)
abbrev opCv : HloOp τ sig (Elt F) := StableHlo.TRef.unary (.of main_c : StableHlo.TRef sig ⟨S_, .i32⟩) main_call0.v0 id
abbrev opPad : HloOp τ sig (Elt F) :=
  StableHlo.TRef.binary (.of main_v0 : StableHlo.TRef sig ⟨S20x16384, .i32⟩) main_call0.v0 main_call0.v1
    (fun x v => pad S24x16384 ![0, 0] ![4, 0] ![0, 0] x v pads_S20x16384_S24x16384_040_000 h_S_)
abbrev opR2 : HloOp τ sig (Elt F) := StableHlo.reshape main_v1 main_v2 rfl shapeCasts_S24x16384_S393216
abbrev opR3 : HloOp τ sig (Elt F) := StableHlo.reshape main_arg1 main_v3 rfl shapeCasts_S100000x1_S100000
abbrev opR5 : HloOp τ sig (Elt F) := StableHlo.reshape main_v4 main_v5 rfl shapeCasts_S16384_S16384x1x1

/-- The TensorCore's arrays, all unscoped. -/
abbrev S10 : Finset (DevRef τ sig) := {a0', a1', t0', c', cv', p1', v2', v3', v4', v5'}

theorem held_S10 (d : Dev nD) (W : Valuation τ sig (Elt F)) :
    (held (T d) S10 W : sProp 𝕄)
      = iprop((a0Loc d ↦{fullShare} W a0') ∗ (a1Loc d ↦{fullShare} W a1') ∗ ((SparseCore.T d).loc main_v0 ↦{fullShare} W t0')
          ∗ ((SparseCore.T d).loc main_c ↦{fullShare} W c') ∗ ((SparseCore.T d).loc main_call0_v0 ↦{fullShare} W cv')
          ∗ ((SparseCore.T d).loc main_v1 ↦{fullShare} W p1') ∗ (tfLoc d ↦{fullShare} W v2') ∗ (sfLoc d ↦{fullShare} W v3')
          ∗ (oLoc d ↦{fullShare} W v4') ∗ v5Loc d ↦{fullShare} W v5') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ ((SparseCore.T d).loc main_v0 ↦{fullShare} W main_v0)
          ∗ ((SparseCore.T d).loc main_c ↦{fullShare} W main_c) ∗ ((SparseCore.T d).loc main_call0_v0 ↦{fullShare} W main_call0_v0)
          ∗ ((SparseCore.T d).loc main_v1 ↦{fullShare} W main_v1) ∗ (tfLoc d ↦{fullShare} W main_v2) ∗ (sfLoc d ↦{fullShare} W main_v3)
          ∗ (oLoc d ↦{fullShare} W main_v4) ∗ v5Loc d ↦{fullShare} W main_v5) := by
  unfold unscopedBufs
  rw [show (Finset.univ.filter fun b : Ref sig .tc => ¬ b.isScoped) = {main_arg0, main_arg1, main_v0, main_c, main_call0_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ)

/-- The launch valuation, and the valuation when the call is reached: the six operations' results. -/
def V0 (d : Dev nD) : Valuation τ sig (Elt F) := fun b => m (d, b)
def V6 (d : Dev nD) : Valuation τ sig (Elt F) :=
  (opR3 (F := F)).result ((opR2 (F := F)).result ((opPad (F := F)).result ((opCv (F := F)).result ((opC (F := F)).result ((opT (F := F)).result (V0 m d))))))

theorem unscoped_held (d : Dev nD) : (unscopedBufs d (fun b => m ((SparseCore.T d).loc b)) : sProp 𝕄) = held (T d) S10 (V0 m d) := by
  rw [unscopedBufs_eq, held_S10]; rfl

set_option maxHeartbeats 400000 in
theorem V6_a0 (d : Dev nD) : V6 m d a0' = m (a0Loc d) := rfl
set_option maxHeartbeats 400000 in
theorem V6_a1 (d : Dev nD) : V6 m d a1' = m (a1Loc d) := rfl
set_option maxHeartbeats 400000 in
theorem V6_v4 (d : Dev nD) : V6 m d v4' = m (oLoc d) := rfl
set_option maxHeartbeats 400000 in
theorem V6_v2 (d : Dev nD) : V6 m d v2' = (arrays m).tf d := rfl
set_option maxHeartbeats 400000 in
theorem V6_v3 (d : Dev nD) : V6 m d v3' = (arrays m).sf d := rfl

/-! ## The result's pieces, regrouped per SparseCore and tile -/

omit m in
theorem oSet_eq (w : Fin 32) : oSet w = (oPart w).set := by
  show ((View.whole (main_v4_scv : Ref sig .scVector)).slice (oPart w)).set = _
  rw [View.set_slice]; exact Finset.map_refl
omit m in
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit m in
theorem oSets_cover : (Finset.univ : Finset (Fin 32)).biUnion oSet = Finset.univ :=
  (Finset.biUnion_congr rfl fun i _ => oSet_eq i).trans (Rect.biUnion_part odiv)

omit m in
/-- The result's buffer whole is its thirty-two pieces. -/
theorem oPts_pieces (d : Dev nD) (f : Buf (Elt F) (oLoc d)) :
    (oLoc d ↦{fullShare} f : sProp 𝕄) = bigSep Finset.univ fun w : Fin 32 => oPts d w f := by
  rw [← pointsTo_biUnion Finset.univ (ℓ := oLoc d) oSet oSets_disjoint, oSets_cover]; try rfl

/-- Piece `2 i + c` is tile `i` of SparseCore `c`'s: every piece is exactly one tile's. -/
def widEquiv : Fin 2 × Fin 16 ≃ Fin 32 where
  toFun p := widOf p.1 p.2
  invFun w := (⟨w.val % 2, Nat.mod_lt _ (by decide)⟩, ⟨w.val / 2, by have := w.isLt; omega⟩)
  left_inv p := by
    rcases p with ⟨c, i⟩
    have hc := c.isLt; have hi := i.isLt
    apply Prod.ext <;> apply Fin.ext <;> simp only [widOf] <;> omega
  right_inv w := by apply Fin.ext; simp only [widOf]; omega

omit m in
theorem bigSep_pieces (Φ : Fin 32 → sProp 𝕄) :
    bigSep Finset.univ Φ = bigSep Finset.univ fun c : Fin 2 => bigSep Finset.univ fun i : Fin 16 => Φ (widOf c i) := by
  rw [bigSep_univ_equiv widEquiv Φ, bigSep_univ_prod]; rfl

omit m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F] (A : Arrays F)

omit m in
theorem st0_eq (d : Dev nD) :
    (bigSep Finset.univ fun c : Fin ((K (F := F)).nCore 0) => (P A).st 0 d c)
      = iprop((bigSep Finset.univ fun c : Fin 2 => tfPts A d (qc c)) ∗ (bigSep Finset.univ fun c : Fin 2 => sfPts A d (qc c))
          ∗ bigSep Finset.univ fun c : Fin 2 => bigSep Finset.univ fun i : Fin 16 => oPts d (widOf c i) (A.o₀ d)) := by
  refine (bigSep_cores (F := F) fun c' : Fin 2 =>
    iprop(tfPts A d (qc c') ∗ sfPts A d (qc c') ∗ bigSep Finset.univ fun i : Fin 16 => oPts d (widOf c' i) (A.o₀ d))).trans ?_
  rw [bigSep_sep', bigSep_sep']

omit m in
/-- What @main hands the call: of each flat array a read token per SparseCore (the remainder is not needed again), and the
    result's buffer cut into its pieces. -/
theorem st0_intro (d : Dev nD) :
    iprop((tfLoc d ↦{fullShare} A.tf d) ∗ (sfLoc d ↦{fullShare} A.sf d) ∗ (oLoc d ↦{fullShare} A.o₀ d))
      ⊢ (bigSep Finset.univ fun c : Fin ((K (F := F)).nCore 0) => (P A).st 0 d c : sProp 𝕄) := by
  rw [st0_eq, oPts_pieces, bigSep_pieces]
  iintro ⟨Htf, Hsf, Ho⟩
  ihave Htf' := (pointsTo_toks_split fullShare 2) $$ Htf
  icases Htf' with ⟨-, Htf⟩
  ihave Hsf' := (pointsTo_toks_split fullShare 2) $$ Hsf
  icases Hsf' with ⟨-, Hsf⟩
  isplitl [Htf]; · iexact Htf
  isplitl [Hsf]; · iexact Hsf
  iexact Ho

omit m in
/-- A piece that holds the kernel's result at each of its indices is that piece at the kernel's result. -/
theorem oDone_elim (d : Dev nD) (w : Fin 32) :
    oDone A d w ⊢ (oPts d w (Cert.TeamSkill.kOut (F := F) (A.tf d) (A.sf d)) : sProp 𝕄) := by
  unfold oDone
  iintro ⟨%f, Hf, %hf⟩
  have e : (oPts d w f : sProp 𝕄) = oPts d w (Cert.TeamSkill.kOut (F := F) (A.tf d) (A.sf d)) := pointsTo_congr hf
  rw [← e]
  iexact Hf

omit m in
/-- What the call brings back: the result's buffer whole at the kernel's result. -/
theorem dn0_elim (d : Dev nD) :
    (bigSep Finset.univ fun c : Fin ((K (F := F)).nCore 0) => (P A).dn 0 d c)
      ⊢ (oLoc d ↦{fullShare} Cert.TeamSkill.kOut (F := F) (A.tf d) (A.sf d) : sProp 𝕄) := by
  have e : (bigSep Finset.univ fun c : Fin ((K (F := F)).nCore 0) => (P A).dn 0 d c)
      = (bigSep Finset.univ fun w : Fin 32 => oDone A d w : sProp 𝕄) :=
    (bigSep_cores (F := F) fun c' : Fin 2 => bigSep Finset.univ fun i : Fin 16 => oDone A d (widOf c' i)).trans
      (bigSep_pieces (fun w => oDone A d w)).symm
  rw [e, oPts_pieces]
  exact bigSep_mono fun w _ => oDone_elim A d w

/-! ## @main on the TensorCore -/

omit [FloatOps F] A in
theorem V6_o₀ (d : Dev nD) : V6 m d v4' = (arrays m).o₀ d := rfl

omit [FloatOps F] A in
/-- The ten arrays when the call is reached: the arguments at their launch contents, the two flat arrays computed, the
    result's buffer as the launch left it. -/
theorem held_V6 (d : Dev nD) :
    (held (T d) S10 ((opR3 (F := F)).result ((opR2 (F := F)).result ((opPad (F := F)).result ((opCv (F := F)).result ((opC (F := F)).result ((opT (F := F)).result (V0 m d))))))) : sProp 𝕄)
      = iprop((a0Loc d ↦{fullShare} m (a0Loc d)) ∗ (a1Loc d ↦{fullShare} m (a1Loc d)) ∗ ((SparseCore.T d).loc main_v0 ↦{fullShare} V6 m d t0')
          ∗ ((SparseCore.T d).loc main_c ↦{fullShare} V6 m d c') ∗ ((SparseCore.T d).loc main_call0_v0 ↦{fullShare} V6 m d cv')
          ∗ ((SparseCore.T d).loc main_v1 ↦{fullShare} V6 m d p1') ∗ (tfLoc d ↦{fullShare} (arrays m).tf d) ∗ (sfLoc d ↦{fullShare} (arrays m).sf d)
          ∗ (oLoc d ↦{fullShare} (arrays m).o₀ d) ∗ v5Loc d ↦{fullShare} V6 m d v5') := by
  show held (SparseCore.T d) S10 (V6 m d) = _
  rw [held_S10, V6_a0, V6_a1, V6_v2, V6_v3, V6_o₀]

omit m A in
theorem hT : (opT (F := F)).bufs ⊆ S10 := show ({a0', t0'} : Finset (DevRef τ sig)) ⊆ S10 by decide
omit m A in
theorem hC : (opC (F := F)).bufs ⊆ S10 := show ({c'} : Finset (DevRef τ sig)) ⊆ S10 by decide
omit m A in
theorem hCv : (opCv (F := F)).bufs ⊆ S10 := show ({c', cv'} : Finset (DevRef τ sig)) ⊆ S10 by decide
omit m A in
theorem hPad : (opPad (F := F)).bufs ⊆ S10 := show ({t0', cv', p1'} : Finset (DevRef τ sig)) ⊆ S10 by decide
omit m A in
theorem hR2 : (opR2 (F := F)).bufs ⊆ S10 := show ({p1', v2'} : Finset (DevRef τ sig)) ⊆ S10 by decide
omit m A in
theorem hR3 : (opR3 (F := F)).bufs ⊆ S10 := show ({a1', v3'} : Finset (DevRef τ sig)) ⊆ S10 by decide

/-- The last operation's own two arrays. -/
abbrev S2 : Finset (DevRef τ sig) := {v4', v5'}
omit m [FloatOps F] A in
theorem held_S2 (d : Dev nD) (W : Valuation τ sig (Elt F)) :
    (held (T d) S2 W : sProp 𝕄) = iprop((oLoc d ↦{fullShare} W v4') ∗ v5Loc d ↦{fullShare} W v5') := by
  unfold held S2
  rw [SparseCore.bigSep_insert' (by decide), bigSep_singleton]
omit m A in
theorem hR5 : (opR5 (F := F)).bufs ⊆ S2 := show ({v4', v5'} : Finset (DevRef τ sig)) ⊆ S2 by decide

/-- The kernel's result from the launch memory. -/
abbrev kRes (d : Dev nD) : FVec F S16384 .f32 := Cert.TeamSkill.kOut (F := F) (teamFlat (m (a0Loc d))) (skillFlat (m (a1Loc d)))

/-- After the call: the result's buffer at the kernel's result. -/
def V7 (d : Dev nD) : Valuation τ sig (Elt F) := Function.update (V6 m d) v4' (kRes m d)
omit A in
theorem V7_v4 (d : Dev nD) : V7 m d v4' = kRes m d := Function.update_self _ _ _
omit A in
theorem V7_v5 (d : Dev nD) : V7 m d v5' = V6 m d v5' := Function.update_of_ne (show v5' ≠ v4' by decide) _ _
omit A in
theorem held_V8 (d : Dev nD) :
    (held (T d) S2 ((opR5 (F := F)).result (V7 m d)) : sProp 𝕄)
      = iprop((oLoc d ↦{fullShare} kRes m d) ∗ v5Loc d ↦{fullShare} outCast (kRes m d)) := by
  rw [held_S2, (opR5 (F := F)).result_of_not_mem (V7 m d) (b := v4') (show v4' ∉ ({v5'} : Finset (DevRef τ sig)) by decide), V7_v4,
    show (opR5 (F := F)).result (V7 m d) v5' = outCast (V7 m d v4') from rfl, V7_v4]

/-- What @main leaves the claim: the two arguments at their launch contents, the result array at the kernel's result
    read as [16384, 1, 1]. -/
abbrev FIN (d : Dev nD) : sProp 𝕄 :=
  iprop((a0Loc d ↦{fullShare} m (a0Loc d)) ∗ (a1Loc d ↦{fullShare} m (a1Loc d)) ∗ v5Loc d ↦{fullShare} outCast (kRes m d))

variable (ρ : Dev nD → PrngReg)

omit A in
/-- @main on device `d`'s TensorCore: the six host operations before the call, over the ten arrays held whole; the call,
    from a read token of each flat array per SparseCore and the result's pieces, back with the result's buffer at the
    kernel's result; the last reshape, over its own two arrays; the arguments kept throughout. -/
theorem hmain (κ : GSem nD τ sig → ℕ) (d : Dev nD) :
    iprop((K (F := F)).ctx EH (P (arrays m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  -- the transpose, the constant, the pad's two operations, the two reshapes
  iapply (wp_hlo_within 𝒱 (SparseCore.T d) none Set.univ (op := opT) (S := S10) hT (V := V0 m d)) $$ [Hb Hheld]
  · isplitl [Hb] <;> iassumption
  iintro ⟨Hb, Hheld⟩
  rw [wp_ret]; imodintro
  iapply (wp_hlo_within 𝒱 (SparseCore.T d) none Set.univ (op := opC) (S := S10) hC (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opCv) (S := S10) hCv (V := (opC (F := F)).result ((opT (F := F)).result (V0 m d)))) $$ [Hb Hheld]
  · isplitl [Hb] <;> iassumption
  iintro ⟨Hb, Hheld⟩
  rw [wp_ret]; imodintro
  iapply (wp_hlo_within 𝒱 (SparseCore.T d) none Set.univ (op := opPad) (S := S10) hPad (V := (opCv (F := F)).result ((opC (F := F)).result ((opT (F := F)).result (V0 m d))))) $$ [Hb Hheld]
  · isplitl [Hb] <;> iassumption
  iintro ⟨Hb, Hheld⟩
  rw [wp_ret]; imodintro
  imodintro
  iapply (wp_hlo_within 𝒱 (SparseCore.T d) none Set.univ (op := opR2) (S := S10) hR2 (V := (opPad (F := F)).result ((opCv (F := F)).result ((opC (F := F)).result ((opT (F := F)).result (V0 m d)))))) $$ [Hb Hheld]
  · isplitl [Hb] <;> iassumption
  iintro ⟨Hb, Hheld⟩
  rw [wp_ret]; imodintro
  iapply (wp_hlo_within 𝒱 (SparseCore.T d) none Set.univ (op := opR3) (S := S10) hR3 (V := (opR2 (F := F)).result ((opPad (F := F)).result ((opCv (F := F)).result ((opC (F := F)).result ((opT (F := F)).result (V0 m d))))))) $$ [Hb Hheld]
  · isplitl [Hb] <;> iassumption
  iintro ⟨Hb, Hheld⟩
  rw [wp_ret]; imodintro
  -- the call
  ihave Hh := (Entails.of_eq (held_V6 (F := F) m d)) $$ Hheld
  icases Hh with ⟨Ha0, Ha1, -, -, -, -, Htf, Hsf, Ho, Hv5⟩
  iapply ((K (F := F)).wp_run (D (F := F)) 𝒱 (EH := EH) (P := P (arrays m)) κ d 0) $$ [Hst Htf Hsf Ho Hb Ha0 Ha1 Hv5]
  isplitr; · iexact Hctx
  isplitl [Hst]; · iexact Hst
  isplitl [Htf Hsf Ho]
  · iapply (st0_intro (arrays m) d)
    isplitl [Htf]; · iexact Htf
    isplitl [Hsf]; · iexact Hsf
    iexact Ho
  iintro ⟨Hst, Hdn⟩
  ihave Ho := (dn0_elim (arrays m) d) $$ Hdn
  -- the last reshape, over the result's buffer and the result array
  iapply (wp_hlo_within 𝒱 (SparseCore.T d) none Set.univ (op := opR5) (S := S2) hR5 (V := V7 m d)) $$ [Hb Ho Hv5]
  · isplitl [Hb]; · iexact Hb
    rw [held_S2, V7_v4, V7_v5]
    isplitl [Ho]; · iexact Ho
    iexact Hv5
  iintro ⟨Hb, Hheld⟩
  ihave Hh := (Entails.of_eq (held_V8 (F := F) m d)) $$ Hheld
  icases Hh with ⟨-, Hv5⟩
  rw [wp_ret]; imodintro; imodintro
  isplitl [Hst]; · iexact Hst
  isplitl [Ha0]; · iexact Ha0
  isplitl [Ha1]; · iexact Ha1
  iexact Hv5

/-! ## The final memory -/

/-- What the final memory holds on device `d`: the result array the kernel's result read as [16384, 1, 1], the two
    arguments their launch contents. -/
def fq (d : Dev nD) (s' : Phys nD τ sig (Elt F)) : Prop :=
  s'.mem.mem (v5Loc d) = outCast (kRes m d) ∧ s'.mem.mem (a0Loc d) = m (a0Loc d) ∧ s'.mem.mem (a1Loc d) = m (a1Loc d)

omit A ρ in
/-- An array held whole at the full share agrees with the memory at every index. -/
theorem hfin (d : Dev nD) (s' : Phys nD τ sig (Elt F)) : iprop(FIN m d ∗ SI s') ⊢ (⌜fq m d s'⌝ : sProp 𝕄) := by
  iintro ⟨⟨Ha0, Ha1, Hv5⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := v5Loc d) (I := Finset.univ) (q := fullShare) (f := outCast (kRes m d))) $$ [HSI Hv5]
  · isplitl [HSI] <;> iassumption
  icases H with %h5
  ipureintro
  exact ⟨funext fun i => h5 i (Finset.mem_univ i), funext fun i => h0 i (Finset.mem_univ i), funext fun i => h1 i (Finset.mem_univ i)⟩

/-- The run's post, in the spelling of the certificate's claims: on every device the result array holds the kernel's
    result read as [16384, 1, 1] and the two arguments are unchanged. -/
def QC : PUnit × MemSt nD τ sig (Elt F) → Prop := fun r => ∀ c : Dev nD,
  r.2.mem ((c.tc : Thread nD τ).loc main_v5) = outCast (kRes m c)
    ∧ r.2.mem ((c.tc : Thread nD τ).loc main_arg0) = m ((c.tc : Thread nD τ).loc main_arg0)
    ∧ r.2.mem ((c.tc : Thread nD τ).loc main_arg1) = m ((c.tc : Thread nD τ).loc main_arg1)

omit A ρ in
theorem hQ (s' : Phys nD τ sig (Elt F)) (h : ∀ d, fq m d s') : QC m (⟨⟩, s'.mem) := fun c => h c

end Cert.Proof.KI

end
-- ==== Proof.StorableKI.lean ====
/- The handshakes' payloads can be stored in an invariant: each is built from points-to assertions, pure facts,
   separating conjunctions, existentials and decided conditionals. -/
import proofs.«203918_g8735963480385_cont_9to1c4b_274_26_alg».proof.Proof.CommonKI

noncomputable section

namespace Cert.Proof.KI

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (A : Arrays F)

local notation "𝕄" => MT nD τ sig (HIx 1) (Elt F) ℕ UU ℕ

instance P_storable : (P (F := F) A).IsStorable where
  st q d c := match q with
    | 0 => by unfold P; dsimp only; infer_instance
  dn q d c := match q with
    | 0 => by unfold P oDone; dsimp only; infer_instance
  go q d c i := match q with
    | 0 => by unfold P; dsimp only; split <;> infer_instance
  td q d c i := match q with
    | 0 => by unfold P oDone shBack; dsimp only; split <;> infer_instance

end Cert.Proof.KI

end
-- ==== Proof.SplitKI.lean ====
/-
  How a SparseCore's operands split among its sixteen tiles, and how the tiles' results gather back.

  The call hands SparseCore `c` a read token of the flat member list and of the skill table, and the sixteen 512-word
  pieces of the result its tiles write. Each read token splits into sixteen tokens, one per tile, and a remainder that is
  not needed again. Each tile takes its piece of the result. The SparseCore's shared scratch is one of the sequencer's own
  buffers; it goes whole to tile 0, which stages the table into it. On the way back every tile returns its piece holding
  the kernel's result there, and its read token of the shared scratch at the table's contents; tile 0 returns the
  remainder of that share too, so the sixteen tokens and the remainder rejoin to the scratch whole.
-/
import proofs.«203918_g8735963480385_cont_9to1c4b_274_26_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## The split of a SparseCore's operands among its sixteen tiles -/

/-- A conjunction over the call's tiles is one over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A conjunction over the sixteen tiles in which only tile 0's term is not empty is that term. -/
theorem bigSep_if_zero (X : sProp 𝕄) : (bigSep Finset.univ fun i : Fin 16 => if i.val = 0 then X else iprop(emp)) = X := by
  rw [SparseCore.bigSep_erase' (Finset.mem_univ (0 : Fin 16)),
    bigSep_congr (s := Finset.univ.erase (0 : Fin 16)) (Φ := fun i : Fin 16 => if i.val = 0 then X else iprop(emp)) (Ψ := fun _ => (iprop(emp) : sProp 𝕄))
      (fun i hi => if_neg (fun h => (Finset.ne_of_mem_erase hi) (Fin.ext h))),
    bigSep_emp', if_pos (show ((0 : Fin 16)).val = 0 from rfl)]
  exact equiv_iff.mp sep_emp

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F] (A : Arrays F)

theorem P_st (d : Dev nD) (c : Fin ((K (F := F)).nCore 0)) :
    (P A).st 0 d c = iprop(tfPts A d (qc (cOf c)) ∗ sfPts A d (qc (cOf c)) ∗ bigSep Finset.univ fun i : Fin 16 => oPts d (widOf (cOf c) i) (A.o₀ d)) := rfl
theorem P_dn (d : Dev nD) (c : Fin ((K (F := F)).nCore 0)) :
    (P A).dn 0 d c = bigSep Finset.univ fun i : Fin 16 => oDone A d (widOf (cOf c) i) := rfl
theorem P_go (d : Dev nD) (c : Fin ((K (F := F)).nCore 0)) (i : Fin ((K (F := F)).nSub 0)) :
    (P A).go 0 d c i = iprop(tfPts A d (qt (cOf c) (iOf i)) ∗ sfPts A d (qt (cOf c) (iOf i)) ∗ oPts d (widOf (cOf c) (iOf i)) (A.o₀ d)
        ∗ if (iOf i).val = 0 then shAny d (coreOf c) else iprop(emp)) := rfl
theorem P_td (d : Dev nD) (c : Fin ((K (F := F)).nCore 0)) (i : Fin ((K (F := F)).nSub 0)) :
    (P A).td 0 d c i = iprop(oDone A d (widOf (cOf c) (iOf i)) ∗ shBack A d (coreOf c) (iOf i)) := rfl

/-- SparseCore `c`'s read token of the member list and of the table split into sixteen tokens, one per tile (the
    remainder is not needed again); the sixteen result pieces go one to each tile; the shared scratch, found whole among
    the sequencer's own buffers, goes to tile 0. On the way back each tile's finished piece is its term of the call's
    result, and the sixteen read tokens of the shared scratch with tile 0's remainder rejoin to the scratch whole, at
    the table's contents. -/
theorem vecSplit : (K (F := F)).VecSplit (P A) 0 := by
  intro d c
  rw [P_st, P_dn]
  simp only [P_go, P_td]
  unfold shBack
  rw [bigSep_tasks (F := F) (fun i => iprop(tfPts A d (qt (cOf c) i) ∗ sfPts A d (qt (cOf c) i) ∗ oPts d (widOf (cOf c) i) (A.o₀ d)
        ∗ if i.val = 0 then shAny d (coreOf c) else iprop(emp))),
    bigSep_tasks (F := F) (fun i => iprop(oDone A d (widOf (cOf c) i)
        ∗ (shTok A d (coreOf c) i ∗ if i.val = 0 then shLoc d (coreOf c) ↦{qs₀} shTbl A d (coreOf c) else iprop(emp)))),
    bigSep_sep', bigSep_sep', bigSep_sep', bigSep_sep', bigSep_sep', bigSep_if_zero, bigSep_if_zero, ownBufs_S]
  iintro ⟨⟨Htf, Hsf, Ho⟩, Hsh, Hrest⟩; imodintro
  ihave Htf' := (pointsTo_toks_split (qc (cOf c)) 16) $$ Htf
  icases Htf' with ⟨-, Htf'⟩
  ihave Hsf' := (pointsTo_toks_split (qc (cOf c)) 16) $$ Hsf
  icases Hsf' with ⟨-, Hsf'⟩
  isplitl [Htf' Hsf' Ho Hsh]
  · isplitl [Htf']; · iexact Htf'
    isplitl [Hsf']; · iexact Hsf'
    isplitl [Ho]; · iexact Ho
    iexact Hsh
  iintro ⟨Hdone, Htok, Hrem⟩
  isplitl [Hdone]; · iexact Hdone
  isplitl [Htok Hrem]
  · ihave H := (pointsTo_toks_join fullShare 16) $$ [Htok Hrem]
    · isplitl [Hrem]; · iexact Hrem
      iexact Htok
    iexists (shTbl A d (coreOf c)); iexact H
  iexact Hrest

end Cert.Proof.KI

end
-- ==== Proof.LaunchKI.lean ====
/-
  The launch element of the certificate's ghost state, and what the launch hands over for it.

  The ghost state is a product: the handshakes' rounds, the barrier cells' rounds, the transfers' counters. The launch
  element is the handshakes' initial rounds, the barrier cells' initial rounds (one cell per tile of the device; in each
  cell one duty token per tile of the same SparseCore), and the counters' unit. From it, from the free semaphores at zero
  and from the credit for the tiles' own debts, the barrier cells' invariants are allocated at once and every tile is
  dealt its kit: the sixteen invariants of its SparseCore's cells and that each has reached round 0, its own position at
  the origin of round 0, its duty token in each of the sixteen rounds, and the credit for the sixteen units of its own
  round. The call runs on both SparseCores, so every tile of the device is dealt a kit. The schedule's payload plays no
  part here.
-/
import proofs.«203918_g8735963480385_cont_9to1c4b_274_26_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## The launch element of the certificate's ghost state, and what the launch hands over -/

abbrev DCI : Type := Dev nD × Fin τ.nSC × Fin τ.nSub
abbrev bcell₃ (x : DCI) : GSem nD τ sig := bcell x.1 x.2.1 x.2.2

/-- Every tile's barrier cell. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' rounds, the barrier cells' rounds, the transfers' counters at their unit. -/
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

variable [FloatOps F] (A : Arrays F)

/-- The barrier cells' invariants, allocated at once. -/
theorem invs_b : iprop((bigSep bCells fun g => (semVal g 0 : sProp 𝕄)) ∗ bigSep bCells fun g => roundState EB (bRd (F := F) A) g 0)
    ⊢ |={Set.univ}=> iprop(∃ κ : GSem nD τ sig → ℕ, bigSep bCells fun g => cellInv EB (bRd (F := F) A) (κ g) g) := by
  refine (Rounds.bodies_intro EB (bRd (F := F) A) bCells).trans ((inv_alloc_family bCells (Rounds.body EB (bRd (F := F) A)) ∅ (E := Set.univ)).trans ?_)
  iintro H
  imod H with ⟨%κ, -, Hinv⟩
  imodintro; iexists κ; iexact Hinv

/-- The credit for the kernels' own debts, regrouped: each tile the sixteen units of its own cell. Every tile of the
    device is in the call's grid, so every tile owes, and is credited, alike. -/
theorem creds_b : ((P (F := F) A).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) A).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) A).oxFrom 0 (V d c i) = oxV d c := fun i => by
    have h := (P (F := F) A).oxFrom_step (0 : Fin 1) (V d c i)
    rw [(P (F := F) A).oxFrom_end (V d c i) (n := (0 : Fin 1).val + 1) le_rfl, add_zero] at h
    exact h
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P (F := F) A).x q (SparseCore.T d)) = iprop(emp) :=
  bigSep_univ_of_subsingleton (0 : Fin 1)
theorem Px_S (d : Dev nD) (c : Fin τ.nSC) : (bigSep Finset.univ fun q : Fin 1 => (P (F := F) A).x q (S d c)) = iprop(emp) :=
  bigSep_univ_of_subsingleton (0 : Fin 1)
theorem Px_V (d : Dev nD) (c : Fin τ.nSC) (i : Fin τ.nSub) :
    (bigSep Finset.univ fun q : Fin 1 => (P (F := F) A).x q (V d c i)) = bkit A d c i :=
  bigSep_univ_of_subsingleton (0 : Fin 1)

/-- What every tile is handed alike: every barrier cell's invariant, and that each has reached round 0. -/
abbrev shared : sProp 𝕄 :=
  iprop((∃ κ : GSem nD τ sig → ℕ, bigSep Finset.univ fun x : DCI => cellInv EB (bRd (F := F) A) (κ (bcell₃ x)) (bcell₃ x))
    ∗ bigSep Finset.univ fun x : DCI => reached EB (bcell₃ x) 0)

/-- One tile's kit out of those. -/
theorem kit_intro (dci : DCI) : iprop(shared (F := F) A ∗ mine (F := F) dci) ⊢ (bkit (F := F) A dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) A) (κ (bcell₃ x)) (bcell₃ x)) fun j _ =>
        sep_elim_left.trans (bigSep_elim (Φ := fun x : DCI => (cellInv EB (bRd (F := F) A) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) A ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) A).x q thr : sProp 𝕄) := by
  rw [SparseCore.Cfg.bigSep_threads (fun thr : Thread nD τ => bigSep Finset.univ fun q : Fin 1 => (P (F := F) A).x q thr)]
  simp only [Px_T, Px_S, Px_V, bigSep_emp']
  iintro ⟨#Hsh, Hat, Htok, Hcred⟩
  isplitr; · iempintro
  isplitr; · iempintro
  iapply (bigSep_mono_frame (R := shared (F := F) A) (Φ := mine (F := F)) fun dci _ => kit_intro (F := F) A dci)
  isplitr; · iexact Hsh
  unfold mine
  rw [bigSep_sep', bigSep_sep']
  isplitl [Hat]; · iexact Hat
  isplitl [Htok]; · iexact Htok
  iexact Hcred

/-- The launch element pays for the launch: the handshakes' library as the launch theorem wants it, and out of the
    barrier cells' library, the free semaphores and the credit, each tile's barrier kit. -/
theorem hu₀ : iprop(ownU (u₀ (F := F)) ∗ (P (F := F) A).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P A).x q thr) : sProp 𝕄) := by
  unfold u₀
  iintro ⟨Hu, Hcred, Hfree⟩
  ihave H := (ownU_split _ _) $$ Hu
  icases H with ⟨HH, HB⟩
  imod (Rounds.fund EB (bRd (F := F) A) bCells bToks) $$ HB with ⟨Hst, #Hr, Hat, Htok⟩
  ihave Hsems := (sems_b (F := F)) $$ Hfree
  imod (invs_b (F := F) A) $$ [Hsems Hst] with ⟨%κ, #Hinv⟩
  · isplitl [Hsems] <;> iassumption
  ihave Hcred' := (creds_b A) $$ Hcred
  ihave Hinv' := (Entails.of_eq (bCells_eq (F := F) fun g => cellInv EB (bRd (F := F) A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal A)
  isplitr
  · isplitl; · iexists κ; iexact Hinv'
    iexact Hr'
  isplitl [Hat']; · iexact Hat'
  isplitl [Htok']; · iexact Htok'
  iexact Hcred'

end Cert.Proof.KI

end
-- ==== Proof.RunKI.lean ====
/-
  The kernel's program, run whole. The launch theorem turns the proofs of the parts into the run of all thirty-five
  threads of the device — the TensorCore, two sequencers, thirty-two vector subcores — from a memory whose semaphores
  read zero: one vector subcore's task (the body obligation, a hypothesis here), how a SparseCore's operands split
  among its sixteen tasks and gather again, @main on the TensorCore, the launch element of the ghost state, and the
  reading of the final memory. Every weakly fair execution terminates without fault, and ends with the result array
  at the kernel's result read as [16384, 1, 1] and the two arguments unchanged.
-/
import proofs.«203918_g8735963480385_cont_9to1c4b_274_26_alg».proof.Proof.CommonKI
import proofs.«203918_g8735963480385_cont_9to1c4b_274_26_alg».proof.Proof.StorableKI
import proofs.«203918_g8735963480385_cont_9to1c4b_274_26_alg».proof.Proof.SplitKI
import proofs.«203918_g8735963480385_cont_9to1c4b_274_26_alg».proof.Proof.LaunchKI
import proofs.«203918_g8735963480385_cont_9to1c4b_274_26_alg».proof.Proof.MainKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The program's run from the launch memory `m`, given one vector subcore's task proved. -/
theorem run_main [∀ e, Nonempty (Elt F e)] (m : (ℓ : Loc nD τ sig) → Buf (Elt F) ℓ) (ρ : Dev nD → PrngReg)
    (hobl : (K (F := F)).TileObl (D (F := F)) 𝒱 (P (arrays m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (arrays m)) facts v₀
    (fun q hq => match q with | 0 => nomatch hq)
    (fun q _ => match q with | 0 => hobl)
    (fun q _ => match q with | 0 => vecSplit (arrays m))
    m ρ main (fun _ => iprop(emp)) (FIN m) (u₀ (F := F)) (hu₀ (arrays m)) (hmain m ρ) (fq m) (hfin m) (QC m) (hQ m)

end Cert.Proof.KI

end
-- ==== Proof.BodyDefsKI.lean ====
/-
  The tile's body, cut at the subcore barrier. Before it: twenty 512-word pieces of the member list copied into the tile's
  list buffer (piece `t` of the buffer is positions `16384 t + 1024 s + 512 c + [0, 512)` of the flat list on tile `(c, s)`),
  and on tile 0 the table staged into the shared scratch. After it (`progB`, then `progC`): the gather of the table's rows
  named by the list, the loop that adds the twenty gathered vectors sixteen lanes at a time, and the write-out of the
  tile's 512 results.
-/
import proofs.«203918_g8735963480385_cont_9to1c4b_274_26_alg».proof.Proof.CommonKI
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.KernelIdeal.main_v2_scv : Memref Cert.KernelIdeal.sig Kind.scVector Space.hbm Cert.KernelIdeal.S393216 EltTy.i32)
local notation "sfV" => (Memref.whole Cert.KernelIdeal.main_v3_scv : Memref Cert.KernelIdeal.sig Kind.scVector Space.hbm Cert.KernelIdeal.S100000 EltTy.f32)
local notation "oV" => (Memref.whole Cert.KernelIdeal.main_v4_scv : Memref Cert.KernelIdeal.sig Kind.scVector Space.hbm Cert.KernelIdeal.S16384 EltTy.f32)
local notation "shV" => (Memref.whole Cert.KernelIdeal.cc0_scratch0 : Memref Cert.KernelIdeal.sig Kind.scVector Space.shared Cert.KernelIdeal.S100000 EltTy.f32)
local notation "lV" => (Memref.whole Cert.KernelIdeal.cc0_scratch1 : Memref Cert.KernelIdeal.sig Kind.scVector Space.vmem Cert.KernelIdeal.S10240 EltTy.i32)
local notation "vV" => (Memref.whole Cert.KernelIdeal.cc0_scratch2 : Memref Cert.KernelIdeal.sig Kind.scVector Space.vmem Cert.KernelIdeal.S10240 EltTy.f32)
local notation "rV" => (Memref.whole Cert.KernelIdeal.cc0_scratch3 : Memref Cert.KernelIdeal.sig Kind.scVector Space.vmem Cert.KernelIdeal.S512 EltTy.f32)

variable (A : Arrays F) (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
abbrev thr (d : Dev nD) (L : grid0.Coords) : Thread nD τ := V d (cV L) (jV L)

abbrev cAcell (d : Dev nD) (c : Fin τ.nSC) (i : Fin τ.nSub) : GSem nD τ sig := (V d c i, .dma cc0_scratch4.sem)
abbrev cBcell (d : Dev nD) (c : Fin τ.nSC) (i : Fin τ.nSub) : GSem nD τ sig := (V d c i, .dma cc0_scratch5.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase (cDcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch4.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch5.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide, Finset.mem_erase.mpr ⟨by simp [cAcell, cDcell]; decide,
      (mem_ownCells (g := cDcell d (cV L) (jV L))).mpr ⟨rfl, by show (SemLoc.dma cc0_scoped1.sem : SemLoc sig).isScoped .scVector = true; decide⟩⟩⟩⟩)]

omit [FloatOps F] in
/-- The three tile buffers are among the subcore's own: they are they, at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f)
          ∗ (∃ f, (V d (cV L) (jV L)).loc cc0_scratch3 ↦{fullShare} f)
          ∗ bigSep ((((ownRefs (τ := τ) (.scVector (cV L) (jV L))).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch1) rfl),
    SparseCore.bigSep_erase' (Finset.mem_erase.mpr ⟨fun e => absurd (Proc.devRef_injective _ e) (show (cc0_scratch2 : Ref sig .scVector) ≠ cc0_scratch1 by decide),
      SparseCore.Cfg.mem_ownRefs_of_owner (p := Proc.scVector (cV L) (jV L)) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      SparseCore.Cfg.mem_ownRefs_of_owner (p := Proc.scVector (cV L) (jV L)) (b := (Proc.scVector (cV L) (jV L)).devRef cc0_scratch3) rfl⟩⟩)]

/-- The kernel after the barrier, up to the issue of the write-out: the text of the printed kernel from its
    `tpu.enqueue_indirect_dma` on. -/
abbrev progB (i : grid0.Coords) (arg2 : Memref sig .scVector .hbm S393216 .i32) (harg2 : arg2.IsWhole) (arg3 : Memref sig .scVector .hbm S100000 .f32) (harg3 : arg3.IsWhole) (arg4 : Memref sig .scVector .hbm S16384 .f32) (harg4 : arg4.IsWhole) (arg5 : Memref sig .scVector .shared S100000 .f32) (harg5 : arg5.IsWhole) (arg6 : Memref sig .scVector .vmem S10240 .i32) (harg6 : arg6.IsWhole) (arg7 : Memref sig .scVector .vmem S10240 .f32) (harg7 : arg7.IsWhole) (arg8 : Memref sig .scVector .vmem S512 .f32) (harg8 : arg8.IsWhole) (arg9 : DmaSems sig S_) (arg10 : DmaSems sig S_) (v190_r0 : DmaSems sig S_) (v190_r1 : DmaSems sig S_) :
    Prog (TpuEff nD τ sig (Elt F) Λ₀ (.scVector ((i 0).castLE hcore0) ((i 1).castLE hsub0))) (PUnit) := do
  let v186 : Memref sig .scVector .shared S100000 .f32 := arg5.slice (Rect.unit (s := S100000) ![0] S100000.size inb_S100000_S100000_0) (fun _ => rfl)
  SparseCore.enqueueIndirectGather rfl v186 arg7 gathers_S100000_S10240 arg6 rfl arg10.sem (View.wordExact_bits rfl) rfl (Or.inr rfl)
  let v187 : Memref sig .scVector .shared S100000 .f32 := arg5.slice (Rect.unit (s := S100000) ![0] S100000.size inb_S100000_S100000_0) (fun _ => rfl)
  SparseCore.waitIndirectGather arg10.sem v187 arg7 (View.wordExact_bits rfl) harg7.wordExact
  Scf.Loop.for k0_t1_loop k0_t1_ok ⟨⟩ (k0_t1_body i arg2 harg2 arg3 harg3 arg4 harg4 arg5 harg5 arg6 harg6 arg7 harg7 arg8 harg8 arg9 arg10 v190_r0 v190_r1)
  let v192_r1 : Memref sig .scVector .hbm S512 .f32 := arg4.slice (Rect.unit (s := S16384) (k0_off5 i) S512.size (k0_off5_inb i)) (fun _ => rfl)
  Prog.lift (.enqueueDma arg8 (.here v192_r1) (.dma v190_r1.sem) harg8.wordExact (View.wordExact_bits rfl) ⟨Or.inl rfl, trivial⟩)
  pure ⟨⟩

/-- The wait for the write-out. -/
abbrev progC (i : grid0.Coords) (arg2 : Memref sig .scVector .hbm S393216 .i32) (harg2 : arg2.IsWhole) (arg3 : Memref sig .scVector .hbm S100000 .f32) (harg3 : arg3.IsWhole) (arg4 : Memref sig .scVector .hbm S16384 .f32) (harg4 : arg4.IsWhole) (arg5 : Memref sig .scVector .shared S100000 .f32) (harg5 : arg5.IsWhole) (arg6 : Memref sig .scVector .vmem S10240 .i32) (harg6 : arg6.IsWhole) (arg7 : Memref sig .scVector .vmem S10240 .f32) (harg7 : arg7.IsWhole) (arg8 : Memref sig .scVector .vmem S512 .f32) (harg8 : arg8.IsWhole) (arg9 : DmaSems sig S_) (arg10 : DmaSems sig S_) (v190_r0 : DmaSems sig S_) (v190_r1 : DmaSems sig S_) (_b : PUnit) :
    Prog (TpuEff nD τ sig (Elt F) Λ₀ (.scVector ((i 0).castLE hcore0) ((i 1).castLE hsub0))) (PUnit) := do
  let v194_r1 : Memref sig .scVector .hbm S512 .f32 := arg4.slice (Rect.unit (s := S16384) (k0_off5 i) S512.size (k0_off5_inb i)) (fun _ => rfl)
  Prog.lift (.waitDma2 v190_r1.sem arg8 v194_r1 harg8.wordExact (View.wordExact_bits rfl))
  pure ⟨⟩

/-- Piece `t` of the member list as tile `L` copies it: 512 words of the flat list. -/
def listPay (t : Fin 20) : S512.Idx → Elt F .i32 :=
  ReadAs.same.apply (View.read (Elt F) ((tfV).slice (Rect.unit (s := S393216) (k0_off1 L (BitVec.ofNat 32 (16384 * t.val))) S512.size (k0_off1_inb L t)) (fun _ => rfl)).view (A.tf d))

/-- What tile `L` is handed of the shared scratch: tile 0 the scratch whole, the others nothing. -/
abbrev shGo (d : Dev nD) (L : grid0.Coords) : sProp 𝕄 := if (jL L).val = 0 then shAny (F := F) d (cV L) else iprop(emp)

/-- The tile's body, from what `go` hands it, its barrier kit and its scoped storage to what `taskDone` takes back. -/
def TileBody : Prop :=
  ∀ (d : Dev nD) (L : grid0.Coords) (_hF : (K (F := F)).Facts) (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit A d (cV L) (jV L)
        ∗ (tfPts A d (qt (cL L) (jL L)) ∗ sfPts A d (qt (cL L) (jL L)) ∗ oPts d (widOf (cL L) (jL L)) (A.o₀ d) ∗ shGo d L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__sc_kernel L tfV (Memref.isWhole_whole _) sfV (Memref.isWhole_whole _) oV (Memref.isWhole_whole _) shV (Memref.isWhole_whole _)
            lV (Memref.isWhole_whole _) vV (Memref.isWhole_whole _) rV (Memref.isWhole_whole _) cc0_scratch4 cc0_scratch5 cc0_scoped0 cc0_scoped1)
          fun _ => iprop((oDone A d (widOf (cL L) (jL L)) ∗ shBack A d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

/-- What the tile holds and owes after the barrier, and what the rest of its body leaves: the statement of the body's
    second half (`progB` then `progC`), in continuation form. `g` is the list buffer's contents: piece `t` of it is the
    tile's piece `t` of the flat member list. -/
def AfterBarrier : Prop :=
  ∀ (d : Dev nD) (L : grid0.Coords) (O : CellTallies nD τ sig (HIx 1)) (W : Waits sig (HIx 1)) (_hO : ∀ g, O g none = 0)
    (g : Buf (Elt F) ((lV).view.loc (V d (cV L) (jV L))))
    (_hg : ∀ (t : Fin 20) (j : Fin 512), g (ValueIdx.ix1 (⟨512 * t.val + j.val, by have := t.isLt; have := j.isLt; omega⟩ : Fin 10240))
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)))
    (fv : Buf (Elt F) ((vV).view.loc (V d (cV L) (jV L)))) (fr : Buf (Elt F) ((rV).view.loc (V d (cV L) (jV L))))
    (Ψ : PUnit → sProp 𝕄),
    iprop(Transfers.MayWaits (V d (cV L) (jV L)) (default : HIx 1) O
        ∗ ((lV).view.loc (V d (cV L) (jV L)) ↦{fullShare} g) ∗ ((vV).view.loc (V d (cV L) (jV L)) ↦{fullShare} fv)
        ∗ ((rV).view.loc (V d (cV L) (jV L)) ↦{fullShare} fr)
        ∗ ((shV).view.loc (V d (cV L) (jV L)) ↦{qs (jL L)} shTbl A d (cV L))
        ∗ oPts d (widOf (cL L) (jL L)) (A.o₀ d)
        ∗ semVal (cBcell d (cV L) (jV L)) 0 ∗ semVal (cDcell d (cV L) (jV L)) 0 ∗ owes (V d (cV L) (jV L)) O W
        ∗ (iprop(oDone A d (widOf (cL L) (jL L)) ∗ ((lV).view.loc (V d (cV L) (jV L)) ↦{fullShare} g)
              ∗ (∃ f, (vV).view.loc (V d (cV L) (jV L)) ↦{fullShare} f) ∗ (∃ f, (rV).view.loc (V d (cV L) (jV L)) ↦{fullShare} f)
              ∗ ((shV).view.loc (V d (cV L) (jV L)) ↦{qs (jL L)} shTbl A d (cV L))
              ∗ semVal (cBcell d (cV L) (jV L)) 0 ∗ semVal (cDcell d (cV L) (jV L)) 0
              ∗ ∃ W', ⌜∀ p ∈ W', p ∈ W ∨ p.2 = none⌝ ∗ owes (V d (cV L) (jV L)) O W')
            -∗ Ψ ⟨⟩))
      ⊢ wp frame (wpE (defs₀ (F := F)) 𝒱₀ (V d (cV L) (jV L)) none) Set.univ
          (progB (F := F) L tfV (Memref.isWhole_whole _) sfV (Memref.isWhole_whole _) oV (Memref.isWhole_whole _) shV (Memref.isWhole_whole _)
            lV (Memref.isWhole_whole _) vV (Memref.isWhole_whole _) rV (Memref.isWhole_whole _) cc0_scratch4 cc0_scratch5 cc0_scoped0 cc0_scoped1)
          fun b => wp frame (wpE (defs₀ (F := F)) 𝒱₀ (V d (cV L) (jV L)) none) Set.univ
            (progC (F := F) L tfV (Memref.isWhole_whole _) sfV (Memref.isWhole_whole _) oV (Memref.isWhole_whole _) shV (Memref.isWhole_whole _)
              lV (Memref.isWhole_whole _) vV (Memref.isWhole_whole _) rV (Memref.isWhole_whole _) cc0_scratch4 cc0_scratch5 cc0_scoped0 cc0_scoped1 b) Ψ

end Cert.Proof.KI

end
-- ==== Proof.OblKI.lean ====
/-
  From the tile's body at a symbolic place to the launch theorem's obligation. The launch theorem asks, for every
  device, every SparseCore `c` of the call's grid and every tile `i` of it, that the label the tile runs — read in the
  body table the launch extends — takes what the `go` handshake hands the tile, its barrier kit and its scoped
  storage to what `taskDone` takes back. The label's program is the printed kernel at the grid coordinates `(c, i)`
  (every tile of the device is in the grid, so the table's "inside the grid" test succeeds), lifted from the kernels'
  own table; and at `L = (c, i)` the body's statement is that obligation, the two spellings of the place — the grid
  coordinates of `L` against the call's core and tile numbers — agreeing by computation.
-/
import proofs.«203918_g8735963480385_cont_9to1c4b_274_26_alg».proof.Proof.BodyDefsKI
import proofs.«203918_g8735963480385_cont_9to1c4b_274_26_alg».proof.Proof.MainKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tfV" => (Memref.whole Cert.KernelIdeal.main_v2_scv : Memref Cert.KernelIdeal.sig Kind.scVector Space.hbm Cert.KernelIdeal.S393216 EltTy.i32)
local notation "sfV" => (Memref.whole Cert.KernelIdeal.main_v3_scv : Memref Cert.KernelIdeal.sig Kind.scVector Space.hbm Cert.KernelIdeal.S100000 EltTy.f32)
local notation "oV" => (Memref.whole Cert.KernelIdeal.main_v4_scv : Memref Cert.KernelIdeal.sig Kind.scVector Space.hbm Cert.KernelIdeal.S16384 EltTy.f32)
local notation "shV" => (Memref.whole Cert.KernelIdeal.cc0_scratch0 : Memref Cert.KernelIdeal.sig Kind.scVector Space.shared Cert.KernelIdeal.S100000 EltTy.f32)
local notation "lV" => (Memref.whole Cert.KernelIdeal.cc0_scratch1 : Memref Cert.KernelIdeal.sig Kind.scVector Space.vmem Cert.KernelIdeal.S10240 EltTy.i32)
local notation "vV" => (Memref.whole Cert.KernelIdeal.cc0_scratch2 : Memref Cert.KernelIdeal.sig Kind.scVector Space.vmem Cert.KernelIdeal.S10240 EltTy.f32)
local notation "rV" => (Memref.whole Cert.KernelIdeal.cc0_scratch3 : Memref Cert.KernelIdeal.sig Kind.scVector Space.vmem Cert.KernelIdeal.S512 EltTy.f32)

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore's label is in the kernels' table: the printed kernel at the subcore's grid coordinates, on the
    whole arrays and its scratch. -/
theorem defs₀_vector (c : Fin τ.nSC) (s : Fin τ.nSub) :
    defs₀ (F := F) (.scVector c s) 0 ()
      = SparseCore.onTile hcore0 hsub0 (fun c s => cc0__sc_kernel (coordsV c s)
          tfV (Memref.isWhole_whole _) sfV (Memref.isWhole_whole _) oV (Memref.isWhole_whole _) shV (Memref.isWhole_whole _)
          lV (Memref.isWhole_whole _) vV (Memref.isWhole_whole _) rV (Memref.isWhole_whole _) cc0_scratch4 cc0_scratch5 cc0_scoped0 cc0_scoped1) ⟨⟩ c s := rfl

set_option maxRecDepth 16384 in
/-- The launch theorem's obligation for the one vector-subcore call, from the tile's body. -/
theorem tileObl (A : Arrays F) (hbody : TileBody A) : (K (F := F)).TileObl (D (F := F)) 𝒱 (P A) v₀ 0 := by
  intro d c i O W hO hOlev _
  have hci : ((K (F := F)).core 0 c).val < grid0.bound 0 ∧ ((K (F := F)).sub 0 i).val < grid0.bound 1 := ⟨c.isLt, i.isLt⟩
  rw [show (P A).ox 0 (V d ((K (F := F)).core 0 c) ((K (F := F)).sub 0 i)) = oxV d ((K (F := F)).core 0 c) from rfl,
    show (P A).x 0 (V d ((K (F := F)).core 0 c) ((K (F := F)).sub 0 i)) = bkit A d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) facts O W hO hOlev

/-- The same at the arrays of a launch memory. -/
theorem tileObl_of (m : (ℓ : Loc nD τ sig) → Buf (Elt F) ℓ) (hbody : TileBody (arrays m)) :
    (K (F := F)).TileObl (D (F := F)) 𝒱 (P (arrays m)) v₀ 0 := tileObl (arrays m) hbody

end Cert.Proof.KI

end
-- ==== Proof.Spec.lean ====
/-
  The specification both programs meet: for every team `b` of the batch, the sum over its twenty members `t` of the
  skill of player `team[b, t]`, as an extended real. A member's word is read as a natural number; where it names no
  row of the table the term is zero (under the certificate's precondition every word names a row, so this branch is
  never the one read). `InRange` is that precondition's integer half in the form the proofs use.
-/
import Idealize.ShloMosaic.PureOps.Ideal
import Idealize.ShloMosaic.Lib.ValueIdx

noncomputable section

open scoped BigOperators

namespace Cert.TeamSkill

open Idealize.ShloMosaic Idealize.ShloMosaic.ValueIdx

/-- Player `n`'s skill; zero when `n` is past the table's last row. -/
def skillAt (skill : FVec Ideal ⟨2, ![100000, 1]⟩ .f32) (n : Nat) : EReal :=
  if h : n < 100000 then skill (ix2 (⟨n, h⟩ : Fin 100000) (0 : Fin 1)) else 0

/-- Team `b`'s total skill: the sum over its twenty members. -/
def teamSum (team : IVec ⟨2, ![16384, 20]⟩ 32) (skill : FVec Ideal ⟨2, ![100000, 1]⟩ .f32) :
    FVec Ideal ⟨3, ![16384, 1, 1]⟩ .f32 :=
  fun i => ∑ t : Fin 20, skillAt skill (team (ix2 (i 0 : Fin 16384) t)).toNat

/-- Every member word names a row of the table. -/
def InRange (team : IVec ⟨2, ![16384, 20]⟩ 32) : Prop :=
  ∀ (b : Fin 16384) (t : Fin 20), (team (ix2 b t)).toNat < 100000

end Cert.TeamSkill

end
-- ==== Proof.PreRange.lean ====
/-
  The integer half of the input-domain precondition, read back. The precondition is one bit: the conjunction of
  "every skill is finite" with the `and` over all 16384 × 20 member words x of (0 ≤ x) ∧ (x ≤ 99999), both compared as
  signed 32-bit integers. When that bit is 1, the second conjunct is 1; an `and` over every index that came out 1 met a 1
  at every index; so at each (b, t) both comparisons hold of team[b, t]. A 32-bit word whose signed value lies in
  [0, 99999] has its unsigned value equal to its signed value, hence below 100000. Nothing is said here of the float half
  beyond splitting it off, so the statement holds at every float instance.

  Three consequences of `x.toNat < 100000` for a 32-bit word follow: its signed value is its unsigned value, its top bit
  is clear, and it is below 2 ^ 31.
-/
import proofs.«203918_g8735963480385_cont_9to1c4b_274_26_alg».proof.Pre_input_domain
import proofs.«203918_g8735963480385_cont_9to1c4b_274_26_alg».proof.Proof.Gen.Pre_input_domain
import proofs.«203918_g8735963480385_cont_9to1c4b_274_26_alg».proof.Proof.Spec
import Idealize.ShloMosaic.Lib.ReduceAll

noncomputable section

namespace Cert.TeamSkill

open Idealize.ShloMosaic Idealize.ShloMosaic.ValueIdx

/-! ## Words -/

/-- A 32-bit word whose signed value lies in [0, 99999] is below 100000 read unsigned: the signed value of a word is its
    unsigned value when twice the latter is below 2 ^ 32, and the unsigned value less 2 ^ 32 (a negative number, the word
    being below 2 ^ 32) otherwise; the second case contradicts 0 ≤ signed value. -/
theorem toNat_lt_of_toInt_range (x : BitVec 32) (h0 : 0 ≤ x.toInt) (h1 : x.toInt ≤ 99999) : x.toNat < 100000 := by
  have hx : x.toNat < 2 ^ 32 := x.isLt
  have hc := BitVec.toInt_eq_toNat_cond x
  split at hc <;> omega

/-- The same from the two signed comparisons the precondition makes, each having produced the bit 1. -/
theorem toNat_lt_of_cmpi (x : BitVec 32) (h0 : IntOp.cmpi .sge x 0#32 = 1#1) (h1 : IntOp.cmpi .sle x 99999#32 = 1#1) :
    x.toNat < 100000 := by
  have g0 : (0#32 : BitVec 32).toInt ≤ x.toInt := IntOp.cmpi_sge.1 h0
  have g1 : x.toInt ≤ (99999#32 : BitVec 32).toInt := IntOp.cmpi_sle.1 h1
  have e0 : (0#32 : BitVec 32).toInt = 0 := by decide
  have e1 : (99999#32 : BitVec 32).toInt = 99999 := by decide
  rw [e0] at g0
  rw [e1] at g1
  exact toNat_lt_of_toInt_range x g0 g1

/-- A word below 100000 is nonnegative read signed, and its signed value is its unsigned value. -/
theorem toInt_eq_toNat_of_lt (x : BitVec 32) (hx : x.toNat < 100000) : x.toInt = (x.toNat : Int) := by
  have hc := BitVec.toInt_eq_toNat_cond x
  split at hc <;> omega

/-- A word below 100000 is below 2 ^ 31. -/
theorem toNat_lt_two_pow_31_of_lt (x : BitVec 32) (hx : x.toNat < 100000) : x.toNat < 2 ^ 31 := by
  omega

/-- A word below 100000 has its top bit clear. -/
theorem msb_eq_false_of_lt (x : BitVec 32) (hx : x.toNat < 100000) : x.msb = false := by
  rw [BitVec.msb_eq_false_iff_two_mul_lt]
  omega

/-! ## The precondition -/

/-- Under the precondition every member word names a row of the 100000-row table. -/
theorem inRange_of_pre {F : FTy → Type} [FloatOps F] (team : IVec Cert.Pre_input_domain.S16384x20 32)
    (skill : FVec F Cert.Pre_input_domain.S100000x1 .f32)
    (h : Cert.Pre_input_domain.fn (F := F) team skill = (fun _ => 1#1)) : Cert.TeamSkill.InRange team := by
  intro b t
  -- the scalar result has no axes, hence one index
  haveI : Subsingleton Cert.Pre_input_domain.S_.Idx := ⟨fun a b => funext fun d => d.elim0⟩
  have h0 := congrFun h ValueIdx.ix0
  dsimp only [Cert.Pre_input_domain.fn] at h0
  -- the bit is the `and` of the float half and the integer half: keep the integer half
  have h9 := (IntOp.andi_eq_one.1 h0).2
  -- the integer half is an `and` over every index: read it at (b, t)
  have h8 := Host.reduce_andi_all _ _ _ _ _ h9 (ix2 b t)
  -- there it is the `and` of the two comparisons, each against a constant broadcast to every index
  obtain ⟨h5, h7⟩ := IntOp.andi_eq_one.1 h8
  exact toNat_lt_of_cmpi (team (ix2 b t)) h5 h7

end Cert.TeamSkill

end
-- ==== Proof.HostArrays.lean ====
/-
  The arrays the host operations hand to the SparseCore kernel and take from it, as pure functions of the program's
  arguments, operation for operation as the host program applies them:
  * the member words: the team array [16384, 20] transposed to [20, 16384], padded with four rows of the word 0 to
    [24, 16384], and read in row-major order as one list of 393216 words (member `t` of team `b` at `t * 16384 + b`);
  * the skill table [100000, 1] read in row-major order as a list of 100000 values;
  * the kernel's result list of 16384 values read in row-major order as an array [16384, 1, 1].
  The shape relations the operations take are decided here over the literal shapes; being propositions, any two proofs
  of one of them are equal.
-/
import Idealize.ShloMosaic.PureOps
import Idealize.ShloMosaic.Lib.ValueIdx
import proofs.«203918_g8735963480385_cont_9to1c4b_274_26_alg».proof.Proof.Spec
import proofs.«203918_g8735963480385_cont_9to1c4b_274_26_alg».proof.Proof.KSpec

noncomputable section

namespace Cert.TeamSkill

open Idealize.ShloMosaic Idealize.ShloMosaic.ValueIdx

/-- [16384, 20] with its two axes exchanged is [20, 16384]. -/
theorem transposes_team : (⟨2, ![16384, 20]⟩ : Shape).Transposes [1, 0] ⟨2, ![20, 16384]⟩ := by decide

/-- [20, 16384] with four rows added after the last is [24, 16384]. -/
theorem pads_team :
    (⟨2, ![20, 16384]⟩ : Shape).Pads (![0, 0] : Fin 2 → Nat) ![4, 0] ![0, 0] ⟨2, ![24, 16384]⟩ := by decide

/-- The rank-zero shape has an element. -/
theorem numel_scalar : 0 < (⟨0, ![]⟩ : Shape).numel := by decide

/-- 24 · 16384 = 393216. -/
theorem casts_team : (⟨2, ![24, 16384]⟩ : Shape).ShapeCasts ⟨1, ![393216]⟩ := by decide

/-- 100000 · 1 = 100000. -/
theorem casts_skill : (⟨2, ![100000, 1]⟩ : Shape).ShapeCasts ⟨1, ![100000]⟩ := by decide

/-- 16384 = 16384 · 1 · 1. -/
theorem casts_out : (⟨1, ![16384]⟩ : Shape).ShapeCasts ⟨3, ![16384, 1, 1]⟩ := by decide

/-- The flat list of member words the kernel is handed: transpose, pad with the word 0, read in row-major order. -/
def teamFlat (team : IVec ⟨2, ![16384, 20]⟩ 32) : IVec ⟨1, ![393216]⟩ 32 :=
  shapeCast ⟨1, ![393216]⟩
    (pad ⟨2, ![24, 16384]⟩ ![0, 0] ![4, 0] ![0, 0]
      (transpose ⟨2, ![20, 16384]⟩ [1, 0] team transposes_team)
      (constantI ⟨0, ![]⟩ 32 0#32) pads_team numel_scalar)
    casts_team

/-- The flat skill table the kernel is handed. -/
def skillFlat {F : FTy → Type} (skill : FVec F ⟨2, ![100000, 1]⟩ .f32) : FVec F ⟨1, ![100000]⟩ .f32 :=
  shapeCast ⟨1, ![100000]⟩ skill casts_skill

/-- The kernel's result list as the program's result array. -/
def outCast {F : FTy → Type} (o : FVec F ⟨1, ![16384]⟩ .f32) : FVec F ⟨3, ![16384, 1, 1]⟩ .f32 :=
  shapeCast ⟨3, ![16384, 1, 1]⟩ o casts_out

end Cert.TeamSkill

end
-- ==== Proof.KernelValue.lean ====
/-
  The kernel's value as mathematics. The host arrays read at an index: the flat member list at `t * 16384 + b` is the
  team array at `(b, t)` (a shape cast keeps row-major positions; a row below 20 of the padded array is the operand's
  row; a transposed matrix at `(t, b)` is the matrix at `(b, t)`), its last four rows hold the word 0, the flat skill
  table at `n` is the table at `(n, 0)`, and the result array at `(b, 0, 0)` is the result list at `b`. In the extended
  reals the left-nested sum of twenty values is their sum over `Fin 20` (addition there is associative and commutative
  with no side condition), so the result array is the specification's: each team's sum of its members' skills.
-/
import Idealize.ShloMosaic.PureOps.Ideal
import Idealize.ShloMosaic.Lib.ValueLayout
import proofs.«203918_g8735963480385_cont_9to1c4b_274_26_alg».proof.Proof.Spec
import proofs.«203918_g8735963480385_cont_9to1c4b_274_26_alg».proof.Proof.KSpec
import proofs.«203918_g8735963480385_cont_9to1c4b_274_26_alg».proof.Proof.HostArrays

noncomputable section

open scoped BigOperators

namespace Cert.TeamSkill

open Idealize.ShloMosaic Idealize.ShloMosaic.ValueIdx

/-! ## The padded array at an index -/

section Pad
variable {α : Type}

/-- Four rows added after the last: a row below 20 is the operand's row. -/
theorem pad_rows_lt (x : (⟨2, ![20, 16384]⟩ : Shape).Idx → α) (v : (⟨0, ![]⟩ : Shape).Idx → α)
    (r : Fin 24) (c : Fin 16384) (hr : r.val < 20) :
    pad ⟨2, ![24, 16384]⟩ ![0, 0] ![4, 0] ![0, 0] x v pads_team numel_scalar (ix2 r c)
      = x (ix2 (⟨r.val, hr⟩ : Fin 20) c) := by
  unfold pad
  split
  next hin =>
    refine congrArg x (funext fun a => ?_)
    match a with
    | ⟨0, _⟩ => exact Fin.ext (show (r.val - 0) / (0 + 1) = r.val by omega)
    | ⟨1, _⟩ => exact Fin.ext (show (c.val - 0) / (0 + 1) = c.val by omega)
  next hin =>
    refine absurd (fun a => ?_) hin
    match a with
    | ⟨0, _⟩ =>
      exact ⟨Nat.zero_le _, show (r.val - 0) % (0 + 1) = 0 by omega, show (r.val - 0) / (0 + 1) < 20 by omega⟩
    | ⟨1, _⟩ =>
      exact ⟨Nat.zero_le _, show (c.val - 0) % (0 + 1) = 0 by omega,
        show (c.val - 0) / (0 + 1) < 16384 by have := c.isLt; omega⟩

/-- Four rows added after the last: a row from 20 on holds the padding value. -/
theorem pad_rows_ge (x : (⟨2, ![20, 16384]⟩ : Shape).Idx → α) (v : (⟨0, ![]⟩ : Shape).Idx → α)
    (r : Fin 24) (c : Fin 16384) (hr : 20 ≤ r.val) :
    pad ⟨2, ![24, 16384]⟩ ![0, 0] ![4, 0] ![0, 0] x v pads_team numel_scalar (ix2 r c) = v ix0 := by
  unfold pad
  split
  next hin =>
    have h0 := (hin ⟨0, Nat.zero_lt_two⟩).2.2
    change (r.val - 0) / (0 + 1) < 20 at h0
    omega
  next hin => exact congrArg v (eq_ix0 _)

end Pad

/-! ## The host arrays at an index -/

/-- The flat member list at row-major position `r * 16384 + c` is the padded array at `(r, c)`. -/
theorem teamFlat_ix1 (team : IVec ⟨2, ![16384, 20]⟩ 32) (r : Fin 24) (c : Fin 16384) (k : Fin 393216)
    (hk : k.val = r.val * 16384 + c.val) :
    teamFlat team (ix1 k)
      = pad ⟨2, ![24, 16384]⟩ ![0, 0] ![4, 0] ![0, 0]
          (transpose ⟨2, ![20, 16384]⟩ [1, 0] team transposes_team)
          (constantI ⟨0, ![]⟩ 32 0#32) pads_team numel_scalar (ix2 r c) := by
  unfold teamFlat
  refine shapeCast_apply _ casts_team (ix1 k) (ix2 r c) ?_
  rw [Shape.rowMajor_val_two, Shape.rowMajor_val_one]
  show r.val * 16384 + c.val = k.val
  omega

/-- Member `t`'s word of team `b` in the flat list is the team array's entry `(b, t)`. -/
theorem wordAt_teamFlat (team : IVec ⟨2, ![16384, 20]⟩ 32) (t : Fin 20) (b : Fin 16384) :
    wordAt (teamFlat team) t b = team (ix2 b t) := by
  unfold wordAt
  rw [teamFlat_ix1 team (⟨t.val, by have := t.isLt; omega⟩ : Fin 24) b _ rfl,
    pad_rows_lt _ _ (⟨t.val, by have := t.isLt; omega⟩ : Fin 24) b t.isLt]
  exact transpose_ix2_apply team transposes_team t b

/-- Every word of the flat list names a row of the table: a member's word by the precondition, a padding word being 0. -/
theorem teamFlat_inRange (team : IVec ⟨2, ![16384, 20]⟩ 32) (h : InRange team) :
    ∀ j, (teamFlat team j).toNat < 100000 := by
  intro j
  obtain ⟨k, rfl⟩ : ∃ k : Fin 393216, j = ix1 k := ⟨j 0, eq_ix1 j⟩
  have hk := k.isLt
  rw [teamFlat_ix1 team (⟨k.val / 16384, by omega⟩ : Fin 24) (⟨k.val % 16384, by omega⟩ : Fin 16384) k
    (by show k.val = k.val / 16384 * 16384 + k.val % 16384; omega)]
  by_cases hr : k.val / 16384 < 20
  · rw [pad_rows_lt _ _ (⟨k.val / 16384, by omega⟩ : Fin 24) _ hr]
    rw [transpose_ix2_apply team transposes_team (⟨k.val / 16384, hr⟩ : Fin 20) (⟨k.val % 16384, by omega⟩ : Fin 16384)]
    exact h _ _
  · rw [pad_rows_ge _ _ (⟨k.val / 16384, by omega⟩ : Fin 24) _ (by show 20 ≤ k.val / 16384; omega)]
    show (0#32 : BitVec 32).toNat < 100000
    decide

/-- The flat skill table at `n` is the table's entry `(n, 0)`. -/
theorem skillFlat_apply {F : FTy → Type} (skill : FVec F ⟨2, ![100000, 1]⟩ .f32) (n : Fin 100000) :
    skillFlat skill (ix1 n) = skill (ix2 n (0 : Fin 1)) := by
  unfold skillFlat
  refine shapeCast_apply skill casts_skill (ix1 n) (ix2 n (0 : Fin 1)) ?_
  rw [Shape.rowMajor_val_two, Shape.rowMajor_val_one]
  show n.val * 1 + 0 = n.val
  omega

/-- The result array at `(b, u, v)` — `u` and `v` are necessarily 0 — is the result list at `b`. -/
theorem outCast_apply' {F : FTy → Type} (o : FVec F ⟨1, ![16384]⟩ .f32) (b : Fin 16384) (u v : Fin 1) :
    outCast o (ix3 b u v) = o (ix1 b) := by
  unfold outCast
  refine shapeCast_apply o casts_out (ix3 b u v) (ix1 b) ?_
  rw [Shape.rowMajor_val_one, Shape.rowMajor_val_three]
  show b.val = (b.val * 1 + u.val) * 1 + v.val
  have := u.isLt
  have := v.isLt
  omega

/-- The result array at `(b, 0, 0)` is the result list at `b`. -/
theorem outCast_apply {F : FTy → Type} (o : FVec F ⟨1, ![16384]⟩ .f32) (b : Fin 16384) :
    outCast o (ix3 b (0 : Fin 1) (0 : Fin 1)) = o (ix1 b) :=
  outCast_apply' o b 0 0

/-! ## The left-nested sum is the sum -/

section Sum
variable {F : FTy → Type} [FloatOps F]

theorem accTo_zero (tf : IVec ⟨1, ![393216]⟩ 32) (sf : FVec F ⟨1, ![100000]⟩ .f32) (b : Fin 16384) (h : 0 < 20) :
    accTo tf sf b 0 h = tblAt sf (wordAt tf ⟨0, h⟩ b) := rfl

theorem accTo_succ (tf : IVec ⟨1, ![393216]⟩ 32) (sf : FVec F ⟨1, ![100000]⟩ .f32) (b : Fin 16384) (n : Nat)
    (h : n + 1 < 20) :
    accTo tf sf b (n + 1) h
      = FloatOps.addf (accTo tf sf b n (Nat.lt_of_succ_lt h)) (tblAt sf (wordAt tf ⟨n + 1, h⟩ b)) := rfl

end Sum

/-- Member `t`'s gathered value as a function of a natural number: zero past the last member. -/
def gathered (tf : IVec ⟨1, ![393216]⟩ 32) (sf : FVec Ideal ⟨1, ![100000]⟩ .f32) (b : Fin 16384) (t : Nat) : EReal :=
  if h : t < 20 then tblAt sf (wordAt tf ⟨t, h⟩ b) else 0

/-- The left-nested sum of members `0 … n` is their sum. -/
theorem accTo_eq_sum_range (tf : IVec ⟨1, ![393216]⟩ 32) (sf : FVec Ideal ⟨1, ![100000]⟩ .f32) (b : Fin 16384) :
    ∀ (n : Nat) (h : n < 20), accTo (F := Ideal) tf sf b n h = ∑ t ∈ Finset.range (n + 1), gathered tf sf b t
  | 0, h => by
    rw [Finset.sum_range_one, accTo_zero]
    unfold gathered
    rw [dif_pos h]
  | n + 1, h => by
    rw [Finset.sum_range_succ, ← accTo_eq_sum_range tf sf b n (Nat.lt_of_succ_lt h), accTo_succ, Ideal.addf_def]
    unfold gathered
    rw [dif_pos h]

/-- A team's left-nested sum of twenty gathered values is their sum over the twenty members. -/
theorem accTo_eq_sum (tf : IVec ⟨1, ![393216]⟩ 32) (sf : FVec Ideal ⟨1, ![100000]⟩ .f32) (b : Fin 16384)
    (h : 19 < 20) :
    accTo (F := Ideal) tf sf b 19 h = ∑ t : Fin 20, tblAt sf (wordAt tf t b) := by
  rw [accTo_eq_sum_range, Finset.sum_range]
  refine Finset.sum_congr rfl fun t _ => ?_
  unfold gathered
  rw [dif_pos t.isLt]

/-! ## The kernel's result is the specification -/

/-- What the program returns — the kernel's result on the host's two flat arrays, read as [16384, 1, 1] — is each
    team's sum of its members' skills. -/
theorem outCast_kOut_eq_teamSum (team : IVec ⟨2, ![16384, 20]⟩ 32) (skill : FVec Ideal ⟨2, ![100000, 1]⟩ .f32)
    (h : InRange team) :
    outCast (kOut (F := Ideal) (teamFlat team) (skillFlat skill)) = teamSum team skill := by
  funext i
  obtain ⟨b, u, v, rfl⟩ : ∃ (b : Fin 16384) (u v : Fin 1), i = ix3 b u v := ⟨i 0, i 1, i 2, eq_ix3 i⟩
  rw [outCast_apply']
  show accTo (F := Ideal) (teamFlat team) (skillFlat skill) b 19 (by decide)
    = ∑ t : Fin 20, skillAt skill (team (ix2 b t)).toNat
  rw [accTo_eq_sum]
  refine Finset.sum_congr rfl fun t _ => ?_
  rw [wordAt_teamFlat]
  unfold tblAt skillAt
  rw [dif_pos (h b t), dif_pos (h b t), skillFlat_apply]

end Cert.TeamSkill

end
-- ==== Proof.RefRun.lean ====
/-
  The reference program's run, read back at the ideal instance. @main calls the outlined functions @_take and
  @_where; unfolding the two calls gives one straight line of twenty-six host operations, listed here over the
  buffers of the call records. Every weakly fair execution of that line terminates with the result buffer at the
  operations' composed pure term of the two arguments, and the arguments unchanged. The composed term is cut into
  its stages: the wrapped index, the start-index tensor, the in-bounds mask, the gathered values, the selected
  values, and the sum over the members' axis with the unit axis restored.
-/
import proofs.«203918_g8735963480385_cont_9to1c4b_274_26_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The composed term, stage by stage -/

/-- The index after the wrap of negative values: where the word is negative as a signed integer, the word plus the
    table's length; elsewhere the word itself. -/
def wrapped (team : IVec ⟨2, ![16384, 20]⟩ 32) : IVec S16384x20 32 :=
  select (cmpi .slt team (broadcastInDim S16384x20 ![] bcast_S_S16384x20 (constantI S_ 32 0#32)))
    (addi team (broadcastInDim S16384x20 ![] bcast_S_S16384x20 (constantI S_ 32 100000#32))) team

/-- The start indices of the gather: the wrapped index with a trailing unit axis. -/
def startIdx (team : IVec ⟨2, ![16384, 20]⟩ 32) : IVec S16384x20x1 32 :=
  broadcastInDim S16384x20x1 ![0, 1] bcast_S16384x20_S16384x20x1_0_1 (wrapped team)

/-- The in-bounds mask: the start index is at least zero and at most the last row, as signed integers, the
    conjunction reduced over the unit axis and the unit axis restored. -/
def inBounds (team : IVec ⟨2, ![16384, 20]⟩ 32) : IVec S16384x20x1 1 :=
  broadcastInDim S16384x20x1 ![0, 1] bcast_S16384x20_S16384x20x1_0_1
    (Host.reduce IntOp.andi
      (andi (cmpi .sge (startIdx team) (broadcastInDim S16384x20x1 ![] bcast_S_S16384x20x1 (constantI S_ 32 0#32)))
        (cmpi .sle (startIdx team)
          (broadcastInDim S16384x20x1 ![0, 1, 2] bcast_S1x1x1_S16384x20x1_0_1_2
            (broadcastInDim S1x1x1 ![2] bcast_S1_S1x1x1_2 (constantI S1 32 99999#32)))))
      (constantI S_ 1 1#1) reducesTo_S16384x20x1_S16384x20_d2 h_S_)

/-- The gathered values: the table's row at each start index. -/
def gathered (team : IVec ⟨2, ![16384, 20]⟩ 32) (skill : FVec Ideal ⟨2, ![100000, 1]⟩ .f32) : FVec Ideal S16384x20x1 .f32 :=
  Host.gather gather_S100000x1_S16384x20x1_S16384x20x1_2_0_n_n_0_2_11 skill (startIdx team)

/-- The values taken: the gathered value where the index is in bounds, the fill constant elsewhere. -/
def taken (team : IVec ⟨2, ![16384, 20]⟩ 32) (skill : FVec Ideal ⟨2, ![100000, 1]⟩ .f32) : FVec Ideal S16384x20x1 .f32 :=
  select (inBounds team) (gathered team skill)
    (broadcastInDim S16384x20x1 ![] bcast_S_S16384x20x1 (constant (F := Ideal) S_ .f32 0x7FC00000#32))

/-- The reference's result as one pure term of its two arguments: the values taken, summed over the members'
    axis from the constant zero, with a unit axis added. -/
def refTerm (team : IVec ⟨2, ![16384, 20]⟩ 32) (skill : FVec Ideal ⟨2, ![100000, 1]⟩ .f32) :
    FVec Ideal ⟨3, ![16384, 1, 1]⟩ .f32 :=
  broadcastInDim S16384x1x1 ![0, 2] bcast_S16384x1_S16384x1x1_0_2
    (Host.reduceAdd (F := Ideal) (taken team skill) (constant (F := Ideal) S_ .f32 0x00000000#32)
      reducesTo_S16384x20x1_S16384x1_d1 h_S_)

/-! ## The straight line -/

variable {F : FTy → Type} [FloatOps F]

/-- @main's operations in order, the two calls unfolded: the twenty-three of @_take (the select among them is
    @_where's one operation) into the call record's buffers, then the constant zero, the sum and the broadcast. -/
abbrev ops : List (HloOp τ sig (Elt F)) :=
  [ TRef.nullary main_call0.c (constantI S_ 32 0#32),
    TRef.unary main_call0.c main_call0.v0 (broadcastInDim S16384x20 ![] bcast_S_S16384x20),
    TRef.binary (.of main_arg0) main_call0.v0 main_call0.v1 (cmpi .slt),
    TRef.nullary main_call0.c_0 (constantI S_ 32 100000#32),
    TRef.unary main_call0.c_0 main_call0.v2 (broadcastInDim S16384x20 ![] bcast_S_S16384x20),
    TRef.binary (.of main_arg0) main_call0.v2 main_call0.v3 addi,
    TRef.ternary main_call0.v1 main_call0.v3 (.of main_arg0) main_call0.call0.v0 select,
    TRef.unary main_call0.call0.v0 main_call0.v5 (broadcastInDim S16384x20x1 ![0, 1] bcast_S16384x20_S16384x20x1_0_1),
    TRef.nullary main_call0.c_1 (constantI S1 32 99999#32),
    TRef.nullary main_call0.c_2 (constantI S_ 32 0#32),
    TRef.unary main_call0.c_2 main_call0.v6 (broadcastInDim S16384x20x1 ![] bcast_S_S16384x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x20x1 ![0, 1, 2] bcast_S1x1x1_S16384x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x20x1_S16384x20_d2 h_S_),
    TRef.binary (.of main_arg1) main_call0.v5 main_call0.v13 (fun x i => Host.gather gather_S100000x1_S16384x20x1_S16384x20x1_2_0_n_n_0_2_11 x i),
    TRef.unary main_call0.v12 main_call0.v14 (broadcastInDim S16384x20x1 ![0, 1] bcast_S16384x20_S16384x20x1_0_1),
    TRef.nullary main_call0.cst (constant S_ .f32 0x7FC00000#32),
    TRef.unary main_call0.cst main_call0.v15 (broadcastInDim S16384x20x1 ![] bcast_S_S16384x20x1),
    TRef.ternary main_call0.v14 main_call0.v13 main_call0.v15 main_call0.v16 select,
    nullary main_cst (constant S_ .f32 0x00000000#32),
    binary main_v0 main_cst main_v1 ((fun x v => Host.reduceAdd x v reducesTo_S16384x20x1_S16384x1_d1 h_S_) : (⟨S16384x20x1, .f32⟩ : BufTy).Contents (Elt F) → (⟨S_, .f32⟩ : BufTy).Contents (Elt F) → (⟨S16384x1, .f32⟩ : BufTy).Contents (Elt F)),
    unary main_v1 main_v2 (broadcastInDim S16384x1x1 ![0, 2] bcast_S16384x1_S16384x1x1_0_2 : (⟨S16384x1, .f32⟩ : BufTy).Contents (Elt F) → (⟨S16384x1x1, .f32⟩ : BufTy).Contents (Elt F)) ]

-- twenty-six binds re-associated
set_option maxRecDepth 1024 in
/-- @main is that straight line: the two functions' definitions unfolded at their calls, the sequencing
    re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub ..⟩

/-! ## The run -/

attribute [local irreducible] Host.reduce Host.gather Host.reduceAdd in
set_option maxRecDepth 8192 in
/-- The fold of the line at the result buffer is the composed term of the contents of the two argument buffers:
    each operation's result decides whether the buffer read is the one it writes, and the typed references' casts
    are the identity at these literal references. The reduction, the gather and the float sum stay folded: the
    equation never looks inside them. -/
theorem out_eq (V : Valuation τ sig (Elt Ideal)) :
    after (ops (F := Ideal)) V (main_v2 : DevRef τ sig)
      = refTerm (V (main_arg0 : DevRef τ sig)) (V (main_arg1 : DevRef τ sig)) := by
  simp only [after_cons, after_nil]
  rfl

theorem arg0_eq (V : Valuation τ sig (Elt Ideal)) :
    after (ops (F := Ideal)) V (main_arg0 : DevRef τ sig) = V (main_arg0 : DevRef τ sig) := by
  simp only [after_cons, after_nil]
  rfl

theorem arg1_eq (V : Valuation τ sig (Elt Ideal)) :
    after (ops (F := Ideal)) V (main_arg1 : DevRef τ sig) = V (main_arg1 : DevRef τ sig) := by
  simp only [after_cons, after_nil]
  rfl

/-- At the ideal instance, from any memory with zero counters: every weakly fair execution of @main terminates
    with the result buffer at `refTerm` of the two arguments' launch contents and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v2)
            = refTerm (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m g)

end Cert.ReferenceIdeal.RefRun

end
-- ==== Proof.RefValue.lean ====
/-
  The reference's composed term is the specification. Under the integer half of the precondition every member word
  `x = team[b, t]` is below 100000 read unsigned, so its signed value is its unsigned value and lies in [0, 99999].
  Then, stage by stage: the signed comparison "x < 0" is false, so the wrap of negative indices selects `x` itself; both
  bounds comparisons "x ≥ 0" and "x ≤ 99999" are true at every index, so their conjunction, and-reduced over the unit
  axis from the initial bit 1, is 1 everywhere and the final select always takes the gathered value, never the fill
  constant; the gather (row axis collapsed, one offset axis, slices of one element) reads the table at the start index
  read signed and clamped to [0, 99999], which is `x` itself; the float sum over the members' axis from the constant
  zero is, on the extended reals, zero plus the sum over the twenty members; the last broadcast only adds a unit axis.
-/
import proofs.«203918_g8735963480385_cont_9to1c4b_274_26_alg».proof.Proof.RefRun
import proofs.«203918_g8735963480385_cont_9to1c4b_274_26_alg».proof.Proof.PreRange
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Cert.TeamSkill
open Idealize.ShloMosaic Idealize.ShloMosaic.ValueIdx

/-! ## Words

For a 32-bit word `x` below 100000 read unsigned, the signed value is the unsigned value, a number in [0, 99999];
the three signed comparisons the reference makes are decided by that. -/

/-- "x < 0" as signed integers is false. -/
theorem slt_zero_of_lt (x : BitVec 32) (hx : x.toNat < 100000) : IntOp.cmpi .slt x 0#32 = 0#1 := by
  refine eq_zero_of_ne_one fun h => ?_
  have h1 := IntOp.cmpi_slt.1 h
  rw [toInt_eq_toNat_of_lt x hx] at h1
  have e0 : (0#32 : BitVec 32).toInt = 0 := by decide
  omega

/-- "x ≥ 0" as signed integers is true. -/
theorem sge_zero_of_lt (x : BitVec 32) (hx : x.toNat < 100000) : IntOp.cmpi .sge x 0#32 = 1#1 := by
  refine IntOp.cmpi_sge.2 ?_
  rw [toInt_eq_toNat_of_lt x hx]
  have e0 : (0#32 : BitVec 32).toInt = 0 := by decide
  omega

/-- "x ≤ 99999" as signed integers is true. -/
theorem sle_last_of_lt (x : BitVec 32) (hx : x.toNat < 100000) : IntOp.cmpi .sle x 99999#32 = 1#1 := by
  refine IntOp.cmpi_sle.2 ?_
  rw [toInt_eq_toNat_of_lt x hx]
  have e1 : (99999#32 : BitVec 32).toInt = 99999 := by decide
  omega

/-! ## The and-reduction of an all-ones mask -/

/-- A left fold by `and` from the bit 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 by decide]
    exact foldl_andi_one f hf l

/-- A reduction by `and`, from an initial bit 1, of a mask that is 1 at every index is 1 at every result index:
    the reduction at a result index is a left fold over the operand indices that reduce into it. -/
theorem reduce_andi_of_forall {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The stages at an index -/

/-- The wrap leaves an in-range word as it is: the comparison with zero is false, the select takes its last operand. -/
theorem wrapped_apply (team : IVec ⟨2, ![16384, 20]⟩ 32) (hin : InRange team) (b : Fin 16384) (t : Fin 20) :
    wrapped team (ix2 b t) = team (ix2 b t) := by
  show Scalar.select (IntOp.cmpi .slt (team (ix2 b t)) 0#32) (IntOp.addi (team (ix2 b t)) 100000#32) (team (ix2 b t)) = _
  rw [slt_zero_of_lt _ (hin b t), select_zero]

/-- The start index at (b, t, 0) is the member word at (b, t). -/
theorem startIdx_apply (team : IVec ⟨2, ![16384, 20]⟩ 32) (hin : InRange team) (b : Fin 16384) (t : Fin 20) (u : Fin 1) :
    startIdx team (ix3 b t u) = team (ix2 b t) := by
  unfold startIdx
  refine (broadcastInDim_apply _ _ _ (ix3 b t u) (ix2 b t) (fun a => match a with | ⟨0, _⟩ => rfl | ⟨1, _⟩ => rfl)).trans ?_
  exact wrapped_apply team hin b t

/-- The conjunction of the two bounds comparisons is 1 at every index. -/
theorem mask_apply (team : IVec ⟨2, ![16384, 20]⟩ 32) (hin : InRange team) (i : S16384x20x1.Idx) :
    andi (cmpi .sge (startIdx team) (broadcastInDim S16384x20x1 ![] bcast_S_S16384x20x1 (constantI S_ 32 0#32)))
        (cmpi .sle (startIdx team)
          (broadcastInDim S16384x20x1 ![0, 1, 2] bcast_S1x1x1_S16384x20x1_0_1_2
            (broadcastInDim S1x1x1 ![2] bcast_S1_S1x1x1_2 (constantI S1 32 99999#32)))) i = 1#1 := by
  obtain ⟨b, t, u, rfl⟩ : ∃ (b : Fin 16384) (t : Fin 20) (u : Fin 1), i = ix3 b t u := ⟨i 0, i 1, i 2, eq_ix3 i⟩
  show IntOp.andi (IntOp.cmpi .sge (startIdx team (ix3 b t u)) 0#32) (IntOp.cmpi .sle (startIdx team (ix3 b t u)) 99999#32) = 1#1
  rw [startIdx_apply team hin b t u, sge_zero_of_lt _ (hin b t), sle_last_of_lt _ (hin b t)]
  decide

/-- The in-bounds mask is 1 at every index. -/
theorem inBounds_apply (team : IVec ⟨2, ![16384, 20]⟩ 32) (hin : InRange team) (b : Fin 16384) (t : Fin 20) (u : Fin 1) :
    inBounds team (ix3 b t u) = 1#1 := by
  unfold inBounds
  refine (broadcastInDim_apply _ _ _ (ix3 b t u) (ix2 b t) (fun a => match a with | ⟨0, _⟩ => rfl | ⟨1, _⟩ => rfl)).trans ?_
  exact reduce_andi_of_forall _ _ _ _ (mask_apply team hin) rfl _

/-- The gather at (b, t, 0) reads the table's row `team[b, t]`: on the row axis (collapsed, in the start index map) the
    operand coordinate is the start index read signed and clamped to [0, 100000 − 1], with no batching and no offset
    part; on the column axis, of size one, there is only one coordinate. -/
theorem gathered_apply (team : IVec ⟨2, ![16384, 20]⟩ 32) (skill : FVec Ideal ⟨2, ![100000, 1]⟩ .f32) (hin : InRange team)
    (b : Fin 16384) (t : Fin 20) (u : Fin 1) :
    gathered team skill (ix3 b t u) = skill (ix2 (⟨(team (ix2 b t)).toNat, hin b t⟩ : Fin 100000) (0 : Fin 1)) := by
  unfold gathered Host.gather
  refine congrArg skill (funext fun a => ?_)
  match a with
  | ⟨1, _⟩ => exact Subsingleton.elim (α := Fin 1) _ _
  | ⟨0, _⟩ =>
    refine Fin.ext ?_
    show gather_S100000x1_S16384x20x1_S16384x20x1_2_0_n_n_0_2_11.start (ix3 b t u) (startIdx team) 0
        + gather_S100000x1_S16384x20x1_S16384x20x1_2_0_n_n_0_2_11.batchCoord (ix3 b t u) 0
        + gather_S100000x1_S16384x20x1_S16384x20x1_2_0_n_n_0_2_11.offCoord (ix3 b t u) 0 = (team (ix2 b t)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x1_S16384x20x1_S16384x20x1_2_0_n_n_0_2_11.startIndexMap from List.mem_singleton.mpr rfl)]
    have hsi : gather_S100000x1_S16384x20x1_S16384x20x1_2_0_n_n_0_2_11.siIdx (ix3 b t u)
        ⟨List.idxOf (0 : Fin 2) gather_S100000x1_S16384x20x1_S16384x20x1_2_0_n_n_0_2_11.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi, startIdx_apply team hin b t 0, toInt_eq_toNat_of_lt _ (hin b t), Int.toNat_natCast]
    show min (team (ix2 b t)).toNat (100000 - 1) = _
    have := hin b t
    omega

/-- The value taken at (b, t, 0) is the table's row `team[b, t]`: the mask is 1 there, so the select takes the gathered
    value. -/
theorem taken_apply (team : IVec ⟨2, ![16384, 20]⟩ 32) (skill : FVec Ideal ⟨2, ![100000, 1]⟩ .f32) (hin : InRange team)
    (b : Fin 16384) (t : Fin 20) (u : Fin 1) :
    taken team skill (ix3 b t u) = skill (ix2 (⟨(team (ix2 b t)).toNat, hin b t⟩ : Fin 100000) (0 : Fin 1)) := by
  unfold taken
  rw [select_apply, inBounds_apply team hin b t u, select_one]
  exact gathered_apply team skill hin b t u

/-! ## The reference's term is the specification -/

/-- With every member word naming a row of the table, the reference's composed term is, team by team, the sum over the
    twenty members of the named rows: the broadcast reads the sum at (b, 0); the float sum over the members' axis from
    the constant zero is zero plus the sum over that axis's twenty coordinates; each term is the row the member names. -/
theorem refTerm_eq (team : IVec ⟨2, ![16384, 20]⟩ 32) (skill : FVec Ideal ⟨2, ![100000, 1]⟩ .f32) (hin : InRange team) :
    refTerm team skill = teamSum team skill := by
  funext i
  obtain ⟨b, u, v, rfl⟩ : ∃ (b : Fin 16384) (u v : Fin 1), i = ix3 b u v := ⟨i 0, i 1, i 2, eq_ix3 i⟩
  have hR : Shape.Reduces S16384x20x1 [1] S16384x1 := by decide
  unfold refTerm
  refine (broadcastInDim_apply _ _ _ (ix3 b u v) (ix2 b (0 : Fin 1)) (fun a => match a with | ⟨0, _⟩ => rfl | ⟨1, _⟩ => rfl)).trans ?_
  refine (hostReduceAdd_apply _ _ _ _ _).trans ?_
  refine (Ideal.hostReduceAdd_single _ hR _ _ _).trans ?_
  rw [show constant (F := Ideal) S_ .f32 0x00000000#32 (Shape.Idx.first h_S_) = 0 from Ideal.ofBits_zero_f32, zero_add]
  show (∑ k : Fin 20, taken team skill (hR.lift (ix2 b (0 : Fin 1)) k)) = ∑ t : Fin 20, skillAt skill (team (ix2 b t)).toNat
  refine Finset.sum_congr rfl fun t _ => ?_
  have hl : hR.lift (ix2 b (0 : Fin 1)) t = ix3 b t (0 : Fin 1) := by
    funext c
    match c with
    | ⟨0, _⟩ => rfl
    | ⟨1, _⟩ => rfl
    | ⟨2, _⟩ => rfl
  rw [hl, taken_apply team skill hin b t 0]
  unfold skillAt
  rw [dif_pos (hin b t)]

end Cert.ReferenceIdeal.RefValue

end
-- ==== Proof.ClaimsKI.lean ====
/-
  The certificate's claims about the idealized kernel and the idealized reference, from the two programs' runs.

  The kernel's run ends, on every device, with the result array at the kernel's left-nested sums over the two flat arrays
  the host operations compute, read as [16384, 1, 1], and with the two arguments unchanged. Dropping the value gives the
  kernel's frame. The reference's run ends with its result at its composed term of the arguments and the arguments
  unchanged; dropping the value gives the reference's frame. Under the precondition every member word names a row of the
  table. Then the kernel's result is, team by team, the sum of its twenty members' skills, and so is the reference's
  composed term; from memories that agree on the arguments the two results are therefore the same array.
-/
import proofs.«203918_g8735963480385_cont_9to1c4b_274_26_alg».proof.Proof.CommonKI
import proofs.«203918_g8735963480385_cont_9to1c4b_274_26_alg».proof.Proof.MainKI
import proofs.«203918_g8735963480385_cont_9to1c4b_274_26_alg».proof.Proof.RunKI
import proofs.«203918_g8735963480385_cont_9to1c4b_274_26_alg».proof.Proof.OblKI
import proofs.«203918_g8735963480385_cont_9to1c4b_274_26_alg».proof.Proof.PreRange
import proofs.«203918_g8735963480385_cont_9to1c4b_274_26_alg».proof.Proof.KernelValue
import proofs.«203918_g8735963480385_cont_9to1c4b_274_26_alg».proof.Proof.RefRun
import proofs.«203918_g8735963480385_cont_9to1c4b_274_26_alg».proof.Proof.RefValue

noncomputable section

namespace Cert.Proof.KIClaims

open Cert.KernelIdeal Cert.Proof.KI
open Idealize.ShloMosaic Idealize.SL.Sem

/-! ## The host arrays' two spellings agree -/

theorem teamFlat_eq (team : IVec ⟨2, ![16384, 20]⟩ 32) : teamFlat team = Cert.TeamSkill.teamFlat team := rfl
theorem skillFlat_eq (skill : FVec Ideal ⟨2, ![100000, 1]⟩ .f32) : skillFlat skill = Cert.TeamSkill.skillFlat skill := rfl
theorem outCast_eq (o : FVec Ideal ⟨1, ![16384]⟩ .f32) : outCast o = Cert.TeamSkill.outCast o := rfl

/-- What the kernel's program returns is each team's sum of its members' skills, where every member word names a row
    of the table. -/
theorem kernel_value (team : IVec ⟨2, ![16384, 20]⟩ 32) (skill : FVec Ideal ⟨2, ![100000, 1]⟩ .f32)
    (h : Cert.TeamSkill.InRange team) :
    outCast (Cert.TeamSkill.kOut (F := Ideal) (teamFlat team) (skillFlat skill)) = Cert.TeamSkill.teamSum team skill := by
  rw [outCast_eq, teamFlat_eq, skillFlat_eq]
  exact Cert.TeamSkill.outCast_kOut_eq_teamSum team skill h

/-! ## The claims -/

/-- The kernel's frame: its run with the value dropped. -/
theorem frame_ki (hobl : ∀ m, Cert.Pre_KernelIdeal m → (K (F := Ideal)).TileObl (D (F := Ideal)) 𝒱 (P (arrays m)) v₀ 0) :
    Cert.frame_KernelIdeal := fun m ρ hpre =>
  (θ_run Cert.KernelIdeal.defs _ _).mono (fun _ h c => (h c).2) (run_main m ρ (hobl m hpre))

/-- The reference's frame: its run with the value dropped. -/
theorem frame_ri : Cert.frame_ReferenceIdeal := fun m ρ _ =>
  (θ_run Cert.ReferenceIdeal.defs _ _).mono (fun _ h c => (h c).2) (Cert.ReferenceIdeal.RefRun.run m ρ)

/-- Both programs end at each team's sum of its members' skills: the kernel's left-nested sums over the flat arrays are
    that sum, and the reference's composed term, at arguments that agree with the kernel's, is that sum too. -/
theorem algebraic (hobl : ∀ m, Cert.Pre_KernelIdeal m → (K (F := Ideal)).TileObl (D (F := Ideal)) 𝒱 (P (arrays m)) v₀ 0) :
    Cert.algebraic_KernelIdeal_ReferenceIdeal := by
  intro m ρ m' ρ' hpre hagree
  have hin : ∀ c : Dev nD, Cert.TeamSkill.InRange (m (a0Loc c)) := fun c => Cert.TeamSkill.inRange_of_pre _ _ (hpre c)
  refine ⟨fun c => Cert.TeamSkill.teamSum (m (a0Loc c)) (m (a1Loc c)), ?_, ?_⟩
  · exact (θ_run Cert.KernelIdeal.defs _ _).mono
      (fun _ h c => ⟨(h c).1.trans (kernel_value (m (a0Loc c)) (m (a1Loc c)) (hin c)), (h c).2⟩) (run_main m ρ (hobl m hpre))
  · exact (θ_run Cert.ReferenceIdeal.defs _ _).mono
      (fun _ h c => ⟨(h c).1.trans ((congrArg₂ Cert.ReferenceIdeal.RefRun.refTerm (hagree c).1 (hagree c).2).trans
        (Cert.ReferenceIdeal.RefValue.refTerm_eq (m (a0Loc c)) (m (a1Loc c)) (hin c))), (h c).2⟩)
      (Cert.ReferenceIdeal.RefRun.run m' ρ')

/-! ## The claims from the tile's body -/

/-- Under the precondition every word of the flat member list names a row of the table: a member's word by the
    precondition's integer half, a padding word being the word 0. -/
theorem hin_ki (m : (ℓ : Loc nD τ sig) → Buf (Elt Ideal) ℓ) (hpre : Cert.Pre_KernelIdeal m) :
    ∀ (d : Dev nD) j, ((arrays m).tf d j).toNat < 100000 := by
  intro d j
  show (teamFlat (m (a0Loc d)) j).toNat < 100000
  rw [teamFlat_eq]
  exact Cert.TeamSkill.teamFlat_inRange _ (Cert.TeamSkill.inRange_of_pre _ _ (hpre d)) j

/-- The kernel's frame, from the tile's body at the arrays of each launch memory that meets the precondition. -/
theorem frame_ki' (hbody : ∀ m, Cert.Pre_KernelIdeal m → TileBody (F := Ideal) (arrays m)) : Cert.frame_KernelIdeal :=
  frame_ki fun m hpre => tileObl_of m (hbody m hpre)

/-- The two programs' equal results, from the tile's body likewise. -/
theorem algebraic' (hbody : ∀ m, Cert.Pre_KernelIdeal m → TileBody (F := Ideal) (arrays m)) :
    Cert.algebraic_KernelIdeal_ReferenceIdeal :=
  algebraic fun m hpre => tileObl_of m (hbody m hpre)

end Cert.Proof.KIClaims

end
-- ==== Proof.CommonKB.lean ====
/-
  The launch's vocabulary for the kernel's frame and value: the program as the launch theorem sees it, the ghost state
  (the handshakes' rounds, the barrier cells' rounds, the transfers' counters), the arrays the SparseCore call is handed
  and the shares each tile holds of them, the subcore barrier's schedule, and what each handshake carries.

  The mathematics of the protocol. Thirty-two tiles (two SparseCores of sixteen) each read twenty 512-word pieces of the
  flat member list and the whole skill table, and write one 512-word piece of the result; tile `(c, i)` writes piece
  `2 i + c`. The table is staged ONCE per SparseCore, by its tile 0, into the SparseCore's shared memory; the other
  fifteen tiles may read it only after the subcore barrier. So the barrier CARRIES the table: tile 0's duty in tile `j`'s
  round hands over read token `j` of the shared buffer at the table's contents; every other duty hands over nothing.
  After the barrier every tile holds a read token of the table; tile 0 also keeps the remainder of the share, so that the
  sixteen tokens and the remainder rejoin to the whole buffer at the tasks' end.
-/
import proofs.«203918_g8735963480385_cont_9to1c4b_274_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203918_g8735963480385_cont_9to1c4b_274_26_alg».proof.Proof.Gen.Kernel
import proofs.«203918_g8735963480385_cont_9to1c4b_274_26_alg».proof.Proof.Gen.Kernel.Skeleton
import proofs.«203918_g8735963480385_cont_9to1c4b_274_26_alg».proof.Proof.KSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

abbrev tfLoc (d : Dev nD) : Loc nD τ sig := (SparseCore.T d).loc main_v2
abbrev sfLoc (d : Dev nD) : Loc nD τ sig := (SparseCore.T d).loc main_v3
abbrev oLoc (d : Dev nD) : Loc nD τ sig := (SparseCore.T d).loc main_v4

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-- The region-entry contents of the three arrays the call is handed (the member list, the table, the result's buffer),
    per device: parameters of everything below. -/
structure Arrays (F : FTy → Type) where
  tf : (d : Dev nD) → Buf (Elt F) (tfLoc d)
  sf : (d : Dev nD) → Buf (Elt F) (sfLoc d)
  o₀ : (d : Dev nD) → Buf (Elt F) (oLoc d)

variable (A : Arrays F)

/-- The table as the shared scratch's contents. -/
abbrev shTbl (d : Dev nD) (c : Fin τ.nSC) : Buf (Elt F) (shLoc d c) := A.sf d

/-! ## The result's thirty-two pieces -/

theorem odiv : 32 ∣ S16384.size 0 := ⟨512, rfl⟩
abbrev oPart (w : Fin 32) : Rect S16384 := Rect.part (s := S16384) (a₀ := 0) odiv w
abbrev oSet (w : Fin 32) : Finset S16384.Idx := ((View.whole (main_v4_scv : Ref sig .scVector)).slice (oPart w)).set
/-- The piece tile `i` of SparseCore `c` writes. -/
def widOf (c : Fin 2) (i : Fin 16) : Fin 32 := ⟨2 * i.val + c.val, by have := c.isLt; have := i.isLt; omega⟩

/-! ## The read shares -/

/-- SparseCore `c`'s read token of an input array, and tile `i`'s token of that. -/
abbrev qc (c : Fin 2) : PosShare TreeShare := shareTok fullShare 2 c
abbrev qt (c : Fin 2) (i : Fin 16) : PosShare TreeShare := shareTok (qc c) 16 i
/-- Tile `i`'s read token of its SparseCore's shared table, and the remainder tile 0 keeps. -/
abbrev qs (i : Fin 16) : PosShare TreeShare := shareTok fullShare 16 i
abbrev qs₀ : PosShare TreeShare := shareDrop fullShare 16

variable [FloatOps F]

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read token of the shared table at the table's contents. -/
abbrev shTok (d : Dev nD) (c : Fin τ.nSC) (j : Fin 16) : sProp 𝕄 := shLoc d c ↦{qs j} shTbl A d c

/-- What a duty in tile `j`'s round hands over: tile 0's, tile `j`'s read token of the table; the others', nothing. -/
def bPay (g : GSem nD τ sig) (n : ℕ) : sProp 𝕄 :=
  match g with
  | ((d, .scVector c j), _) => if n = 0 then shTok A d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay A g n
  amount_pos _ _ _ _ := Nat.one_pos

instance bRd_payload_storable (g : GSem nD τ sig) (r n : ℕ) : BI.Storable (upEmb : UEmb _ 𝕄) ((bRd (F := F) A).payload g r n) := by
  show BI.Storable upEmb (bPay A g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) A).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) A).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) A).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) A) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- A read token of the member list and of the table at their region-entry contents. -/
abbrev tfPts (d : Dev nD) (q : PosShare TreeShare) : sProp 𝕄 := tfLoc d ↦{q} A.tf d
abbrev sfPts (d : Dev nD) (q : PosShare TreeShare) : sProp 𝕄 := sfLoc d ↦{q} A.sf d
/-- Piece `w` of the result's buffer at contents `f`. -/
abbrev oPts (d : Dev nD) (w : Fin 32) (f : Buf (Elt F) (oLoc d)) : sProp 𝕄 := oLoc d ↦[oSet w]{fullShare} f
/-- Piece `w` of the result's buffer holds the kernel's result there. -/
def oDone (d : Dev nD) (w : Fin 32) : sProp 𝕄 :=
  iprop(∃ f : Buf (Elt F) (oLoc d), oPts d w f ∗ ⌜∀ j ∈ oSet w, f j = Cert.TeamSkill.kOut (F := F) (A.tf d) (A.sf d) j⌝)

/-- The shared scratch whole, at some contents: what tile 0 is handed to stage the table into. -/
abbrev shAny (d : Dev nD) (c : Fin τ.nSC) : sProp 𝕄 := iprop(∃ f : Buf (Elt F) (shLoc d c), shLoc d c ↦{fullShare} f)
/-- What tile `i` hands back of the shared scratch: its read token of the table, tile 0 the remainder too. -/
def shBack (d : Dev nD) (c : Fin τ.nSC) (i : Fin 16) : sProp 𝕄 :=
  iprop(shTok A d c i ∗ if i.val = 0 then shLoc d c ↦{qs₀} shTbl A d c else iprop(emp))

abbrev cOf (c : Fin ((K (F := F)).nCore 0)) : Fin 2 := Fin.cast nCore_zero c
abbrev iOf (i : Fin ((K (F := F)).nSub 0)) : Fin 16 := Fin.cast nSub_zero i
/-- The SparseCore of the call's core number `c`. -/
abbrev coreOf (c : Fin ((K (F := F)).nCore 0)) : Fin τ.nSC := (K (F := F)).core 0 c

/-- The one call takes, per SparseCore, a read token of the member list and of the table and the sixteen pieces of the
    result its tiles write; each task its tokens and its piece, tile 0 also the shared scratch; each brings back its
    piece holding the result there and its part of the shared scratch; each task's proof consumes its barrier kit; each
    tile owes its arrivals. -/
def P : (K (F := F)).Pay (nD := nD) (Val := Elt F) (Name := ℕ) (U := UU) where
  st := fun q d c => match q with
    | 0 => iprop(tfPts A d (qc (cOf c)) ∗ sfPts A d (qc (cOf c)) ∗ bigSep Finset.univ fun i : Fin 16 => oPts d (widOf (cOf c) i) (A.o₀ d))
  dn := fun q d c => match q with
    | 0 => bigSep Finset.univ fun i : Fin 16 => oDone A d (widOf (cOf c) i)
  go := fun q d c i => match q with
    | 0 => iprop(tfPts A d (qt (cOf c) (iOf i)) ∗ sfPts A d (qt (cOf c) (iOf i)) ∗ oPts d (widOf (cOf c) (iOf i)) (A.o₀ d)
        ∗ if (iOf i).val = 0 then shAny d (coreOf c) else iprop(emp))
  td := fun q d c i => match q with
    | 0 => iprop(oDone A d (widOf (cOf c) (iOf i)) ∗ shBack A d (coreOf c) (iOf i))
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

end Cert.Proof.KB

end
-- ==== Proof.MainKB.lean ====
/-
  @main on the TensorCore, and what the final memory says.

  @main runs six host operations, the SparseCore call, and one more host operation. Before the call: the member array
  [16384, 20] is transposed to [20, 16384], padded with four rows of the word 0 to [24, 16384] and read row-major as
  a flat list of 393216 words (`teamFlat`); the skill table [100000, 1] is read as a flat list of 100000 values
  (`skillFlat`). The call is handed the two flat arrays read-only, one read token per SparseCore, and the result's
  16384-element buffer cut into its thirty-two 512-element pieces, piece `2 i + c` to SparseCore `c` for its tile
  `i`; it brings every piece back holding the kernel's result `kOut` there, so the buffer whole holds `kOut`. After
  the call the result is read as [16384, 1, 1] (`outCast`). The two argument arrays are never handed over and never
  written, so they end as they began.
-/
import proofs.«203918_g8735963480385_cont_9to1c4b_274_26_alg».proof.Proof.CommonKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split)

variable {F : FTy → Type}

local notation "𝕄" => MT nD τ sig (HIx 1) (Elt F) ℕ UU ℕ

/-! ## The host operations' pure terms -/

/-- The member array as the call reads it: transposed, padded by four rows of zero words, flattened row-major. -/
def teamFlat (team : IVec S16384x20 32) : IVec S393216 32 :=
  shapeCast S393216
    (pad S24x16384 ![0, 0] ![4, 0] ![0, 0] (transpose S20x16384 [1, 0] team transposes_S16384x20_S20x16384_1_0)
      (constantI S_ 32 0#32) pads_S20x16384_S24x16384_040_000 h_S_)
    shapeCasts_S24x16384_S393216

/-- The skill table as the call reads it: flattened. -/
def skillFlat (skill : FVec F S100000x1 .f32) : FVec F S100000 .f32 := shapeCast S100000 skill shapeCasts_S100000x1_S100000

/-- The call's result as @main returns it: one team per row of a [16384, 1, 1] array. -/
def outCast (o : FVec F S16384 .f32) : FVec F S16384x1x1 .f32 := shapeCast S16384x1x1 o shapeCasts_S16384_S16384x1x1

/-! ## The arrays the call is handed -/

abbrev a0Loc (d : Dev nD) : Loc nD τ sig := (SparseCore.T d).loc main_arg0
abbrev a1Loc (d : Dev nD) : Loc nD τ sig := (SparseCore.T d).loc main_arg1
abbrev v5Loc (d : Dev nD) : Loc nD τ sig := (SparseCore.T d).loc main_v5

/-- The region-entry contents of the call's three arrays, from the launch memory: the two flat arrays @main computes
    and the result's buffer as the launch left it. -/
def arrays (m : (ℓ : Loc nD τ sig) → Buf (Elt F) ℓ) : Arrays F where
  tf d := teamFlat (m (a0Loc d))
  sf d := skillFlat (m (a1Loc d))
  o₀ d := m (oLoc d)

/-! ## @main's ten arrays and seven host operations -/

abbrev a0' : DevRef τ sig := Proc.devRef .tc (main_arg0 : Ref sig .tc)
abbrev a1' : DevRef τ sig := Proc.devRef .tc (main_arg1 : Ref sig .tc)
abbrev t0' : DevRef τ sig := Proc.devRef .tc (main_v0 : Ref sig .tc)
abbrev c' : DevRef τ sig := Proc.devRef .tc (main_c : Ref sig .tc)
abbrev cv' : DevRef τ sig := Proc.devRef .tc (main_call0_v0 : Ref sig .tc)
abbrev p1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opT : HloOp τ sig (Elt F) :=
  StableHlo.unary main_arg0 main_v0 ((transpose S20x16384 [1, 0] · transposes_S16384x20_S20x16384_1_0) : (⟨S16384x20, .i32⟩ : BufTy).Contents (Elt F) → (⟨S20x16384, .i32⟩ : BufTy).Contents (Elt F))
abbrev opC : HloOp τ sig (Elt F) := StableHlo.nullary main_c (constantI S_ 32 0#32)
abbrev opCv : HloOp τ sig (Elt F) := StableHlo.TRef.unary (.of main_c : StableHlo.TRef sig ⟨S_, .i32⟩) main_call0.v0 id
abbrev opPad : HloOp τ sig (Elt F) :=
  StableHlo.TRef.binary (.of main_v0 : StableHlo.TRef sig ⟨S20x16384, .i32⟩) main_call0.v0 main_call0.v1
    (fun x v => pad S24x16384 ![0, 0] ![4, 0] ![0, 0] x v pads_S20x16384_S24x16384_040_000 h_S_)
abbrev opR2 : HloOp τ sig (Elt F) := StableHlo.reshape main_v1 main_v2 rfl shapeCasts_S24x16384_S393216
abbrev opR3 : HloOp τ sig (Elt F) := StableHlo.reshape main_arg1 main_v3 rfl shapeCasts_S100000x1_S100000
abbrev opR5 : HloOp τ sig (Elt F) := StableHlo.reshape main_v4 main_v5 rfl shapeCasts_S16384_S16384x1x1

/-- The TensorCore's arrays, all unscoped. -/
abbrev S10 : Finset (DevRef τ sig) := {a0', a1', t0', c', cv', p1', v2', v3', v4', v5'}

theorem held_S10 (d : Dev nD) (W : Valuation τ sig (Elt F)) :
    (held (T d) S10 W : sProp 𝕄)
      = iprop((a0Loc d ↦{fullShare} W a0') ∗ (a1Loc d ↦{fullShare} W a1') ∗ ((SparseCore.T d).loc main_v0 ↦{fullShare} W t0')
          ∗ ((SparseCore.T d).loc main_c ↦{fullShare} W c') ∗ ((SparseCore.T d).loc main_call0_v0 ↦{fullShare} W cv')
          ∗ ((SparseCore.T d).loc main_v1 ↦{fullShare} W p1') ∗ (tfLoc d ↦{fullShare} W v2') ∗ (sfLoc d ↦{fullShare} W v3')
          ∗ (oLoc d ↦{fullShare} W v4') ∗ v5Loc d ↦{fullShare} W v5') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ ((SparseCore.T d).loc main_v0 ↦{fullShare} W main_v0)
          ∗ ((SparseCore.T d).loc main_c ↦{fullShare} W main_c) ∗ ((SparseCore.T d).loc main_call0_v0 ↦{fullShare} W main_call0_v0)
          ∗ ((SparseCore.T d).loc main_v1 ↦{fullShare} W main_v1) ∗ (tfLoc d ↦{fullShare} W main_v2) ∗ (sfLoc d ↦{fullShare} W main_v3)
          ∗ (oLoc d ↦{fullShare} W main_v4) ∗ v5Loc d ↦{fullShare} W main_v5) := by
  unfold unscopedBufs
  rw [show (Finset.univ.filter fun b : Ref sig .tc => ¬ b.isScoped) = {main_arg0, main_arg1, main_v0, main_c, main_call0_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ)

/-- The launch valuation, and the valuation when the call is reached: the six operations' results. -/
def V0 (d : Dev nD) : Valuation τ sig (Elt F) := fun b => m (d, b)
def V6 (d : Dev nD) : Valuation τ sig (Elt F) :=
  (opR3 (F := F)).result ((opR2 (F := F)).result ((opPad (F := F)).result ((opCv (F := F)).result ((opC (F := F)).result ((opT (F := F)).result (V0 m d))))))

theorem unscoped_held (d : Dev nD) : (unscopedBufs d (fun b => m ((SparseCore.T d).loc b)) : sProp 𝕄) = held (T d) S10 (V0 m d) := by
  rw [unscopedBufs_eq, held_S10]; rfl

set_option maxHeartbeats 400000 in
theorem V6_a0 (d : Dev nD) : V6 m d a0' = m (a0Loc d) := rfl
set_option maxHeartbeats 400000 in
theorem V6_a1 (d : Dev nD) : V6 m d a1' = m (a1Loc d) := rfl
set_option maxHeartbeats 400000 in
theorem V6_v4 (d : Dev nD) : V6 m d v4' = m (oLoc d) := rfl
set_option maxHeartbeats 400000 in
theorem V6_v2 (d : Dev nD) : V6 m d v2' = (arrays m).tf d := rfl
set_option maxHeartbeats 400000 in
theorem V6_v3 (d : Dev nD) : V6 m d v3' = (arrays m).sf d := rfl

/-! ## The result's pieces, regrouped per SparseCore and tile -/

omit m in
theorem oSet_eq (w : Fin 32) : oSet w = (oPart w).set := by
  show ((View.whole (main_v4_scv : Ref sig .scVector)).slice (oPart w)).set = _
  rw [View.set_slice]; exact Finset.map_refl
omit m in
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit m in
theorem oSets_cover : (Finset.univ : Finset (Fin 32)).biUnion oSet = Finset.univ :=
  (Finset.biUnion_congr rfl fun i _ => oSet_eq i).trans (Rect.biUnion_part odiv)

omit m in
/-- The result's buffer whole is its thirty-two pieces. -/
theorem oPts_pieces (d : Dev nD) (f : Buf (Elt F) (oLoc d)) :
    (oLoc d ↦{fullShare} f : sProp 𝕄) = bigSep Finset.univ fun w : Fin 32 => oPts d w f := by
  rw [← pointsTo_biUnion Finset.univ (ℓ := oLoc d) oSet oSets_disjoint, oSets_cover]; try rfl

/-- Piece `2 i + c` is tile `i` of SparseCore `c`'s: every piece is exactly one tile's. -/
def widEquiv : Fin 2 × Fin 16 ≃ Fin 32 where
  toFun p := widOf p.1 p.2
  invFun w := (⟨w.val % 2, Nat.mod_lt _ (by decide)⟩, ⟨w.val / 2, by have := w.isLt; omega⟩)
  left_inv p := by
    rcases p with ⟨c, i⟩
    have hc := c.isLt; have hi := i.isLt
    apply Prod.ext <;> apply Fin.ext <;> simp only [widOf] <;> omega
  right_inv w := by apply Fin.ext; simp only [widOf]; omega

omit m in
theorem bigSep_pieces (Φ : Fin 32 → sProp 𝕄) :
    bigSep Finset.univ Φ = bigSep Finset.univ fun c : Fin 2 => bigSep Finset.univ fun i : Fin 16 => Φ (widOf c i) := by
  rw [bigSep_univ_equiv widEquiv Φ, bigSep_univ_prod]; rfl

omit m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F] (A : Arrays F)

omit m in
theorem st0_eq (d : Dev nD) :
    (bigSep Finset.univ fun c : Fin ((K (F := F)).nCore 0) => (P A).st 0 d c)
      = iprop((bigSep Finset.univ fun c : Fin 2 => tfPts A d (qc c)) ∗ (bigSep Finset.univ fun c : Fin 2 => sfPts A d (qc c))
          ∗ bigSep Finset.univ fun c : Fin 2 => bigSep Finset.univ fun i : Fin 16 => oPts d (widOf c i) (A.o₀ d)) := by
  refine (bigSep_cores (F := F) fun c' : Fin 2 =>
    iprop(tfPts A d (qc c') ∗ sfPts A d (qc c') ∗ bigSep Finset.univ fun i : Fin 16 => oPts d (widOf c' i) (A.o₀ d))).trans ?_
  rw [bigSep_sep', bigSep_sep']

omit m in
/-- What @main hands the call: of each flat array a read token per SparseCore (the remainder is not needed again), and the
    result's buffer cut into its pieces. -/
theorem st0_intro (d : Dev nD) :
    iprop((tfLoc d ↦{fullShare} A.tf d) ∗ (sfLoc d ↦{fullShare} A.sf d) ∗ (oLoc d ↦{fullShare} A.o₀ d))
      ⊢ (bigSep Finset.univ fun c : Fin ((K (F := F)).nCore 0) => (P A).st 0 d c : sProp 𝕄) := by
  rw [st0_eq, oPts_pieces, bigSep_pieces]
  iintro ⟨Htf, Hsf, Ho⟩
  ihave Htf' := (pointsTo_toks_split fullShare 2) $$ Htf
  icases Htf' with ⟨-, Htf⟩
  ihave Hsf' := (pointsTo_toks_split fullShare 2) $$ Hsf
  icases Hsf' with ⟨-, Hsf⟩
  isplitl [Htf]; · iexact Htf
  isplitl [Hsf]; · iexact Hsf
  iexact Ho

omit m in
/-- A piece that holds the kernel's result at each of its indices is that piece at the kernel's result. -/
theorem oDone_elim (d : Dev nD) (w : Fin 32) :
    oDone A d w ⊢ (oPts d w (Cert.TeamSkill.kOut (F := F) (A.tf d) (A.sf d)) : sProp 𝕄) := by
  unfold oDone
  iintro ⟨%f, Hf, %hf⟩
  have e : (oPts d w f : sProp 𝕄) = oPts d w (Cert.TeamSkill.kOut (F := F) (A.tf d) (A.sf d)) := pointsTo_congr hf
  rw [← e]
  iexact Hf

omit m in
/-- What the call brings back: the result's buffer whole at the kernel's result. -/
theorem dn0_elim (d : Dev nD) :
    (bigSep Finset.univ fun c : Fin ((K (F := F)).nCore 0) => (P A).dn 0 d c)
      ⊢ (oLoc d ↦{fullShare} Cert.TeamSkill.kOut (F := F) (A.tf d) (A.sf d) : sProp 𝕄) := by
  have e : (bigSep Finset.univ fun c : Fin ((K (F := F)).nCore 0) => (P A).dn 0 d c)
      = (bigSep Finset.univ fun w : Fin 32 => oDone A d w : sProp 𝕄) :=
    (bigSep_cores (F := F) fun c' : Fin 2 => bigSep Finset.univ fun i : Fin 16 => oDone A d (widOf c' i)).trans
      (bigSep_pieces (fun w => oDone A d w)).symm
  rw [e, oPts_pieces]
  exact bigSep_mono fun w _ => oDone_elim A d w

/-! ## @main on the TensorCore -/

omit [FloatOps F] A in
theorem V6_o₀ (d : Dev nD) : V6 m d v4' = (arrays m).o₀ d := rfl

omit [FloatOps F] A in
/-- The ten arrays when the call is reached: the arguments at their launch contents, the two flat arrays computed, the
    result's buffer as the launch left it. -/
theorem held_V6 (d : Dev nD) :
    (held (T d) S10 ((opR3 (F := F)).result ((opR2 (F := F)).result ((opPad (F := F)).result ((opCv (F := F)).result ((opC (F := F)).result ((opT (F := F)).result (V0 m d))))))) : sProp 𝕄)
      = iprop((a0Loc d ↦{fullShare} m (a0Loc d)) ∗ (a1Loc d ↦{fullShare} m (a1Loc d)) ∗ ((SparseCore.T d).loc main_v0 ↦{fullShare} V6 m d t0')
          ∗ ((SparseCore.T d).loc main_c ↦{fullShare} V6 m d c') ∗ ((SparseCore.T d).loc main_call0_v0 ↦{fullShare} V6 m d cv')
          ∗ ((SparseCore.T d).loc main_v1 ↦{fullShare} V6 m d p1') ∗ (tfLoc d ↦{fullShare} (arrays m).tf d) ∗ (sfLoc d ↦{fullShare} (arrays m).sf d)
          ∗ (oLoc d ↦{fullShare} (arrays m).o₀ d) ∗ v5Loc d ↦{fullShare} V6 m d v5') := by
  show held (SparseCore.T d) S10 (V6 m d) = _
  rw [held_S10, V6_a0, V6_a1, V6_v2, V6_v3, V6_o₀]

omit m A in
theorem hT : (opT (F := F)).bufs ⊆ S10 := show ({a0', t0'} : Finset (DevRef τ sig)) ⊆ S10 by decide
omit m A in
theorem hC : (opC (F := F)).bufs ⊆ S10 := show ({c'} : Finset (DevRef τ sig)) ⊆ S10 by decide
omit m A in
theorem hCv : (opCv (F := F)).bufs ⊆ S10 := show ({c', cv'} : Finset (DevRef τ sig)) ⊆ S10 by decide
omit m A in
theorem hPad : (opPad (F := F)).bufs ⊆ S10 := show ({t0', cv', p1'} : Finset (DevRef τ sig)) ⊆ S10 by decide
omit m A in
theorem hR2 : (opR2 (F := F)).bufs ⊆ S10 := show ({p1', v2'} : Finset (DevRef τ sig)) ⊆ S10 by decide
omit m A in
theorem hR3 : (opR3 (F := F)).bufs ⊆ S10 := show ({a1', v3'} : Finset (DevRef τ sig)) ⊆ S10 by decide

/-- The last operation's own two arrays. -/
abbrev S2 : Finset (DevRef τ sig) := {v4', v5'}
omit m [FloatOps F] A in
theorem held_S2 (d : Dev nD) (W : Valuation τ sig (Elt F)) :
    (held (T d) S2 W : sProp 𝕄) = iprop((oLoc d ↦{fullShare} W v4') ∗ v5Loc d ↦{fullShare} W v5') := by
  unfold held S2
  rw [SparseCore.bigSep_insert' (by decide), bigSep_singleton]
omit m A in
theorem hR5 : (opR5 (F := F)).bufs ⊆ S2 := show ({v4', v5'} : Finset (DevRef τ sig)) ⊆ S2 by decide

/-- The kernel's result from the launch memory. -/
abbrev kRes (d : Dev nD) : FVec F S16384 .f32 := Cert.TeamSkill.kOut (F := F) (teamFlat (m (a0Loc d))) (skillFlat (m (a1Loc d)))

/-- After the call: the result's buffer at the kernel's result. -/
def V7 (d : Dev nD) : Valuation τ sig (Elt F) := Function.update (V6 m d) v4' (kRes m d)
omit A in
theorem V7_v4 (d : Dev nD) : V7 m d v4' = kRes m d := Function.update_self _ _ _
omit A in
theorem V7_v5 (d : Dev nD) : V7 m d v5' = V6 m d v5' := Function.update_of_ne (show v5' ≠ v4' by decide) _ _
omit A in
theorem held_V8 (d : Dev nD) :
    (held (T d) S2 ((opR5 (F := F)).result (V7 m d)) : sProp 𝕄)
      = iprop((oLoc d ↦{fullShare} kRes m d) ∗ v5Loc d ↦{fullShare} outCast (kRes m d)) := by
  rw [held_S2, (opR5 (F := F)).result_of_not_mem (V7 m d) (b := v4') (show v4' ∉ ({v5'} : Finset (DevRef τ sig)) by decide), V7_v4,
    show (opR5 (F := F)).result (V7 m d) v5' = outCast (V7 m d v4') from rfl, V7_v4]

/-- What @main leaves the claim: the two arguments at their launch contents, the result array at the kernel's result
    read as [16384, 1, 1]. -/
abbrev FIN (d : Dev nD) : sProp 𝕄 :=
  iprop((a0Loc d ↦{fullShare} m (a0Loc d)) ∗ (a1Loc d ↦{fullShare} m (a1Loc d)) ∗ v5Loc d ↦{fullShare} outCast (kRes m d))

variable (ρ : Dev nD → PrngReg)

omit A in
/-- @main on device `d`'s TensorCore: the six host operations before the call, over the ten arrays held whole; the call,
    from a read token of each flat array per SparseCore and the result's pieces, back with the result's buffer at the
    kernel's result; the last reshape, over its own two arrays; the arguments kept throughout. -/
theorem hmain (κ : GSem nD τ sig → ℕ) (d : Dev nD) :
    iprop((K (F := F)).ctx EH (P (arrays m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  -- the transpose, the constant, the pad's two operations, the two reshapes
  iapply (wp_hlo_within 𝒱 (SparseCore.T d) none Set.univ (op := opT) (S := S10) hT (V := V0 m d)) $$ [Hb Hheld]
  · isplitl [Hb] <;> iassumption
  iintro ⟨Hb, Hheld⟩
  rw [wp_ret]; imodintro
  iapply (wp_hlo_within 𝒱 (SparseCore.T d) none Set.univ (op := opC) (S := S10) hC (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opCv) (S := S10) hCv (V := (opC (F := F)).result ((opT (F := F)).result (V0 m d)))) $$ [Hb Hheld]
  · isplitl [Hb] <;> iassumption
  iintro ⟨Hb, Hheld⟩
  rw [wp_ret]; imodintro
  iapply (wp_hlo_within 𝒱 (SparseCore.T d) none Set.univ (op := opPad) (S := S10) hPad (V := (opCv (F := F)).result ((opC (F := F)).result ((opT (F := F)).result (V0 m d))))) $$ [Hb Hheld]
  · isplitl [Hb] <;> iassumption
  iintro ⟨Hb, Hheld⟩
  rw [wp_ret]; imodintro
  imodintro
  iapply (wp_hlo_within 𝒱 (SparseCore.T d) none Set.univ (op := opR2) (S := S10) hR2 (V := (opPad (F := F)).result ((opCv (F := F)).result ((opC (F := F)).result ((opT (F := F)).result (V0 m d)))))) $$ [Hb Hheld]
  · isplitl [Hb] <;> iassumption
  iintro ⟨Hb, Hheld⟩
  rw [wp_ret]; imodintro
  iapply (wp_hlo_within 𝒱 (SparseCore.T d) none Set.univ (op := opR3) (S := S10) hR3 (V := (opR2 (F := F)).result ((opPad (F := F)).result ((opCv (F := F)).result ((opC (F := F)).result ((opT (F := F)).result (V0 m d))))))) $$ [Hb Hheld]
  · isplitl [Hb] <;> iassumption
  iintro ⟨Hb, Hheld⟩
  rw [wp_ret]; imodintro
  -- the call
  ihave Hh := (Entails.of_eq (held_V6 (F := F) m d)) $$ Hheld
  icases Hh with ⟨Ha0, Ha1, -, -, -, -, Htf, Hsf, Ho, Hv5⟩
  iapply ((K (F := F)).wp_run (D (F := F)) 𝒱 (EH := EH) (P := P (arrays m)) κ d 0) $$ [Hst Htf Hsf Ho Hb Ha0 Ha1 Hv5]
  isplitr; · iexact Hctx
  isplitl [Hst]; · iexact Hst
  isplitl [Htf Hsf Ho]
  · iapply (st0_intro (arrays m) d)
    isplitl [Htf]; · iexact Htf
    isplitl [Hsf]; · iexact Hsf
    iexact Ho
  iintro ⟨Hst, Hdn⟩
  ihave Ho := (dn0_elim (arrays m) d) $$ Hdn
  -- the last reshape, over the result's buffer and the result array
  iapply (wp_hlo_within 𝒱 (SparseCore.T d) none Set.univ (op := opR5) (S := S2) hR5 (V := V7 m d)) $$ [Hb Ho Hv5]
  · isplitl [Hb]; · iexact Hb
    rw [held_S2, V7_v4, V7_v5]
    isplitl [Ho]; · iexact Ho
    iexact Hv5
  iintro ⟨Hb, Hheld⟩
  ihave Hh := (Entails.of_eq (held_V8 (F := F) m d)) $$ Hheld
  icases Hh with ⟨-, Hv5⟩
  rw [wp_ret]; imodintro; imodintro
  isplitl [Hst]; · iexact Hst
  isplitl [Ha0]; · iexact Ha0
  isplitl [Ha1]; · iexact Ha1
  iexact Hv5

/-! ## The final memory -/

/-- What the final memory holds on device `d`: the result array the kernel's result read as [16384, 1, 1], the two
    arguments their launch contents. -/
def fq (d : Dev nD) (s' : Phys nD τ sig (Elt F)) : Prop :=
  s'.mem.mem (v5Loc d) = outCast (kRes m d) ∧ s'.mem.mem (a0Loc d) = m (a0Loc d) ∧ s'.mem.mem (a1Loc d) = m (a1Loc d)

omit A ρ in
/-- An array held whole at the full share agrees with the memory at every index. -/
theorem hfin (d : Dev nD) (s' : Phys nD τ sig (Elt F)) : iprop(FIN m d ∗ SI s') ⊢ (⌜fq m d s'⌝ : sProp 𝕄) := by
  iintro ⟨⟨Ha0, Ha1, Hv5⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := v5Loc d) (I := Finset.univ) (q := fullShare) (f := outCast (kRes m d))) $$ [HSI Hv5]
  · isplitl [HSI] <;> iassumption
  icases H with %h5
  ipureintro
  exact ⟨funext fun i => h5 i (Finset.mem_univ i), funext fun i => h0 i (Finset.mem_univ i), funext fun i => h1 i (Finset.mem_univ i)⟩

/-- The run's post, in the spelling of the certificate's claims: on every device the result array holds the kernel's
    result read as [16384, 1, 1] and the two arguments are unchanged. -/
def QC : PUnit × MemSt nD τ sig (Elt F) → Prop := fun r => ∀ c : Dev nD,
  r.2.mem ((c.tc : Thread nD τ).loc main_v5) = outCast (kRes m c)
    ∧ r.2.mem ((c.tc : Thread nD τ).loc main_arg0) = m ((c.tc : Thread nD τ).loc main_arg0)
    ∧ r.2.mem ((c.tc : Thread nD τ).loc main_arg1) = m ((c.tc : Thread nD τ).loc main_arg1)

omit A ρ in
theorem hQ (s' : Phys nD τ sig (Elt F)) (h : ∀ d, fq m d s') : QC m (⟨⟩, s'.mem) := fun c => h c

end Cert.Proof.KB

end
-- ==== Proof.StorableKB.lean ====
/- The handshakes' payloads can be stored in an invariant: each is built from points-to assertions, pure facts,
   separating conjunctions, existentials and decided conditionals. -/
import proofs.«203918_g8735963480385_cont_9to1c4b_274_26_alg».proof.Proof.CommonKB

noncomputable section

namespace Cert.Proof.KB

open Cert.Kernel Cert.Kernel.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (A : Arrays F)

local notation "𝕄" => MT nD τ sig (HIx 1) (Elt F) ℕ UU ℕ

instance P_storable : (P (F := F) A).IsStorable where
  st q d c := match q with
    | 0 => by unfold P; dsimp only; infer_instance
  dn q d c := match q with
    | 0 => by unfold P oDone; dsimp only; infer_instance
  go q d c i := match q with
    | 0 => by unfold P; dsimp only; split <;> infer_instance
  td q d c i := match q with
    | 0 => by unfold P oDone shBack; dsimp only; split <;> infer_instance

end Cert.Proof.KB

end
-- ==== Proof.SplitKB.lean ====
/-
  How a SparseCore's operands split among its sixteen tiles, and how the tiles' results gather back.

  The call hands SparseCore `c` a read token of the flat member list and of the skill table, and the sixteen 512-word
  pieces of the result its tiles write. Each read token splits into sixteen tokens, one per tile, and a remainder that is
  not needed again. Each tile takes its piece of the result. The SparseCore's shared scratch is one of the sequencer's own
  buffers; it goes whole to tile 0, which stages the table into it. On the way back every tile returns its piece holding
  the kernel's result there, and its read token of the shared scratch at the table's contents; tile 0 returns the
  remainder of that share too, so the sixteen tokens and the remainder rejoin to the scratch whole.
-/
import proofs.«203918_g8735963480385_cont_9to1c4b_274_26_alg».proof.Proof.CommonKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## The split of a SparseCore's operands among its sixteen tiles -/

/-- A conjunction over the call's tiles is one over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A conjunction over the sixteen tiles in which only tile 0's term is not empty is that term. -/
theorem bigSep_if_zero (X : sProp 𝕄) : (bigSep Finset.univ fun i : Fin 16 => if i.val = 0 then X else iprop(emp)) = X := by
  rw [SparseCore.bigSep_erase' (Finset.mem_univ (0 : Fin 16)),
    bigSep_congr (s := Finset.univ.erase (0 : Fin 16)) (Φ := fun i : Fin 16 => if i.val = 0 then X else iprop(emp)) (Ψ := fun _ => (iprop(emp) : sProp 𝕄))
      (fun i hi => if_neg (fun h => (Finset.ne_of_mem_erase hi) (Fin.ext h))),
    bigSep_emp', if_pos (show ((0 : Fin 16)).val = 0 from rfl)]
  exact equiv_iff.mp sep_emp

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F] (A : Arrays F)

theorem P_st (d : Dev nD) (c : Fin ((K (F := F)).nCore 0)) :
    (P A).st 0 d c = iprop(tfPts A d (qc (cOf c)) ∗ sfPts A d (qc (cOf c)) ∗ bigSep Finset.univ fun i : Fin 16 => oPts d (widOf (cOf c) i) (A.o₀ d)) := rfl
theorem P_dn (d : Dev nD) (c : Fin ((K (F := F)).nCore 0)) :
    (P A).dn 0 d c = bigSep Finset.univ fun i : Fin 16 => oDone A d (widOf (cOf c) i) := rfl
theorem P_go (d : Dev nD) (c : Fin ((K (F := F)).nCore 0)) (i : Fin ((K (F := F)).nSub 0)) :
    (P A).go 0 d c i = iprop(tfPts A d (qt (cOf c) (iOf i)) ∗ sfPts A d (qt (cOf c) (iOf i)) ∗ oPts d (widOf (cOf c) (iOf i)) (A.o₀ d)
        ∗ if (iOf i).val = 0 then shAny d (coreOf c) else iprop(emp)) := rfl
theorem P_td (d : Dev nD) (c : Fin ((K (F := F)).nCore 0)) (i : Fin ((K (F := F)).nSub 0)) :
    (P A).td 0 d c i = iprop(oDone A d (widOf (cOf c) (iOf i)) ∗ shBack A d (coreOf c) (iOf i)) := rfl

/-- SparseCore `c`'s read token of the member list and of the table split into sixteen tokens, one per tile (the
    remainder is not needed again); the sixteen result pieces go one to each tile; the shared scratch, found whole among
    the sequencer's own buffers, goes to tile 0. On the way back each tile's finished piece is its term of the call's
    result, and the sixteen read tokens of the shared scratch with tile 0's remainder rejoin to the scratch whole, at
    the table's contents. -/
theorem vecSplit : (K (F := F)).VecSplit (P A) 0 := by
  intro d c
  rw [P_st, P_dn]
  simp only [P_go, P_td]
  unfold shBack
  rw [bigSep_tasks (F := F) (fun i => iprop(tfPts A d (qt (cOf c) i) ∗ sfPts A d (qt (cOf c) i) ∗ oPts d (widOf (cOf c) i) (A.o₀ d)
        ∗ if i.val = 0 then shAny d (coreOf c) else iprop(emp))),
    bigSep_tasks (F := F) (fun i => iprop(oDone A d (widOf (cOf c) i)
        ∗ (shTok A d (coreOf c) i ∗ if i.val = 0 then shLoc d (coreOf c) ↦{qs₀} shTbl A d (coreOf c) else iprop(emp)))),
    bigSep_sep', bigSep_sep', bigSep_sep', bigSep_sep', bigSep_sep', bigSep_if_zero, bigSep_if_zero, ownBufs_S]
  iintro ⟨⟨Htf, Hsf, Ho⟩, Hsh, Hrest⟩; imodintro
  ihave Htf' := (pointsTo_toks_split (qc (cOf c)) 16) $$ Htf
  icases Htf' with ⟨-, Htf'⟩
  ihave Hsf' := (pointsTo_toks_split (qc (cOf c)) 16) $$ Hsf
  icases Hsf' with ⟨-, Hsf'⟩
  isplitl [Htf' Hsf' Ho Hsh]
  · isplitl [Htf']; · iexact Htf'
    isplitl [Hsf']; · iexact Hsf'
    isplitl [Ho]; · iexact Ho
    iexact Hsh
  iintro ⟨Hdone, Htok, Hrem⟩
  isplitl [Hdone]; · iexact Hdone
  isplitl [Htok Hrem]
  · ihave H := (pointsTo_toks_join fullShare 16) $$ [Htok Hrem]
    · isplitl [Hrem]; · iexact Hrem
      iexact Htok
    iexists (shTbl A d (coreOf c)); iexact H
  iexact Hrest

end Cert.Proof.KB

end
-- ==== Proof.LaunchKB.lean ====
/-
  The launch element of the certificate's ghost state, and what the launch hands over for it.

  The ghost state is a product: the handshakes' rounds, the barrier cells' rounds, the transfers' counters. The launch
  element is the handshakes' initial rounds, the barrier cells' initial rounds (one cell per tile of the device; in each
  cell one duty token per tile of the same SparseCore), and the counters' unit. From it, from the free semaphores at zero
  and from the credit for the tiles' own debts, the barrier cells' invariants are allocated at once and every tile is
  dealt its kit: the sixteen invariants of its SparseCore's cells and that each has reached round 0, its own position at
  the origin of round 0, its duty token in each of the sixteen rounds, and the credit for the sixteen units of its own
  round. The call runs on both SparseCores, so every tile of the device is dealt a kit. The schedule's payload plays no
  part here.
-/
import proofs.«203918_g8735963480385_cont_9to1c4b_274_26_alg».proof.Proof.CommonKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## The launch element of the certificate's ghost state, and what the launch hands over -/

abbrev DCI : Type := Dev nD × Fin τ.nSC × Fin τ.nSub
abbrev bcell₃ (x : DCI) : GSem nD τ sig := bcell x.1 x.2.1 x.2.2

/-- Every tile's barrier cell. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' rounds, the barrier cells' rounds, the transfers' counters at their unit. -/
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

variable [FloatOps F] (A : Arrays F)

/-- The barrier cells' invariants, allocated at once. -/
theorem invs_b : iprop((bigSep bCells fun g => (semVal g 0 : sProp 𝕄)) ∗ bigSep bCells fun g => roundState EB (bRd (F := F) A) g 0)
    ⊢ |={Set.univ}=> iprop(∃ κ : GSem nD τ sig → ℕ, bigSep bCells fun g => cellInv EB (bRd (F := F) A) (κ g) g) := by
  refine (Rounds.bodies_intro EB (bRd (F := F) A) bCells).trans ((inv_alloc_family bCells (Rounds.body EB (bRd (F := F) A)) ∅ (E := Set.univ)).trans ?_)
  iintro H
  imod H with ⟨%κ, -, Hinv⟩
  imodintro; iexists κ; iexact Hinv

/-- The credit for the kernels' own debts, regrouped: each tile the sixteen units of its own cell. Every tile of the
    device is in the call's grid, so every tile owes, and is credited, alike. -/
theorem creds_b : ((P (F := F) A).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) A).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) A).oxFrom 0 (V d c i) = oxV d c := fun i => by
    have h := (P (F := F) A).oxFrom_step (0 : Fin 1) (V d c i)
    rw [(P (F := F) A).oxFrom_end (V d c i) (n := (0 : Fin 1).val + 1) le_rfl, add_zero] at h
    exact h
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P (F := F) A).x q (SparseCore.T d)) = iprop(emp) :=
  bigSep_univ_of_subsingleton (0 : Fin 1)
theorem Px_S (d : Dev nD) (c : Fin τ.nSC) : (bigSep Finset.univ fun q : Fin 1 => (P (F := F) A).x q (S d c)) = iprop(emp) :=
  bigSep_univ_of_subsingleton (0 : Fin 1)
theorem Px_V (d : Dev nD) (c : Fin τ.nSC) (i : Fin τ.nSub) :
    (bigSep Finset.univ fun q : Fin 1 => (P (F := F) A).x q (V d c i)) = bkit A d c i :=
  bigSep_univ_of_subsingleton (0 : Fin 1)

/-- What every tile is handed alike: every barrier cell's invariant, and that each has reached round 0. -/
abbrev shared : sProp 𝕄 :=
  iprop((∃ κ : GSem nD τ sig → ℕ, bigSep Finset.univ fun x : DCI => cellInv EB (bRd (F := F) A) (κ (bcell₃ x)) (bcell₃ x))
    ∗ bigSep Finset.univ fun x : DCI => reached EB (bcell₃ x) 0)

/-- One tile's kit out of those. -/
theorem kit_intro (dci : DCI) : iprop(shared (F := F) A ∗ mine (F := F) dci) ⊢ (bkit (F := F) A dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) A) (κ (bcell₃ x)) (bcell₃ x)) fun j _ =>
        sep_elim_left.trans (bigSep_elim (Φ := fun x : DCI => (cellInv EB (bRd (F := F) A) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) A ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) A).x q thr : sProp 𝕄) := by
  rw [SparseCore.Cfg.bigSep_threads (fun thr : Thread nD τ => bigSep Finset.univ fun q : Fin 1 => (P (F := F) A).x q thr)]
  simp only [Px_T, Px_S, Px_V, bigSep_emp']
  iintro ⟨#Hsh, Hat, Htok, Hcred⟩
  isplitr; · iempintro
  isplitr; · iempintro
  iapply (bigSep_mono_frame (R := shared (F := F) A) (Φ := mine (F := F)) fun dci _ => kit_intro (F := F) A dci)
  isplitr; · iexact Hsh
  unfold mine
  rw [bigSep_sep', bigSep_sep']
  isplitl [Hat]; · iexact Hat
  isplitl [Htok]; · iexact Htok
  iexact Hcred

/-- The launch element pays for the launch: the handshakes' library as the launch theorem wants it, and out of the
    barrier cells' library, the free semaphores and the credit, each tile's barrier kit. -/
theorem hu₀ : iprop(ownU (u₀ (F := F)) ∗ (P (F := F) A).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P A).x q thr) : sProp 𝕄) := by
  unfold u₀
  iintro ⟨Hu, Hcred, Hfree⟩
  ihave H := (ownU_split _ _) $$ Hu
  icases H with ⟨HH, HB⟩
  imod (Rounds.fund EB (bRd (F := F) A) bCells bToks) $$ HB with ⟨Hst, #Hr, Hat, Htok⟩
  ihave Hsems := (sems_b (F := F)) $$ Hfree
  imod (invs_b (F := F) A) $$ [Hsems Hst] with ⟨%κ, #Hinv⟩
  · isplitl [Hsems] <;> iassumption
  ihave Hcred' := (creds_b A) $$ Hcred
  ihave Hinv' := (Entails.of_eq (bCells_eq (F := F) fun g => cellInv EB (bRd (F := F) A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal A)
  isplitr
  · isplitl; · iexists κ; iexact Hinv'
    iexact Hr'
  isplitl [Hat']; · iexact Hat'
  isplitl [Htok']; · iexact Htok'
  iexact Hcred'

end Cert.Proof.KB

end
-- ==== Proof.RunKB.lean ====
/-
  The kernel's program, run whole. The launch theorem turns the proofs of the parts into the run of all thirty-five
  threads of the device — the TensorCore, two sequencers, thirty-two vector subcores — from a memory whose semaphores
  read zero: one vector subcore's task (the body obligation, a hypothesis here), how a SparseCore's operands split
  among its sixteen tasks and gather again, @main on the TensorCore, the launch element of the ghost state, and the
  reading of the final memory. Every weakly fair execution terminates without fault, and ends with the result array
  at the kernel's result read as [16384, 1, 1] and the two arguments unchanged.
-/
import proofs.«203918_g8735963480385_cont_9to1c4b_274_26_alg».proof.Proof.CommonKB
import proofs.«203918_g8735963480385_cont_9to1c4b_274_26_alg».proof.Proof.StorableKB
import proofs.«203918_g8735963480385_cont_9to1c4b_274_26_alg».proof.Proof.SplitKB
import proofs.«203918_g8735963480385_cont_9to1c4b_274_26_alg».proof.Proof.LaunchKB
import proofs.«203918_g8735963480385_cont_9to1c4b_274_26_alg».proof.Proof.MainKB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The program's run from the launch memory `m`, given one vector subcore's task proved. -/
theorem run_main [∀ e, Nonempty (Elt F e)] (m : (ℓ : Loc nD τ sig) → Buf (Elt F) ℓ) (ρ : Dev nD → PrngReg)
    (hobl : (K (F := F)).TileObl (D (F := F)) 𝒱 (P (arrays m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (arrays m)) facts v₀
    (fun q hq => match q with | 0 => nomatch hq)
    (fun q _ => match q with | 0 => hobl)
    (fun q _ => match q with | 0 => vecSplit (arrays m))
    m ρ main (fun _ => iprop(emp)) (FIN m) (u₀ (F := F)) (hu₀ (arrays m)) (hmain m ρ) (fq m) (hfin m) (QC m) (hQ m)

end Cert.Proof.KB

end
-- ==== Proof.BodyDefsKB.lean ====
/-
  The tile's body, cut at the subcore barrier. Before it: twenty 512-word pieces of the member list copied into the tile's
  list buffer (piece `t` of the buffer is positions `16384 t + 1024 s + 512 c + [0, 512)` of the flat list on tile `(c, s)`),
  and on tile 0 the table staged into the shared scratch. After it (`progB`, then `progC`): the gather of the table's rows
  named by the list, the loop that adds the twenty gathered vectors sixteen lanes at a time, and the write-out of the
  tile's 512 results.
-/
import proofs.«203918_g8735963480385_cont_9to1c4b_274_26_alg».proof.Proof.CommonKB
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.Kernel.main_v2_scv : Memref Cert.Kernel.sig Kind.scVector Space.hbm Cert.Kernel.S393216 EltTy.i32)
local notation "sfV" => (Memref.whole Cert.Kernel.main_v3_scv : Memref Cert.Kernel.sig Kind.scVector Space.hbm Cert.Kernel.S100000 EltTy.f32)
local notation "oV" => (Memref.whole Cert.Kernel.main_v4_scv : Memref Cert.Kernel.sig Kind.scVector Space.hbm Cert.Kernel.S16384 EltTy.f32)
local notation "shV" => (Memref.whole Cert.Kernel.cc0_scratch0 : Memref Cert.Kernel.sig Kind.scVector Space.shared Cert.Kernel.S100000 EltTy.f32)
local notation "lV" => (Memref.whole Cert.Kernel.cc0_scratch1 : Memref Cert.Kernel.sig Kind.scVector Space.vmem Cert.Kernel.S10240 EltTy.i32)
local notation "vV" => (Memref.whole Cert.Kernel.cc0_scratch2 : Memref Cert.Kernel.sig Kind.scVector Space.vmem Cert.Kernel.S10240 EltTy.f32)
local notation "rV" => (Memref.whole Cert.Kernel.cc0_scratch3 : Memref Cert.Kernel.sig Kind.scVector Space.vmem Cert.Kernel.S512 EltTy.f32)

variable (A : Arrays F) (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
abbrev thr (d : Dev nD) (L : grid0.Coords) : Thread nD τ := V d (cV L) (jV L)

abbrev cAcell (d : Dev nD) (c : Fin τ.nSC) (i : Fin τ.nSub) : GSem nD τ sig := (V d c i, .dma cc0_scratch4.sem)
abbrev cBcell (d : Dev nD) (c : Fin τ.nSC) (i : Fin τ.nSub) : GSem nD τ sig := (V d c i, .dma cc0_scratch5.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase (cDcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch4.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch5.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide, Finset.mem_erase.mpr ⟨by simp [cAcell, cDcell]; decide,
      (mem_ownCells (g := cDcell d (cV L) (jV L))).mpr ⟨rfl, by show (SemLoc.dma cc0_scoped1.sem : SemLoc sig).isScoped .scVector = true; decide⟩⟩⟩⟩)]

omit [FloatOps F] in
/-- The three tile buffers are among the subcore's own: they are they, at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f)
          ∗ (∃ f, (V d (cV L) (jV L)).loc cc0_scratch3 ↦{fullShare} f)
          ∗ bigSep ((((ownRefs (τ := τ) (.scVector (cV L) (jV L))).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch1) rfl),
    SparseCore.bigSep_erase' (Finset.mem_erase.mpr ⟨fun e => absurd (Proc.devRef_injective _ e) (show (cc0_scratch2 : Ref sig .scVector) ≠ cc0_scratch1 by decide),
      SparseCore.Cfg.mem_ownRefs_of_owner (p := Proc.scVector (cV L) (jV L)) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      SparseCore.Cfg.mem_ownRefs_of_owner (p := Proc.scVector (cV L) (jV L)) (b := (Proc.scVector (cV L) (jV L)).devRef cc0_scratch3) rfl⟩⟩)]

/-- The kernel after the barrier, up to the issue of the write-out: the text of the printed kernel from its
    `tpu.enqueue_indirect_dma` on. -/
abbrev progB (i : grid0.Coords) (arg2 : Memref sig .scVector .hbm S393216 .i32) (harg2 : arg2.IsWhole) (arg3 : Memref sig .scVector .hbm S100000 .f32) (harg3 : arg3.IsWhole) (arg4 : Memref sig .scVector .hbm S16384 .f32) (harg4 : arg4.IsWhole) (arg5 : Memref sig .scVector .shared S100000 .f32) (harg5 : arg5.IsWhole) (arg6 : Memref sig .scVector .vmem S10240 .i32) (harg6 : arg6.IsWhole) (arg7 : Memref sig .scVector .vmem S10240 .f32) (harg7 : arg7.IsWhole) (arg8 : Memref sig .scVector .vmem S512 .f32) (harg8 : arg8.IsWhole) (arg9 : DmaSems sig S_) (arg10 : DmaSems sig S_) (v190_r0 : DmaSems sig S_) (v190_r1 : DmaSems sig S_) :
    Prog (TpuEff nD τ sig (Elt F) Λ₀ (.scVector ((i 0).castLE hcore0) ((i 1).castLE hsub0))) (PUnit) := do
  let v186 : Memref sig .scVector .shared S100000 .f32 := arg5.slice (Rect.unit (s := S100000) ![0] S100000.size inb_S100000_S100000_0) (fun _ => rfl)
  SparseCore.enqueueIndirectGather rfl v186 arg7 gathers_S100000_S10240 arg6 rfl arg10.sem (View.wordExact_bits rfl) rfl (Or.inr rfl)
  let v187 : Memref sig .scVector .shared S100000 .f32 := arg5.slice (Rect.unit (s := S100000) ![0] S100000.size inb_S100000_S100000_0) (fun _ => rfl)
  SparseCore.waitIndirectGather arg10.sem v187 arg7 (View.wordExact_bits rfl) harg7.wordExact
  Scf.Loop.for k0_t1_loop k0_t1_ok ⟨⟩ (k0_t1_body i arg2 harg2 arg3 harg3 arg4 harg4 arg5 harg5 arg6 harg6 arg7 harg7 arg8 harg8 arg9 arg10 v190_r0 v190_r1)
  let v192_r1 : Memref sig .scVector .hbm S512 .f32 := arg4.slice (Rect.unit (s := S16384) (k0_off5 i) S512.size (k0_off5_inb i)) (fun _ => rfl)
  Prog.lift (.enqueueDma arg8 (.here v192_r1) (.dma v190_r1.sem) harg8.wordExact (View.wordExact_bits rfl) ⟨Or.inl rfl, trivial⟩)
  pure ⟨⟩

/-- The wait for the write-out. -/
abbrev progC (i : grid0.Coords) (arg2 : Memref sig .scVector .hbm S393216 .i32) (harg2 : arg2.IsWhole) (arg3 : Memref sig .scVector .hbm S100000 .f32) (harg3 : arg3.IsWhole) (arg4 : Memref sig .scVector .hbm S16384 .f32) (harg4 : arg4.IsWhole) (arg5 : Memref sig .scVector .shared S100000 .f32) (harg5 : arg5.IsWhole) (arg6 : Memref sig .scVector .vmem S10240 .i32) (harg6 : arg6.IsWhole) (arg7 : Memref sig .scVector .vmem S10240 .f32) (harg7 : arg7.IsWhole) (arg8 : Memref sig .scVector .vmem S512 .f32) (harg8 : arg8.IsWhole) (arg9 : DmaSems sig S_) (arg10 : DmaSems sig S_) (v190_r0 : DmaSems sig S_) (v190_r1 : DmaSems sig S_) (_b : PUnit) :
    Prog (TpuEff nD τ sig (Elt F) Λ₀ (.scVector ((i 0).castLE hcore0) ((i 1).castLE hsub0))) (PUnit) := do
  let v194_r1 : Memref sig .scVector .hbm S512 .f32 := arg4.slice (Rect.unit (s := S16384) (k0_off5 i) S512.size (k0_off5_inb i)) (fun _ => rfl)
  Prog.lift (.waitDma2 v190_r1.sem arg8 v194_r1 harg8.wordExact (View.wordExact_bits rfl))
  pure ⟨⟩

/-- Piece `t` of the member list as tile `L` copies it: 512 words of the flat list. -/
def listPay (t : Fin 20) : S512.Idx → Elt F .i32 :=
  ReadAs.same.apply (View.read (Elt F) ((tfV).slice (Rect.unit (s := S393216) (k0_off1 L (BitVec.ofNat 32 (16384 * t.val))) S512.size (k0_off1_inb L t)) (fun _ => rfl)).view (A.tf d))

/-- What tile `L` is handed of the shared scratch: tile 0 the scratch whole, the others nothing. -/
abbrev shGo (d : Dev nD) (L : grid0.Coords) : sProp 𝕄 := if (jL L).val = 0 then shAny (F := F) d (cV L) else iprop(emp)

/-- The tile's body, from what `go` hands it, its barrier kit and its scoped storage to what `taskDone` takes back. -/
def TileBody : Prop :=
  ∀ (d : Dev nD) (L : grid0.Coords) (_hF : (K (F := F)).Facts) (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit A d (cV L) (jV L)
        ∗ (tfPts A d (qt (cL L) (jL L)) ∗ sfPts A d (qt (cL L) (jL L)) ∗ oPts d (widOf (cL L) (jL L)) (A.o₀ d) ∗ shGo d L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__sc_kernel L tfV (Memref.isWhole_whole _) sfV (Memref.isWhole_whole _) oV (Memref.isWhole_whole _) shV (Memref.isWhole_whole _)
            lV (Memref.isWhole_whole _) vV (Memref.isWhole_whole _) rV (Memref.isWhole_whole _) cc0_scratch4 cc0_scratch5 cc0_scoped0 cc0_scoped1)
          fun _ => iprop((oDone A d (widOf (cL L) (jL L)) ∗ shBack A d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

/-- What the tile holds and owes after the barrier, and what the rest of its body leaves: the statement of the body's
    second half (`progB` then `progC`), in continuation form. `g` is the list buffer's contents: piece `t` of it is the
    tile's piece `t` of the flat member list. -/
def AfterBarrier : Prop :=
  ∀ (d : Dev nD) (L : grid0.Coords) (O : CellTallies nD τ sig (HIx 1)) (W : Waits sig (HIx 1)) (_hO : ∀ g, O g none = 0)
    (g : Buf (Elt F) ((lV).view.loc (V d (cV L) (jV L))))
    (_hg : ∀ (t : Fin 20) (j : Fin 512), g (ValueIdx.ix1 (⟨512 * t.val + j.val, by have := t.isLt; have := j.isLt; omega⟩ : Fin 10240))
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)))
    (fv : Buf (Elt F) ((vV).view.loc (V d (cV L) (jV L)))) (fr : Buf (Elt F) ((rV).view.loc (V d (cV L) (jV L))))
    (Ψ : PUnit → sProp 𝕄),
    iprop(Transfers.MayWaits (V d (cV L) (jV L)) (default : HIx 1) O
        ∗ ((lV).view.loc (V d (cV L) (jV L)) ↦{fullShare} g) ∗ ((vV).view.loc (V d (cV L) (jV L)) ↦{fullShare} fv)
        ∗ ((rV).view.loc (V d (cV L) (jV L)) ↦{fullShare} fr)
        ∗ ((shV).view.loc (V d (cV L) (jV L)) ↦{qs (jL L)} shTbl A d (cV L))
        ∗ oPts d (widOf (cL L) (jL L)) (A.o₀ d)
        ∗ semVal (cBcell d (cV L) (jV L)) 0 ∗ semVal (cDcell d (cV L) (jV L)) 0 ∗ owes (V d (cV L) (jV L)) O W
        ∗ (iprop(oDone A d (widOf (cL L) (jL L)) ∗ ((lV).view.loc (V d (cV L) (jV L)) ↦{fullShare} g)
              ∗ (∃ f, (vV).view.loc (V d (cV L) (jV L)) ↦{fullShare} f) ∗ (∃ f, (rV).view.loc (V d (cV L) (jV L)) ↦{fullShare} f)
              ∗ ((shV).view.loc (V d (cV L) (jV L)) ↦{qs (jL L)} shTbl A d (cV L))
              ∗ semVal (cBcell d (cV L) (jV L)) 0 ∗ semVal (cDcell d (cV L) (jV L)) 0
              ∗ ∃ W', ⌜∀ p ∈ W', p ∈ W ∨ p.2 = none⌝ ∗ owes (V d (cV L) (jV L)) O W')
            -∗ Ψ ⟨⟩))
      ⊢ wp frame (wpE (defs₀ (F := F)) 𝒱₀ (V d (cV L) (jV L)) none) Set.univ
          (progB (F := F) L tfV (Memref.isWhole_whole _) sfV (Memref.isWhole_whole _) oV (Memref.isWhole_whole _) shV (Memref.isWhole_whole _)
            lV (Memref.isWhole_whole _) vV (Memref.isWhole_whole _) rV (Memref.isWhole_whole _) cc0_scratch4 cc0_scratch5 cc0_scoped0 cc0_scoped1)
          fun b => wp frame (wpE (defs₀ (F := F)) 𝒱₀ (V d (cV L) (jV L)) none) Set.univ
            (progC (F := F) L tfV (Memref.isWhole_whole _) sfV (Memref.isWhole_whole _) oV (Memref.isWhole_whole _) shV (Memref.isWhole_whole _)
              lV (Memref.isWhole_whole _) vV (Memref.isWhole_whole _) rV (Memref.isWhole_whole _) cc0_scratch4 cc0_scratch5 cc0_scoped0 cc0_scoped1 b) Ψ

end Cert.Proof.KB

end
-- ==== Proof.OblKB.lean ====
/-
  From the tile's body at a symbolic place to the launch theorem's obligation. The launch theorem asks, for every
  device, every SparseCore `c` of the call's grid and every tile `i` of it, that the label the tile runs — read in the
  body table the launch extends — takes what the `go` handshake hands the tile, its barrier kit and its scoped
  storage to what `taskDone` takes back. The label's program is the printed kernel at the grid coordinates `(c, i)`
  (every tile of the device is in the grid, so the table's "inside the grid" test succeeds), lifted from the kernels'
  own table; and at `L = (c, i)` the body's statement is that obligation, the two spellings of the place — the grid
  coordinates of `L` against the call's core and tile numbers — agreeing by computation.
-/
import proofs.«203918_g8735963480385_cont_9to1c4b_274_26_alg».proof.Proof.BodyDefsKB
import proofs.«203918_g8735963480385_cont_9to1c4b_274_26_alg».proof.Proof.MainKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tfV" => (Memref.whole Cert.Kernel.main_v2_scv : Memref Cert.Kernel.sig Kind.scVector Space.hbm Cert.Kernel.S393216 EltTy.i32)
local notation "sfV" => (Memref.whole Cert.Kernel.main_v3_scv : Memref Cert.Kernel.sig Kind.scVector Space.hbm Cert.Kernel.S100000 EltTy.f32)
local notation "oV" => (Memref.whole Cert.Kernel.main_v4_scv : Memref Cert.Kernel.sig Kind.scVector Space.hbm Cert.Kernel.S16384 EltTy.f32)
local notation "shV" => (Memref.whole Cert.Kernel.cc0_scratch0 : Memref Cert.Kernel.sig Kind.scVector Space.shared Cert.Kernel.S100000 EltTy.f32)
local notation "lV" => (Memref.whole Cert.Kernel.cc0_scratch1 : Memref Cert.Kernel.sig Kind.scVector Space.vmem Cert.Kernel.S10240 EltTy.i32)
local notation "vV" => (Memref.whole Cert.Kernel.cc0_scratch2 : Memref Cert.Kernel.sig Kind.scVector Space.vmem Cert.Kernel.S10240 EltTy.f32)
local notation "rV" => (Memref.whole Cert.Kernel.cc0_scratch3 : Memref Cert.Kernel.sig Kind.scVector Space.vmem Cert.Kernel.S512 EltTy.f32)

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore's label is in the kernels' table: the printed kernel at the subcore's grid coordinates, on the
    whole arrays and its scratch. -/
theorem defs₀_vector (c : Fin τ.nSC) (s : Fin τ.nSub) :
    defs₀ (F := F) (.scVector c s) 0 ()
      = SparseCore.onTile hcore0 hsub0 (fun c s => cc0__sc_kernel (coordsV c s)
          tfV (Memref.isWhole_whole _) sfV (Memref.isWhole_whole _) oV (Memref.isWhole_whole _) shV (Memref.isWhole_whole _)
          lV (Memref.isWhole_whole _) vV (Memref.isWhole_whole _) rV (Memref.isWhole_whole _) cc0_scratch4 cc0_scratch5 cc0_scoped0 cc0_scoped1) ⟨⟩ c s := rfl

set_option maxRecDepth 16384 in
/-- The launch theorem's obligation for the one vector-subcore call, from the tile's body. -/
theorem tileObl (A : Arrays F) (hbody : TileBody A) : (K (F := F)).TileObl (D (F := F)) 𝒱 (P A) v₀ 0 := by
  intro d c i O W hO hOlev _
  have hci : ((K (F := F)).core 0 c).val < grid0.bound 0 ∧ ((K (F := F)).sub 0 i).val < grid0.bound 1 := ⟨c.isLt, i.isLt⟩
  rw [show (P A).ox 0 (V d ((K (F := F)).core 0 c) ((K (F := F)).sub 0 i)) = oxV d ((K (F := F)).core 0 c) from rfl,
    show (P A).x 0 (V d ((K (F := F)).core 0 c) ((K (F := F)).sub 0 i)) = bkit A d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) facts O W hO hOlev

/-- The same at the arrays of a launch memory. -/
theorem tileObl_of (m : (ℓ : Loc nD τ sig) → Buf (Elt F) ℓ) (hbody : TileBody (arrays m)) :
    (K (F := F)).TileObl (D (F := F)) 𝒱 (P (arrays m)) v₀ 0 := tileObl (arrays m) hbody

end Cert.Proof.KB

end
-- ==== Proof.ClaimsKB.lean ====
/-
  The certificate's claim about the kernel as printed, at the word-level float instance: its frame.

  The program's run ends, on every device, with the result array at the kernel's left-nested sums over the two flat
  arrays the host operations compute, read as [16384, 1, 1], and with the two arguments unchanged. The frame asks only
  that every weakly fair execution terminates with the arguments unchanged: the run with the value dropped. The run
  needs every word of the flat member list to name a row of the table; under the precondition a member's word does by
  the precondition's integer half, and a padding word is the word 0.
-/
import proofs.«203918_g8735963480385_cont_9to1c4b_274_26_alg».proof.Proof.CommonKB
import proofs.«203918_g8735963480385_cont_9to1c4b_274_26_alg».proof.Proof.MainKB
import proofs.«203918_g8735963480385_cont_9to1c4b_274_26_alg».proof.Proof.RunKB
import proofs.«203918_g8735963480385_cont_9to1c4b_274_26_alg».proof.Proof.OblKB
import proofs.«203918_g8735963480385_cont_9to1c4b_274_26_alg».proof.Proof.Gen.Pre_input_domain
import proofs.«203918_g8735963480385_cont_9to1c4b_274_26_alg».proof.Proof.PreRange
import proofs.«203918_g8735963480385_cont_9to1c4b_274_26_alg».proof.Proof.KernelValue

noncomputable section

namespace Cert.Proof.KBClaims

open Cert.Kernel Cert.Proof.KB
open Idealize.ShloMosaic Idealize.SL.Sem

/-- The host's flat member list in its two spellings. -/
theorem teamFlat_eq (team : IVec ⟨2, ![16384, 20]⟩ 32) : teamFlat team = Cert.TeamSkill.teamFlat team := rfl

/-- The kernel's frame: its run with the value dropped. -/
theorem frame_kb (hobl : ∀ m, Cert.Pre_Kernel m →
      (Cert.Proof.KB.K (F := Bits)).TileObl (Cert.Proof.KB.D (F := Bits)) Cert.Proof.KB.𝒱
        (Cert.Proof.KB.P (Cert.Proof.KB.arrays m)) Cert.Proof.KB.v₀ 0) :
    Cert.frame_Kernel := fun m ρ hpre =>
  (θ_run Cert.Kernel.defs _ _).mono (fun _ h c => (h c).2) (Cert.Proof.KB.run_main m ρ (hobl m hpre))

/-- Under the precondition every word of the flat member list names a row of the table. -/
theorem hin_kb (m : (ℓ : Loc nD τ sig) → Buf (Elt Bits) ℓ) (hpre : Cert.Pre_Kernel m) :
    ∀ (d : Dev nD) j, ((Cert.Proof.KB.arrays m).tf d j).toNat < 100000 := by
  intro d j
  show (teamFlat (m (a0Loc d)) j).toNat < 100000
  rw [teamFlat_eq]
  exact Cert.TeamSkill.teamFlat_inRange _ (Cert.TeamSkill.inRange_of_pre _ _ (hpre d)) j

/-- The kernel's frame, from the tile's body at the arrays of each launch memory that meets the precondition. -/
theorem frame_kb' (hbody : ∀ m, Cert.Pre_Kernel m → Cert.Proof.KB.TileBody (F := Bits) (Cert.Proof.KB.arrays m)) :
    Cert.frame_Kernel :=
  frame_kb fun m hpre => tileObl_of m (hbody m hpre)

end Cert.Proof.KBClaims

end
-- ==== Proof.ListKI.lean ====
/-
  The tile's list buffer after its twenty copies. Copy `t` writes 512 words through the window `[512 t, 512 t + 512)` of
  the buffer; the windows are pairwise disjoint and tile the buffer. So (i) on window `k` the contents after copies
  `0 … k` already are the final contents, every later copy going through a window disjoint from it — which lets the four
  windows held apart and the rest, all at the final contents, be joined into the whole buffer —, and (ii) the final
  contents at position `512 t + j` are copy `t`'s payload at `j`. The payloads are arbitrary here; the kernel's payload
  `t` at `j` is word `16384 t + 1024 s + 512 c + j` of the flat member list on tile `(c, s)`.
-/
import proofs.«203918_g8735963480385_cont_9to1c4b_274_26_alg».proof.Proof.BodyDefsKI
import Idealize.ShloMosaic.Lib.WritesUnit
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.KernelIdeal.main_v2_scv : Memref Cert.KernelIdeal.sig Kind.scVector Space.hbm Cert.KernelIdeal.S393216 EltTy.i32)
local notation "sfV" => (Memref.whole Cert.KernelIdeal.main_v3_scv : Memref Cert.KernelIdeal.sig Kind.scVector Space.hbm Cert.KernelIdeal.S100000 EltTy.f32)
local notation "oV" => (Memref.whole Cert.KernelIdeal.main_v4_scv : Memref Cert.KernelIdeal.sig Kind.scVector Space.hbm Cert.KernelIdeal.S16384 EltTy.f32)
local notation "shV" => (Memref.whole Cert.KernelIdeal.cc0_scratch0 : Memref Cert.KernelIdeal.sig Kind.scVector Space.shared Cert.KernelIdeal.S100000 EltTy.f32)
local notation "lV" => (Memref.whole Cert.KernelIdeal.cc0_scratch1 : Memref Cert.KernelIdeal.sig Kind.scVector Space.vmem Cert.KernelIdeal.S10240 EltTy.i32)
local notation "vV" => (Memref.whole Cert.KernelIdeal.cc0_scratch2 : Memref Cert.KernelIdeal.sig Kind.scVector Space.vmem Cert.KernelIdeal.S10240 EltTy.f32)
local notation "rV" => (Memref.whole Cert.KernelIdeal.cc0_scratch3 : Memref Cert.KernelIdeal.sig Kind.scVector Space.vmem Cert.KernelIdeal.S512 EltTy.f32)

/-! ## Writes through windows disjoint from a set leave the set as it was -/

section Generic
variable {sig' : RefSig} {κ : Kind} {sp : Space} {s : Shape} {e : EltTy} {Val : EltTy → Type}

omit [FloatOps F] in
/-- A list of writes, each through a window disjoint from `I`, put in front of another list changes nothing on `I`. -/
theorem writes_append_eq_on (v : View sig' κ sp s e) (f : v.ty.Contents Val) (I : Finset v.ty.Idx)
    (L₂ : List (View.Piece Val s e)) :
    ∀ L₁ : List (View.Piece Val s e), (∀ p ∈ L₁, Disjoint I (v.slice p.1).set) →
      ∀ i ∈ I, v.writes Val f (L₁ ++ L₂) i = v.writes Val f L₂ i
  | [], _, _, _ => rfl
  | p :: L₁, h, i, hi => by
    rw [List.cons_append, View.writes_cons,
      View.write_of_not_mem _ _ Finset.univ (fun hm =>
        Finset.disjoint_left.mp (h p List.mem_cons_self) hi (by rwa [View.setOn_univ] at hm))]
    exact writes_append_eq_on v f I L₂ L₁ (fun p' hp' => h p' (List.mem_cons_of_mem _ hp')) i hi

omit [FloatOps F] in
/-- Two rectangles of a whole buffer with no common index have no common element. -/
theorem whole_slice_disjoint (b : Ref sig' κ) (r r' : Rect b.ty.shape) (h : Disjoint r.set r'.set) :
    Disjoint (α := Finset (View.whole b).ty.Idx) ((View.whole b).slice r).set ((View.whole b).slice r').set := by
  rw [View.set_slice_whole, View.set_slice_whole]
  exact h

end Generic

/-! ## The windows -/

omit [FloatOps F] in
/-- Two 512-word windows of the list buffer that do not overlap as intervals share no element. -/
theorem win_disjoint {a b : ℕ} (hab : a + 512 ≤ b ∨ b + 512 ≤ a)
    (ha : ∀ x, (![a] : Fin 1 → ℕ) x + S512.size x ≤ S10240.size x)
    (hb : ∀ x, (![b] : Fin 1 → ℕ) x + S512.size x ≤ S10240.size x) :
    Disjoint (α := Finset (lV).view.ty.Idx) ((lV).view.slice (Rect.unit (s := S10240) ![a] S512.size ha)).set
      ((lV).view.slice (Rect.unit (s := S10240) ![b] S512.size hb)).set :=
  whole_slice_disjoint (cc0_scratch1 : Ref sig .scVector) _ _ (Rect.unit_disjoint (0 : Fin 1) hab)

/-- The first four windows, as the sets of the list buffer's elements under them. -/
abbrev win0 : Finset (lV).view.ty.Idx := ((lV).slice (Rect.unit (s := S10240) ![0] S512.size inb_S10240_S512_0) (fun _ => rfl)).view.set
abbrev win1 : Finset (lV).view.ty.Idx := ((lV).slice (Rect.unit (s := S10240) ![512] S512.size inb_S10240_S512_512) (fun _ => rfl)).view.set
abbrev win2 : Finset (lV).view.ty.Idx := ((lV).slice (Rect.unit (s := S10240) ![1024] S512.size inb_S10240_S512_1024) (fun _ => rfl)).view.set
abbrev win3 : Finset (lV).view.ty.Idx := ((lV).slice (Rect.unit (s := S10240) ![1536] S512.size inb_S10240_S512_1536) (fun _ => rfl)).view.set

/-! ## The twenty pieces: copy `t`'s window with a payload `q` -/

section Pieces
variable (q : S512.Idx → Elt F .i32)

abbrev pc0 : View.Piece (Elt F) S10240 .i32 := ⟨Rect.unit (s := S10240) ![0] S512.size inb_S10240_S512_0, q⟩
abbrev pc1 : View.Piece (Elt F) S10240 .i32 := ⟨Rect.unit (s := S10240) ![512] S512.size inb_S10240_S512_512, q⟩
abbrev pc2 : View.Piece (Elt F) S10240 .i32 := ⟨Rect.unit (s := S10240) ![1024] S512.size inb_S10240_S512_1024, q⟩
abbrev pc3 : View.Piece (Elt F) S10240 .i32 := ⟨Rect.unit (s := S10240) ![1536] S512.size inb_S10240_S512_1536, q⟩
abbrev pc4 : View.Piece (Elt F) S10240 .i32 := ⟨Rect.unit (s := S10240) ![2048] S512.size inb_S10240_S512_2048, q⟩
abbrev pc5 : View.Piece (Elt F) S10240 .i32 := ⟨Rect.unit (s := S10240) ![2560] S512.size inb_S10240_S512_2560, q⟩
abbrev pc6 : View.Piece (Elt F) S10240 .i32 := ⟨Rect.unit (s := S10240) ![3072] S512.size inb_S10240_S512_3072, q⟩
abbrev pc7 : View.Piece (Elt F) S10240 .i32 := ⟨Rect.unit (s := S10240) ![3584] S512.size inb_S10240_S512_3584, q⟩
abbrev pc8 : View.Piece (Elt F) S10240 .i32 := ⟨Rect.unit (s := S10240) ![4096] S512.size inb_S10240_S512_4096, q⟩
abbrev pc9 : View.Piece (Elt F) S10240 .i32 := ⟨Rect.unit (s := S10240) ![4608] S512.size inb_S10240_S512_4608, q⟩
abbrev pc10 : View.Piece (Elt F) S10240 .i32 := ⟨Rect.unit (s := S10240) ![5120] S512.size inb_S10240_S512_5120, q⟩
abbrev pc11 : View.Piece (Elt F) S10240 .i32 := ⟨Rect.unit (s := S10240) ![5632] S512.size inb_S10240_S512_5632, q⟩
abbrev pc12 : View.Piece (Elt F) S10240 .i32 := ⟨Rect.unit (s := S10240) ![6144] S512.size inb_S10240_S512_6144, q⟩
abbrev pc13 : View.Piece (Elt F) S10240 .i32 := ⟨Rect.unit (s := S10240) ![6656] S512.size inb_S10240_S512_6656, q⟩
abbrev pc14 : View.Piece (Elt F) S10240 .i32 := ⟨Rect.unit (s := S10240) ![7168] S512.size inb_S10240_S512_7168, q⟩
abbrev pc15 : View.Piece (Elt F) S10240 .i32 := ⟨Rect.unit (s := S10240) ![7680] S512.size inb_S10240_S512_7680, q⟩
abbrev pc16 : View.Piece (Elt F) S10240 .i32 := ⟨Rect.unit (s := S10240) ![8192] S512.size inb_S10240_S512_8192, q⟩
abbrev pc17 : View.Piece (Elt F) S10240 .i32 := ⟨Rect.unit (s := S10240) ![8704] S512.size inb_S10240_S512_8704, q⟩
abbrev pc18 : View.Piece (Elt F) S10240 .i32 := ⟨Rect.unit (s := S10240) ![9216] S512.size inb_S10240_S512_9216, q⟩
abbrev pc19 : View.Piece (Elt F) S10240 .i32 := ⟨Rect.unit (s := S10240) ![9728] S512.size inb_S10240_S512_9728, q⟩

end Pieces

/-! ## The final contents, for any twenty payloads -/

section Join
variable (d : Dev nD) (L : grid0.Coords) (fl : Buf (Elt F) ((lV).view.loc (V d (cV L) (jV L))))
variable (p0 p1 p2 p3 p4 p5 p6 p7 p8 p9 p10 p11 p12 p13 p14 p15 p16 p17 p18 p19 : S512.Idx → Elt F .i32)

/-- The list buffer after the twenty copies over contents `fl`: the twenty pieces written, the last copy first. -/
def listFinalOf : Buf (Elt F) ((lV).view.loc (V d (cV L) (jV L))) :=
  (lV).view.writes (Elt F) fl
    [pc19 p19, pc18 p18, pc17 p17, pc16 p16, pc15 p15, pc14 p14, pc13 p13, pc12 p12, pc11 p11, pc10 p10,
      pc9 p9, pc8 p8, pc7 p7, pc6 p6, pc5 p5, pc4 p4, pc3 p3, pc2 p2, pc1 p1, pc0 p0]

/-- On window 0 the contents after copy 0 are the final ones. -/
theorem listFinalOf_eq_on0 :
    ∀ i ∈ win0, (lV).view.writes (Elt F) fl [pc0 p0] i = listFinalOf d L fl p0 p1 p2 p3 p4 p5 p6 p7 p8 p9 p10 p11 p12 p13 p14 p15 p16 p17 p18 p19 i := fun i hi =>
  (writes_append_eq_on (lV).view fl win0 [pc0 p0]
    [pc19 p19, pc18 p18, pc17 p17, pc16 p16, pc15 p15, pc14 p14, pc13 p13, pc12 p12, pc11 p11, pc10 p10,
      pc9 p9, pc8 p8, pc7 p7, pc6 p6, pc5 p5, pc4 p4, pc3 p3, pc2 p2, pc1 p1]
    (by repeat (first | exact (fun _ h => absurd h List.not_mem_nil) | (refine List.forall_mem_cons.mpr ⟨win_disjoint ?_ ?_ ?_, ?_⟩; decide; decide; decide)))
    i hi).symm

/-- On window 1 the contents after copies 0 and 1 are the final ones. -/
theorem listFinalOf_eq_on1 :
    ∀ i ∈ win1, (lV).view.writes (Elt F) fl [pc1 p1, pc0 p0] i = listFinalOf d L fl p0 p1 p2 p3 p4 p5 p6 p7 p8 p9 p10 p11 p12 p13 p14 p15 p16 p17 p18 p19 i := fun i hi =>
  (writes_append_eq_on (lV).view fl win1 [pc1 p1, pc0 p0]
    [pc19 p19, pc18 p18, pc17 p17, pc16 p16, pc15 p15, pc14 p14, pc13 p13, pc12 p12, pc11 p11, pc10 p10,
      pc9 p9, pc8 p8, pc7 p7, pc6 p6, pc5 p5, pc4 p4, pc3 p3, pc2 p2]
    (by repeat (first | exact (fun _ h => absurd h List.not_mem_nil) | (refine List.forall_mem_cons.mpr ⟨win_disjoint ?_ ?_ ?_, ?_⟩; decide; decide; decide)))
    i hi).symm

/-- On window 2 the contents after copies 0 … 2 are the final ones. -/
theorem listFinalOf_eq_on2 :
    ∀ i ∈ win2, (lV).view.writes (Elt F) fl [pc2 p2, pc1 p1, pc0 p0] i = listFinalOf d L fl p0 p1 p2 p3 p4 p5 p6 p7 p8 p9 p10 p11 p12 p13 p14 p15 p16 p17 p18 p19 i := fun i hi =>
  (writes_append_eq_on (lV).view fl win2 [pc2 p2, pc1 p1, pc0 p0]
    [pc19 p19, pc18 p18, pc17 p17, pc16 p16, pc15 p15, pc14 p14, pc13 p13, pc12 p12, pc11 p11, pc10 p10,
      pc9 p9, pc8 p8, pc7 p7, pc6 p6, pc5 p5, pc4 p4, pc3 p3]
    (by repeat (first | exact (fun _ h => absurd h List.not_mem_nil) | (refine List.forall_mem_cons.mpr ⟨win_disjoint ?_ ?_ ?_, ?_⟩; decide; decide; decide)))
    i hi).symm

/-- On window 3 the contents after copies 0 … 3 are the final ones. -/
theorem listFinalOf_eq_on3 :
    ∀ i ∈ win3, (lV).view.writes (Elt F) fl [pc3 p3, pc2 p2, pc1 p1, pc0 p0] i = listFinalOf d L fl p0 p1 p2 p3 p4 p5 p6 p7 p8 p9 p10 p11 p12 p13 p14 p15 p16 p17 p18 p19 i := fun i hi =>
  (writes_append_eq_on (lV).view fl win3 [pc3 p3, pc2 p2, pc1 p1, pc0 p0]
    [pc19 p19, pc18 p18, pc17 p17, pc16 p16, pc15 p15, pc14 p14, pc13 p13, pc12 p12, pc11 p11, pc10 p10,
      pc9 p9, pc8 p8, pc7 p7, pc6 p6, pc5 p5, pc4 p4]
    (by repeat (first | exact (fun _ h => absurd h List.not_mem_nil) | (refine List.forall_mem_cons.mpr ⟨win_disjoint ?_ ?_ ?_, ?_⟩; decide; decide; decide)))
    i hi).symm

/-- Windows 0 … 3, each at the contents written when its copy was issued, and the rest of the buffer at the final
    contents, are the whole buffer at the final contents. -/
theorem list_join :
    iprop(((lV).view.loc (V d (cV L) (jV L)) ↦[win0]{fullShare} (lV).view.writes (Elt F) fl [pc0 p0])
        ∗ ((lV).view.loc (V d (cV L) (jV L)) ↦[win1]{fullShare} (lV).view.writes (Elt F) fl [pc1 p1, pc0 p0])
        ∗ ((lV).view.loc (V d (cV L) (jV L)) ↦[win2]{fullShare} (lV).view.writes (Elt F) fl [pc2 p2, pc1 p1, pc0 p0])
        ∗ ((lV).view.loc (V d (cV L) (jV L)) ↦[win3]{fullShare} (lV).view.writes (Elt F) fl [pc3 p3, pc2 p2, pc1 p1, pc0 p0])
        ∗ ((lV).view.loc (V d (cV L) (jV L)) ↦[(((Finset.univ \ win0) \ win1) \ win2) \ win3]{fullShare}
            (lV).view.writes (Elt F) fl
              [pc19 p19, pc18 p18, pc17 p17, pc16 p16, pc15 p15, pc14 p14, pc13 p13, pc12 p12, pc11 p11, pc10 p10,
                pc9 p9, pc8 p8, pc7 p7, pc6 p6, pc5 p5, pc4 p4, pc3 p3, pc2 p2, pc1 p1, pc0 p0]))
      ⊢ ((lV).view.loc (V d (cV L) (jV L)) ↦{fullShare} listFinalOf d L fl p0 p1 p2 p3 p4 p5 p6 p7 p8 p9 p10 p11 p12 p13 p14 p15 p16 p17 p18 p19 : sProp 𝕄) := by
  have e0 : ((lV).view.loc (V d (cV L) (jV L)) ↦[win0]{fullShare} (lV).view.writes (Elt F) fl [pc0 p0] : sProp 𝕄)
      = ((lV).view.loc (V d (cV L) (jV L)) ↦[win0]{fullShare} listFinalOf d L fl p0 p1 p2 p3 p4 p5 p6 p7 p8 p9 p10 p11 p12 p13 p14 p15 p16 p17 p18 p19) :=
    pointsTo_congr (listFinalOf_eq_on0 d L fl p0 p1 p2 p3 p4 p5 p6 p7 p8 p9 p10 p11 p12 p13 p14 p15 p16 p17 p18 p19)
  have e1 : ((lV).view.loc (V d (cV L) (jV L)) ↦[win1]{fullShare} (lV).view.writes (Elt F) fl [pc1 p1, pc0 p0] : sProp 𝕄)
      = ((lV).view.loc (V d (cV L) (jV L)) ↦[win1]{fullShare} listFinalOf d L fl p0 p1 p2 p3 p4 p5 p6 p7 p8 p9 p10 p11 p12 p13 p14 p15 p16 p17 p18 p19) :=
    pointsTo_congr (listFinalOf_eq_on1 d L fl p0 p1 p2 p3 p4 p5 p6 p7 p8 p9 p10 p11 p12 p13 p14 p15 p16 p17 p18 p19)
  have e2 : ((lV).view.loc (V d (cV L) (jV L)) ↦[win2]{fullShare} (lV).view.writes (Elt F) fl [pc2 p2, pc1 p1, pc0 p0] : sProp 𝕄)
      = ((lV).view.loc (V d (cV L) (jV L)) ↦[win2]{fullShare} listFinalOf d L fl p0 p1 p2 p3 p4 p5 p6 p7 p8 p9 p10 p11 p12 p13 p14 p15 p16 p17 p18 p19) :=
    pointsTo_congr (listFinalOf_eq_on2 d L fl p0 p1 p2 p3 p4 p5 p6 p7 p8 p9 p10 p11 p12 p13 p14 p15 p16 p17 p18 p19)
  have e3 : ((lV).view.loc (V d (cV L) (jV L)) ↦[win3]{fullShare} (lV).view.writes (Elt F) fl [pc3 p3, pc2 p2, pc1 p1, pc0 p0] : sProp 𝕄)
      = ((lV).view.loc (V d (cV L) (jV L)) ↦[win3]{fullShare} listFinalOf d L fl p0 p1 p2 p3 p4 p5 p6 p7 p8 p9 p10 p11 p12 p13 p14 p15 p16 p17 p18 p19) :=
    pointsTo_congr (listFinalOf_eq_on3 d L fl p0 p1 p2 p3 p4 p5 p6 p7 p8 p9 p10 p11 p12 p13 p14 p15 p16 p17 p18 p19)
  rw [e0, e1, e2, e3]
  have h3 : win3 ⊆ ((Finset.univ \ win0) \ win1) \ win2 :=
    Finset.subset_sdiff.mpr ⟨Finset.subset_sdiff.mpr ⟨Finset.subset_sdiff.mpr ⟨Finset.subset_univ _,
      win_disjoint (by decide) _ _⟩, win_disjoint (by decide) _ _⟩, win_disjoint (by decide) _ _⟩
  have h2 : win2 ⊆ (Finset.univ \ win0) \ win1 :=
    Finset.subset_sdiff.mpr ⟨Finset.subset_sdiff.mpr ⟨Finset.subset_univ _, win_disjoint (by decide) _ _⟩, win_disjoint (by decide) _ _⟩
  have h1 : win1 ⊆ Finset.univ \ win0 := Finset.subset_sdiff.mpr ⟨Finset.subset_univ _, win_disjoint (by decide) _ _⟩
  refine (sep_mono_right (sep_mono_right (sep_mono_right
    (pointsTo_split_subset (q := fullShare) (f := listFinalOf d L fl p0 p1 p2 p3 p4 p5 p6 p7 p8 p9 p10 p11 p12 p13 p14 p15 p16 p17 p18 p19) h3).2))).trans ?_
  refine (sep_mono_right (sep_mono_right
    (pointsTo_split_subset (q := fullShare) (f := listFinalOf d L fl p0 p1 p2 p3 p4 p5 p6 p7 p8 p9 p10 p11 p12 p13 p14 p15 p16 p17 p18 p19) h2).2)).trans ?_
  refine (sep_mono_right (pointsTo_split_subset (q := fullShare) (f := listFinalOf d L fl p0 p1 p2 p3 p4 p5 p6 p7 p8 p9 p10 p11 p12 p13 p14 p15 p16 p17 p18 p19) h1).2).trans ?_
  exact (pointsTo_split_subset (q := fullShare) (f := listFinalOf d L fl p0 p1 p2 p3 p4 p5 p6 p7 p8 p9 p10 p11 p12 p13 p14 p15 p16 p17 p18 p19) (Finset.subset_univ win0)).2

/-- The twenty payloads as a family over the copies. -/
abbrev payOf : Fin 20 → S512.Idx → Elt F .i32 :=
  ![p0, p1, p2, p3, p4, p5, p6, p7, p8, p9, p10, p11, p12, p13, p14, p15, p16, p17, p18, p19]

/-- Position `512 t + j` of the list buffer holds copy `t`'s payload at `j`. -/
theorem listFinalOf_apply (t : Fin 20) (j : Fin 512) :
    listFinalOf d L fl p0 p1 p2 p3 p4 p5 p6 p7 p8 p9 p10 p11 p12 p13 p14 p15 p16 p17 p18 p19
        (ValueIdx.ix1 (⟨512 * t.val + j.val, by have := t.isLt; have := j.isLt; omega⟩ : Fin 10240))
      = payOf p0 p1 p2 p3 p4 p5 p6 p7 p8 p9 p10 p11 p12 p13 p14 p15 p16 p17 p18 p19 t (ValueIdx.ix1 j) :=
  View.read_tilePieces (lV).view fl S512.size (fun (i : Fin 20) => (![512 * i.val] : Fin 1 → ℕ))
    (fun i a => by
      have := i.isLt
      match a with
      | ⟨0, _⟩ => show 512 * i.val + 512 ≤ 10240; omega)
    (payOf p0 p1 p2 p3 p4 p5 p6 p7 p8 p9 p10 p11 p12 p13 p14 p15 p16 p17 p18 p19) 20 (Nat.le_refl 20)
    (ValueIdx.ix1 (⟨512 * t.val + j.val, by have := t.isLt; have := j.isLt; omega⟩ : Fin 10240)) t t.isLt
    (ValueIdx.ix1 j)
    (fun a => match a with | ⟨0, _⟩ => rfl) (0 : Fin 1)
    (fun i' hne => by
      have hv : i'.val ≠ t.val := fun h => hne (Fin.ext h)
      have := j.isLt
      show 512 * t.val + j.val < 512 * i'.val ∨ 512 * i'.val + 512 ≤ 512 * t.val + j.val
      omega)

end Join

/-! ## The kernel's payloads -/

variable (A : Arrays F) (d : Dev nD) (L : grid0.Coords)

/-- Copy `t`'s payload at `j` is word `16384 t + 1024 s + 512 c + j` of the flat member list. -/
theorem listPay_apply (t : Fin 20) (j : Fin 512) :
    listPay A d L t (ValueIdx.ix1 j)
      = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)) := by
  show A.tf d _ = A.tf d _
  refine congrArg (A.tf d) (funext fun a => Fin.ext ?_)
  match a with
  | ⟨0, _⟩ =>
    show k0_off1 L (BitVec.ofNat 32 (16384 * t.val)) 0 + 1 * j.val = 16384 * t.val + 1024 * (L 1).val + 512 * (L 0).val + j.val
    rw [k0_off1_eq L t]
    show 16384 * t.val + 1024 * (L 1).val + 512 * (L 0).val + 1 * j.val = _
    omega

/-- The four windows and the rest joined, with what the joined buffer holds: for payloads that are the flat list's
    pieces, position `512 t + j` holds word `16384 t + 1024 s + 512 c + j` of the flat member list. -/
theorem list_joined (fl : Buf (Elt F) ((lV).view.loc (V d (cV L) (jV L)))) (p0 p1 p2 p3 p4 p5 p6 p7 p8 p9 p10 p11 p12 p13 p14 p15 p16 p17 p18 p19 : S512.Idx → Elt F .i32)
    (hp : ∀ (t : Fin 20) (j : Fin 512), payOf p0 p1 p2 p3 p4 p5 p6 p7 p8 p9 p10 p11 p12 p13 p14 p15 p16 p17 p18 p19 t (ValueIdx.ix1 j)
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216))) :
    iprop(((lV).view.loc (V d (cV L) (jV L)) ↦[win0]{fullShare} (lV).view.writes (Elt F) fl [pc0 p0])
        ∗ ((lV).view.loc (V d (cV L) (jV L)) ↦[win1]{fullShare} (lV).view.writes (Elt F) fl [pc1 p1, pc0 p0])
        ∗ ((lV).view.loc (V d (cV L) (jV L)) ↦[win2]{fullShare} (lV).view.writes (Elt F) fl [pc2 p2, pc1 p1, pc0 p0])
        ∗ ((lV).view.loc (V d (cV L) (jV L)) ↦[win3]{fullShare} (lV).view.writes (Elt F) fl [pc3 p3, pc2 p2, pc1 p1, pc0 p0])
        ∗ ((lV).view.loc (V d (cV L) (jV L)) ↦[(((Finset.univ \ win0) \ win1) \ win2) \ win3]{fullShare}
            (lV).view.writes (Elt F) fl
              [pc19 p19, pc18 p18, pc17 p17, pc16 p16, pc15 p15, pc14 p14, pc13 p13, pc12 p12, pc11 p11, pc10 p10,
                pc9 p9, pc8 p8, pc7 p7, pc6 p6, pc5 p5, pc4 p4, pc3 p3, pc2 p2, pc1 p1, pc0 p0]))
      ⊢ (iprop(∃ g : Buf (Elt F) ((lV).view.loc (V d (cV L) (jV L))),
          ⌜∀ (t : Fin 20) (j : Fin 512), g (ValueIdx.ix1 (⟨512 * t.val + j.val, by have := t.isLt; have := j.isLt; omega⟩ : Fin 10240))
            = A.tf d (ValueIdx.ix1 (⟨16384 * t.val + 1024 * (L 1).val + 512 * (L 0).val + j.val, by
                have := t.isLt; have := j.isLt; have h1 : (L 1).val < 16 := (L 1).isLt; have h0 : (L 0).val < 2 := (L 0).isLt; omega⟩ : Fin 393216))⌝
          ∗ ((lV).view.loc (V d (cV L) (jV L)) ↦{fullShare} g)) : sProp 𝕄) := by
  refine (list_join d L fl p0 p1 p2 p3 p4 p5 p6 p7 p8 p9 p10 p11 p12 p13 p14 p15 p16 p17 p18 p19).trans ?_
  iintro H
  iexists listFinalOf d L fl p0 p1 p2 p3 p4 p5 p6 p7 p8 p9 p10 p11 p12 p13 p14 p15 p16 p17 p18 p19
  isplitr
  · ipureintro
    intro t j
    exact (listFinalOf_apply d L fl p0 p1 p2 p3 p4 p5 p6 p7 p8 p9 p10 p11 p12 p13 p14 p15 p16 p17 p18 p19 t j).trans (hp t j)
  · iexact H

end Cert.Proof.KI

end
-- ==== Proof.ListPayKI.lean ====
/-
  The joined list buffer for the kernel's own payloads. Copy `t` moves 512 words of the flat member list from offset
  `16384 t + 1024 s + 512 c` on tile `(c, s)`; so for payloads that ARE those pieces (twenty equations, one per copy) the
  joined buffer holds, at position `512 t + j`, word `16384 t + 1024 s + 512 c + j` of the flat member list.
-/
import proofs.«203918_g8735963480385_cont_9to1c4b_274_26_alg».proof.Proof.ListKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.KernelIdeal.main_v2_scv : Memref Cert.KernelIdeal.sig Kind.scVector Space.hbm Cert.KernelIdeal.S393216 EltTy.i32)
local notation "sfV" => (Memref.whole Cert.KernelIdeal.main_v3_scv : Memref Cert.KernelIdeal.sig Kind.scVector Space.hbm Cert.KernelIdeal.S100000 EltTy.f32)
local notation "oV" => (Memref.whole Cert.KernelIdeal.main_v4_scv : Memref Cert.KernelIdeal.sig Kind.scVector Space.hbm Cert.KernelIdeal.S16384 EltTy.f32)
local notation "shV" => (Memref.whole Cert.KernelIdeal.cc0_scratch0 : Memref Cert.KernelIdeal.sig Kind.scVector Space.shared Cert.KernelIdeal.S100000 EltTy.f32)
local notation "lV" => (Memref.whole Cert.KernelIdeal.cc0_scratch1 : Memref Cert.KernelIdeal.sig Kind.scVector Space.vmem Cert.KernelIdeal.S10240 EltTy.i32)
local notation "vV" => (Memref.whole Cert.KernelIdeal.cc0_scratch2 : Memref Cert.KernelIdeal.sig Kind.scVector Space.vmem Cert.KernelIdeal.S10240 EltTy.f32)
local notation "rV" => (Memref.whole Cert.KernelIdeal.cc0_scratch3 : Memref Cert.KernelIdeal.sig Kind.scVector Space.vmem Cert.KernelIdeal.S512 EltTy.f32)

variable (A : Arrays F) (d : Dev nD) (L : grid0.Coords)

/-- The kernel's twenty payloads, as a family over the copies, at a position. -/
theorem payOf_listPay_apply (t : Fin 20) (j : Fin 512) :
    payOf (listPay A d L 0) (listPay A d L 1) (listPay A d L 2) (listPay A d L 3) (listPay A d L 4) (listPay A d L 5)
        (listPay A d L 6) (listPay A d L 7) (listPay A d L 8) (listPay A d L 9) (listPay A d L 10) (listPay A d L 11)
        (listPay A d L 12) (listPay A d L 13) (listPay A d L 14) (listPay A d L 15) (listPay A d L 16) (listPay A d L 17)
        (listPay A d L 18) (listPay A d L 19) t (ValueIdx.ix1 j)
      = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)) :=
  match t with
  | ⟨0, _⟩ => listPay_apply A d L 0 j
  | ⟨1, _⟩ => listPay_apply A d L 1 j
  | ⟨2, _⟩ => listPay_apply A d L 2 j
  | ⟨3, _⟩ => listPay_apply A d L 3 j
  | ⟨4, _⟩ => listPay_apply A d L 4 j
  | ⟨5, _⟩ => listPay_apply A d L 5 j
  | ⟨6, _⟩ => listPay_apply A d L 6 j
  | ⟨7, _⟩ => listPay_apply A d L 7 j
  | ⟨8, _⟩ => listPay_apply A d L 8 j
  | ⟨9, _⟩ => listPay_apply A d L 9 j
  | ⟨10, _⟩ => listPay_apply A d L 10 j
  | ⟨11, _⟩ => listPay_apply A d L 11 j
  | ⟨12, _⟩ => listPay_apply A d L 12 j
  | ⟨13, _⟩ => listPay_apply A d L 13 j
  | ⟨14, _⟩ => listPay_apply A d L 14 j
  | ⟨15, _⟩ => listPay_apply A d L 15 j
  | ⟨16, _⟩ => listPay_apply A d L 16 j
  | ⟨17, _⟩ => listPay_apply A d L 17 j
  | ⟨18, _⟩ => listPay_apply A d L 18 j
  | ⟨19, _⟩ => listPay_apply A d L 19 j
  | ⟨n + 20, h⟩ => absurd h (by omega)

/-- The four windows and the rest joined, for payloads equal to the kernel's: the joined buffer holds the tile's twenty
    pieces of the flat member list. -/
theorem list_joined_of_eq (fl : Buf (Elt F) ((lV).view.loc (V d (cV L) (jV L))))
    (p0 p1 p2 p3 p4 p5 p6 p7 p8 p9 p10 p11 p12 p13 p14 p15 p16 p17 p18 p19 : S512.Idx → Elt F .i32)
    (h0 : p0 = listPay A d L 0) (h1 : p1 = listPay A d L 1) (h2 : p2 = listPay A d L 2) (h3 : p3 = listPay A d L 3)
    (h4 : p4 = listPay A d L 4) (h5 : p5 = listPay A d L 5) (h6 : p6 = listPay A d L 6) (h7 : p7 = listPay A d L 7)
    (h8 : p8 = listPay A d L 8) (h9 : p9 = listPay A d L 9) (h10 : p10 = listPay A d L 10) (h11 : p11 = listPay A d L 11)
    (h12 : p12 = listPay A d L 12) (h13 : p13 = listPay A d L 13) (h14 : p14 = listPay A d L 14) (h15 : p15 = listPay A d L 15)
    (h16 : p16 = listPay A d L 16) (h17 : p17 = listPay A d L 17) (h18 : p18 = listPay A d L 18) (h19 : p19 = listPay A d L 19) :
    iprop(((lV).view.loc (V d (cV L) (jV L)) ↦[win0]{fullShare} (lV).view.writes (Elt F) fl [pc0 p0])
        ∗ ((lV).view.loc (V d (cV L) (jV L)) ↦[win1]{fullShare} (lV).view.writes (Elt F) fl [pc1 p1, pc0 p0])
        ∗ ((lV).view.loc (V d (cV L) (jV L)) ↦[win2]{fullShare} (lV).view.writes (Elt F) fl [pc2 p2, pc1 p1, pc0 p0])
        ∗ ((lV).view.loc (V d (cV L) (jV L)) ↦[win3]{fullShare} (lV).view.writes (Elt F) fl [pc3 p3, pc2 p2, pc1 p1, pc0 p0])
        ∗ ((lV).view.loc (V d (cV L) (jV L)) ↦[(((Finset.univ \ win0) \ win1) \ win2) \ win3]{fullShare}
            (lV).view.writes (Elt F) fl
              [pc19 p19, pc18 p18, pc17 p17, pc16 p16, pc15 p15, pc14 p14, pc13 p13, pc12 p12, pc11 p11, pc10 p10,
                pc9 p9, pc8 p8, pc7 p7, pc6 p6, pc5 p5, pc4 p4, pc3 p3, pc2 p2, pc1 p1, pc0 p0]))
      ⊢ (iprop(∃ g : Buf (Elt F) ((lV).view.loc (V d (cV L) (jV L))),
          ⌜∀ (t : Fin 20) (j : Fin 512), g (ValueIdx.ix1 (⟨512 * t.val + j.val, by have := t.isLt; have := j.isLt; omega⟩ : Fin 10240))
            = A.tf d (ValueIdx.ix1 (⟨16384 * t.val + 1024 * (L 1).val + 512 * (L 0).val + j.val, by
                have := t.isLt; have := j.isLt; have h1 : (L 1).val < 16 := (L 1).isLt; have h0 : (L 0).val < 2 := (L 0).isLt; omega⟩ : Fin 393216))⌝
          ∗ ((lV).view.loc (V d (cV L) (jV L)) ↦{fullShare} g)) : sProp 𝕄) := by
  subst h0 h1 h2 h3 h4 h5 h6 h7 h8 h9 h10 h11 h12 h13 h14 h15 h16 h17 h18 h19
  exact list_joined A d L fl _ _ _ _ _ _ _ _ _ _ _ _ _ _ _ _ _ _ _ _ (payOf_listPay_apply A d L)

end Cert.Proof.KI

end
-- ==== Proof.BodyAKI.lean ====
/-
  The tile's body up to and across the subcore barrier, and its assembly with the second half.

  Every tile copies its twenty 512-word pieces of the flat member list into its list buffer: twenty transfers started on
  one cell before any is waited for, then twenty waits of one piece's units each — only the last wait knows every piece
  has landed, and then the list buffer's twenty windows are joined back into the buffer whole, piece `t` of it being
  positions `16384 t + 1024 s + 512 c + [0, 512)` of the flat list on tile `(c, s)`. Between the issues and the waits, tile 0
  of each SparseCore — the kernel compares its subcore number with 0 — copies the table into the SparseCore's shared
  scratch; the shared scratch is therefore held under the condition "this is tile 0", and the kernel's spelling of that
  condition is shown equivalent to ours. At the barrier tile 0 hands each tile's round a read token of the staged table and
  keeps the remainder of the share; every tile leaves the barrier with its own token. The second half of the body (the
  gather through the token, the sums, the write-out) is a hypothesis here, proved in its own module.
-/
import proofs.«203918_g8735963480385_cont_9to1c4b_274_26_alg».proof.Proof.BodyDefsKI
import proofs.«203918_g8735963480385_cont_9to1c4b_274_26_alg».proof.Proof.ListPayKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.KernelIdeal.main_v2_scv : Memref Cert.KernelIdeal.sig Kind.scVector Space.hbm Cert.KernelIdeal.S393216 EltTy.i32)
local notation "sfV" => (Memref.whole Cert.KernelIdeal.main_v3_scv : Memref Cert.KernelIdeal.sig Kind.scVector Space.hbm Cert.KernelIdeal.S100000 EltTy.f32)
local notation "oV" => (Memref.whole Cert.KernelIdeal.main_v4_scv : Memref Cert.KernelIdeal.sig Kind.scVector Space.hbm Cert.KernelIdeal.S16384 EltTy.f32)
local notation "shV" => (Memref.whole Cert.KernelIdeal.cc0_scratch0 : Memref Cert.KernelIdeal.sig Kind.scVector Space.shared Cert.KernelIdeal.S100000 EltTy.f32)
local notation "lV" => (Memref.whole Cert.KernelIdeal.cc0_scratch1 : Memref Cert.KernelIdeal.sig Kind.scVector Space.vmem Cert.KernelIdeal.S10240 EltTy.i32)
local notation "vV" => (Memref.whole Cert.KernelIdeal.cc0_scratch2 : Memref Cert.KernelIdeal.sig Kind.scVector Space.vmem Cert.KernelIdeal.S10240 EltTy.f32)
local notation "rV" => (Memref.whole Cert.KernelIdeal.cc0_scratch3 : Memref Cert.KernelIdeal.sig Kind.scVector Space.vmem Cert.KernelIdeal.S512 EltTy.f32)

variable (A : Arrays F) (d : Dev nD) (L : grid0.Coords)

omit [FloatOps F] in
/-- The staging condition as the kernel computes it is "this is tile 0". -/
theorem guard_iff : (jL L).val = 0 ↔ Scalar.cmpi .ne (Scalar.extui (Scalar.cmpi .eq (BitVec.ofNat 32 (L 1).val) 0#32)) 0#32 = 1#1 := by
  have h : ∀ x : Fin 16, x.val = 0 ↔ Scalar.cmpi .ne (Scalar.extui (Scalar.cmpi .eq (BitVec.ofNat 32 x.val) 0#32)) 0#32 = 1#1 := by decide
  exact h (L 1)
omit [FloatOps F] in
theorem guard_nz (hn : ¬ (jL L).val = 0) : ¬ Scalar.cmpi .ne (Scalar.extui (Scalar.cmpi .eq (BitVec.ofNat 32 (L 1).val) 0#32)) 0#32 = 1#1 :=
  fun h => hn ((guard_iff L).mpr h)
omit [FloatOps F] in
theorem guard_z (hz : (jL L).val = 0) : Scalar.cmpi .ne (Scalar.extui (Scalar.cmpi .eq (BitVec.ofNat 32 (L 1).val) 0#32)) 0#32 = 1#1 :=
  (guard_iff L).mp hz

include A in
/-- The shared scratch as tile `L` is handed it, its contents named: held under "this is tile 0". -/
theorem shGo_elim : (shGo (F := F) d L : sProp 𝕄) ⊢ iprop(∃ f : Buf (Elt F) (shLoc d (cV L)),
    Guarded ((jL L).val = 0) (fun _ => ((shV).view.loc (V d (cV L) (jV L)) ↦{fullShare} f : sProp 𝕄)) (fun _ => iprop(emp))) := by
  unfold shGo Guarded
  by_cases h : (jL L).val = 0
  · rw [if_pos h]
    iintro ⟨%f, H⟩
    iexists f
    rw [dif_pos h]
    iexact H
  · rw [if_neg h]
    iintro -
    iexists (shTbl A d (cV L))
    rw [dif_neg h]
    iempintro

/-! ## The staged table and the barrier's payloads -/

omit [FloatOps F] in
/-- What tile 0's staging copy leaves in the shared scratch is the table. -/
theorem staged_eq (fsh : Buf (Elt F) (shLoc d (cV L))) :
    View.write (Elt F) (shV).view fsh (ReadAs.same.apply (View.read (Elt F) (sfV).view (A.sf d))) Finset.univ = shTbl A d (cV L) := by
  rw [View.write_whole_univ]
  simp only [Memref.view_whole, View.read_whole]

/-- The staged scratch, held under the kernel's own spelling `C` of "this is tile 0" at the copied contents `pay`, is the
    table held under ours. -/
theorem staged_guard (fsh : Buf (Elt F) (shLoc d (cV L))) (C : Prop) [Decidable C] (hC : C ↔ (jL L).val = 0)
    (pay : S100000.Idx → Elt F .f32) (hpay : pay = ReadAs.same.apply (View.read (Elt F) (sfV).view (A.sf d))) :
    (Guarded C (fun _ => ((shV).view.loc (V d (cV L) (jV L)) ↦{fullShare} View.write (Elt F) (shV).view fsh pay Finset.univ : sProp 𝕄))
        (fun _ => iprop(emp)))
      ⊢ Guarded ((jL L).val = 0) (fun _ => (shLoc d (cV L) ↦{fullShare} shTbl A d (cV L) : sProp 𝕄)) (fun _ => iprop(emp)) := by
  subst hpay
  rw [Guarded.congr hC]
  refine Guarded.mono (fun h => ?_) (fun _ => BI.Entails.refl _)
  rw [staged_eq]
  exact BI.Entails.refl _

omit [FloatOps F] in
/-- Tile 0's duties hand over the sixteen read tokens of the table, one to each tile's round. -/
theorem pays_zero (hv : (jV L).val = 0) :
    (bigSep Finset.univ fun j : Fin (grid0.bound 1) => (bRd (F := F) A).payload (bcell d (cV L) (j.castLE hsub0)) 0 (jV L).val)
      = bigSep Finset.univ fun i : Fin 16 => (shLoc d (cV L) ↦{shareTok fullShare 16 i} shTbl A d (cV L) : sProp 𝕄) := by
  show (bigSep Finset.univ fun j : Fin 16 => bPay A (bcell d (cV L) (Fin.castLE hsub0 j)) (jV L).val) = _
  refine bigSep_congr fun j _ => ?_
  unfold bPay; dsimp only
  rw [if_pos hv]
  rfl
omit [FloatOps F] in
/-- The other tiles' duties hand over nothing. -/
theorem pays_nonzero (hv : ¬ (jV L).val = 0) :
    (bigSep Finset.univ fun j : Fin (grid0.bound 1) => (bRd (F := F) A).payload (bcell d (cV L) (j.castLE hsub0)) 0 (jV L).val)
      = (iprop(emp) : sProp 𝕄) := by
  rw [← bigSep_emp' (Finset.univ : Finset (Fin (grid0.bound 1)))]
  refine bigSep_congr fun j _ => ?_
  show bPay A (bcell d (cV L) (Fin.castLE hsub0 j)) (jV L).val = _
  unfold bPay; dsimp only
  rw [if_neg hv]

/-- Before the barrier: tile 0 splits the table into its sixteen read tokens, one for each tile's round, and keeps the
    remainder; the other tiles hand over nothing. -/
theorem pays_intro :
    (Guarded ((jL L).val = 0) (fun _ => (shLoc d (cV L) ↦{fullShare} shTbl A d (cV L) : sProp 𝕄)) (fun _ => iprop(emp)))
      ⊢ iprop((bigSep Finset.univ fun j : Fin (grid0.bound 1) => (bRd (F := F) A).payload (bcell d (cV L) (j.castLE hsub0)) 0 (jV L).val)
          ∗ (if (jL L).val = 0 then (shLoc d (cV L) ↦{qs₀} shTbl A d (cV L) : sProp 𝕄) else iprop(emp))) := by
  by_cases hz : (jL L).val = 0
  · rw [Guarded.pos hz, if_pos hz, pays_zero A d L hz]
    refine (Transfers.pointsTo_toks_split fullShare 16).trans ?_
    iintro ⟨Hr, Ht⟩
    isplitl [Ht]
    · iexact Ht
    · iexact Hr
  · rw [Guarded.neg hz, if_neg hz, pays_nonzero A d L hz]
    iintro -
    isplitl
    · iempintro
    · iempintro

omit [FloatOps F] in
/-- After the barrier: what a tile's own round collected holds its read token of the table (tile 0's duty). -/
theorem pays_elim : (bigSep ((bRd (F := F) A).duties (bcell d (cV L) (jV L)) 0 \ ∅) fun n => (bRd (F := F) A).payload (bcell d (cV L) (jV L)) 0 n)
    ⊢ (shTok A d (cV L) (jL L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay A (bcell d (cV L) (jV L)) 0 ⊢ _
  unfold bPay; dsimp only
  rw [if_pos rfl]; exact BI.Entails.refl _

set_option maxHeartbeats 4000000 in
/-- The tile's body: the twenty copies of its pieces of the member list as one recorded batch on one cell, the staging
    of the table under "this is tile 0", the waits; the list buffer's windows joined; the barrier, handing over the
    table's read tokens and receiving its own; then the second half. -/
theorem tile_body_of (hAB : AfterBarrier A) : TileBody A := by
  intro d L hF O W hO hOlev
  simp only [cc0__sc_kernel_eq_skeleton]; unfold cc0__sc_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Htf, Hsf, Ho, Hsh0⟩, ⟨⟨%fl, Hl⟩, ⟨%fv, Hv⟩, ⟨%fr, Hr⟩, Hbufs⟩, ⟨HsemA, HsemB, HsemC, HsemD, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Htf' := (Entails.of_eq (show (tfPts A d (qt (cL L) (jL L)) : sProp 𝕄) = ((tfV).view.loc (V d (cV L) (jV L)) ↦{qt (cL L) (jL L)} A.tf d) from rfl)) $$ Htf
  ihave Hsf' := (Entails.of_eq (show (sfPts A d (qt (cL L) (jL L)) : sProp 𝕄) = ((sfV).view.loc (V d (cV L) (jV L)) ↦{qt (cL L) (jL L)} A.sf d) from rfl)) $$ Hsf
  ihave Hsh1 := (shGo_elim A d L) $$ Hsh0
  icases Hsh1 with ⟨%fsh, Hsh'⟩
  ihave Hl' := (Entails.of_eq (show ((V d (cV L) (jV L)).loc cc0_scratch1 ↦{fullShare} fl : sProp 𝕄) = ((lV).view.loc (V d (cV L) (jV L)) ↦{fullShare} fl) from rfl)) $$ Hl
  ihave Hv' := (Entails.of_eq (show ((V d (cV L) (jV L)).loc cc0_scratch2 ↦{fullShare} fv : sProp 𝕄) = ((vV).view.loc (V d (cV L) (jV L)) ↦{fullShare} fv) from rfl)) $$ Hv
  ihave Hr' := (Entails.of_eq (show ((V d (cV L) (jV L)).loc cc0_scratch3 ↦{fullShare} fr : sProp 𝕄) = ((rV).view.loc (V d (cV L) (jV L)) ↦{fullShare} fr) from rfl)) $$ Hr
  have _plan : Transfers.BatchOf (V d (cV L) (jV L)) (SemLoc.dma (sig := sig) cc0_scratch4.sem) 20 (windows := true) := trivial
  -- the twenty copies, the staging under its guard, the twenty waits
  set_option sl_exec.guardIff true in
    sl_exec (disch := first | exact guard_iff L | exact (guard_iff L).symm)
  -- the table's read tokens for the barrier
  ihave Hg := (staged_guard A d L fsh (tile_body_of.sl.v105 L = 1#1) (guard_iff L).symm (tile_body_of.sl.dma0_1 A d) rfl) $$ if1
  ihave Hp := (pays_intro A d L) $$ Hg
  icases Hp with ⟨Hpays, Hrem⟩
  iapply (SparseCore.wp_subcoreBarrier 𝒱₀ none EB (bRd (F := F) A) d (sc := cV L) (i := jV L) sc_bar0 (grid0.bound 1) hsub0 (L 1) rfl κ (fun _ => 0) (jV L).val
      (fun j => bRd_mem₀ A d _ _ _) (fun _ => rfl) (bRd_expect A d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htok := (pays_elim A d L) $$ Hgot
  -- the list buffer whole again: piece t of it is the tile's piece t of the flat member list
  ihave Hlist := (list_joined_of_eq A d L fl (tile_body_of.sl.dma0 A d L) (tile_body_of.sl.dma1 A d L) (tile_body_of.sl.dma2 A d L) (tile_body_of.sl.dma3 A d L) (tile_body_of.sl.dma4 A d L) (tile_body_of.sl.dma5 A d L) (tile_body_of.sl.dma6 A d L) (tile_body_of.sl.dma7 A d L) (tile_body_of.sl.dma8 A d L) (tile_body_of.sl.dma9 A d L) (tile_body_of.sl.dma10 A d L) (tile_body_of.sl.dma11 A d L) (tile_body_of.sl.dma12 A d L) (tile_body_of.sl.dma13 A d L) (tile_body_of.sl.dma14 A d L) (tile_body_of.sl.dma15 A d L) (tile_body_of.sl.dma16 A d L) (tile_body_of.sl.dma17 A d L) (tile_body_of.sl.dma18 A d L) (tile_body_of.sl.dma19 A d L) rfl rfl rfl rfl rfl rfl rfl rfl rfl rfl rfl rfl rfl rfl rfl rfl rfl rfl rfl rfl) $$ [Hl'_5 Hl'_4 Hl'_3 Hl'_2 Hl']
  · isplitl [Hl'_5]; · iexact Hl'_5
    isplitl [Hl'_4]; · iexact Hl'_4
    isplitl [Hl'_3]; · iexact Hl'_3
    isplitl [Hl'_2]; · iexact Hl'_2
    iexact Hl'
  icases Hlist with ⟨%g, %hg, Hlist⟩
  -- the second half
  iapply (hAB d L O _ hO g hg fv fr _) $$ [Hlist Hv' Hr' Htok Ho HsemB HsemD HO Hrem Hbufs HsemA HsemC Hsems]
  isplitr; · iexact Hmw2
  isplitl [Hlist]; · iexact Hlist
  isplitl [Hv']; · iexact Hv'
  isplitl [Hr']; · iexact Hr'
  isplitl [Htok]; · iapply (Entails.of_eq (show (shTok A d (cV L) (jL L) : sProp 𝕄) = ((shV).view.loc (V d (cV L) (jV L)) ↦{qs (jL L)} shTbl A d (cV L)) from rfl)); iexact Htok
  isplitl [Ho]; · iexact Ho
  isplitl [HsemB]; · iexact HsemB
  isplitl [HsemD]; · iexact HsemD
  isplitl [HO]; · iexact HO
  iintro ⟨Hdone, Hl, ⟨%fv', Hv⟩, ⟨%fr', Hr⟩, Htok, HsemB, HsemD, %W', %hW', HO⟩
  isplitl [Hdone Htok Hrem]
  · isplitl [Hdone]; · iexact Hdone
    unfold shBack
    isplitl [Htok]; · iapply (Entails.of_eq (show ((shV).view.loc (V d (cV L) (jV L)) ↦{qs (jL L)} shTbl A d (cV L) : sProp 𝕄) = shTok A d (cV L) (jL L) from rfl)); iexact Htok
    iexact Hrem
  isplitl [Hl Hv Hr Hbufs]
  · isplitl [Hl]; · iexists _; iapply (Entails.of_eq (show ((lV).view.loc (V d (cV L) (jV L)) ↦{fullShare} g : sProp 𝕄) = ((V d (cV L) (jV L)).loc cc0_scratch1 ↦{fullShare} g) from rfl)); iexact Hl
    isplitl [Hv]; · iexists _; iapply (Entails.of_eq (show ((vV).view.loc (V d (cV L) (jV L)) ↦{fullShare} fv' : sProp 𝕄) = ((V d (cV L) (jV L)).loc cc0_scratch2 ↦{fullShare} fv') from rfl)); iexact Hv
    isplitl [Hr]; · iexists _; iapply (Entails.of_eq (show ((rV).view.loc (V d (cV L) (jV L)) ↦{fullShare} fr' : sProp 𝕄) = ((V d (cV L) (jV L)).loc cc0_scratch3 ↦{fullShare} fr') from rfl)); iexact Hr
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists W'; isplitr
  swap; · iexact HO
  ipureintro; intro p hp
  rcases hW' p hp with hp | hp
  swap; · exact .inr (.inl hp)
  rcases Finset.mem_insert.mp hp with hp | hp; · exact .inr (.inr (hp ▸ rfl))
  iterate 20 (rcases Finset.mem_insert.mp hp with hp | hp; · exact .inr (.inl (hp ▸ rfl)))
  unfold tile_body_of.sl.W0 at hp
  split at hp
  · rcases Finset.mem_insert.mp hp with hp | hp; · exact .inr (.inl (hp ▸ rfl))
    exact .inl hp
  · exact .inl hp

end Cert.Proof.KI

end
-- ==== Proof.BodyBPureKI.lean ====
/-
  The pure facts of the tile's body after the barrier: what the gathered vector, one trip's stored vector and the
  tile's result piece ARE, as equations between functions, apart from the memory operations that produce them.

  The list buffer's word `512 t + j` is member `t`'s word of team `512 (2 s + c) + j` on tile `(c, s)`; every word of the
  flat member list names a row of the table, so every word of the list buffer does. The gather writes, at every
  position of the values buffer, the table's row named by the list's word at that position. Trip `k` of the loop
  reads, for each member `t`, the sixteen values at `512 t + 16 k + [0, 16)`, adds the twenty vectors left to right,
  lane by lane, and stores the sum at `16 k + [0, 16)` of the result buffer: lane `l` of it is the left-nested sum of
  the twenty gathered values of team `512 (2 s + c) + 16 k + l`, which is the kernel's result for that team.
-/
import proofs.«203918_g8735963480385_cont_9to1c4b_274_26_alg».proof.Proof.BodyDefsKI
import Idealize.ShloMosaic.Lib.SparseCore.Stream
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay)

variable {F : FTy → Type} [FloatOps F]

local notation "tfV" => (Memref.whole Cert.KernelIdeal.main_v2_scv : Memref Cert.KernelIdeal.sig Kind.scVector Space.hbm Cert.KernelIdeal.S393216 EltTy.i32)
local notation "sfV" => (Memref.whole Cert.KernelIdeal.main_v3_scv : Memref Cert.KernelIdeal.sig Kind.scVector Space.hbm Cert.KernelIdeal.S100000 EltTy.f32)
local notation "oV" => (Memref.whole Cert.KernelIdeal.main_v4_scv : Memref Cert.KernelIdeal.sig Kind.scVector Space.hbm Cert.KernelIdeal.S16384 EltTy.f32)
local notation "shV" => (Memref.whole Cert.KernelIdeal.cc0_scratch0 : Memref Cert.KernelIdeal.sig Kind.scVector Space.shared Cert.KernelIdeal.S100000 EltTy.f32)
local notation "lV" => (Memref.whole Cert.KernelIdeal.cc0_scratch1 : Memref Cert.KernelIdeal.sig Kind.scVector Space.vmem Cert.KernelIdeal.S10240 EltTy.i32)
local notation "vV" => (Memref.whole Cert.KernelIdeal.cc0_scratch2 : Memref Cert.KernelIdeal.sig Kind.scVector Space.vmem Cert.KernelIdeal.S10240 EltTy.f32)
local notation "rV" => (Memref.whole Cert.KernelIdeal.cc0_scratch3 : Memref Cert.KernelIdeal.sig Kind.scVector Space.vmem Cert.KernelIdeal.S512 EltTy.f32)

/-! ## The two invariants' pure halves -/

open Idealize.ShloMosaic.ValueIdx in
/-- The values buffer holds, at every position, the table's row named by the list buffer's word there. -/
def VOK (A : Arrays F) (d : Dev nD) (L : grid0.Coords) (g : Buf (Elt F) ((lV).view.loc (V d (cV L) (jV L)))) (fvG : Buf (Elt F) ((vV).view.loc (V d (cV L) (jV L)))) : Prop :=
  ∀ x : Fin 10240, fvG (ix1 x) = Cert.TeamSkill.tblAt (A.sf d) (g (ix1 x))
open Idealize.ShloMosaic.ValueIdx in
/-- The result buffer holds the kernel's result at its first `16 k` positions: what `k` trips of the loop leave. -/
def ROK (A : Arrays F) (d : Dev nD) (L : grid0.Coords) (k : Nat) (f : Buf (Elt F) ((rV).view.loc (V d (cV L) (jV L)))) : Prop :=
  ∀ j : Fin 512, j.val < 16 * k → f (ix1 j) = Cert.TeamSkill.kOut (F := F) (A.tf d) (A.sf d) (ix1 (⟨512 * (2 * (L 1).val + (L 0).val) + j.val, by have h1 : (L 1).val < 16 := (L 1).isLt; have h0 : (L 0).val < 2 := (L 0).isLt; have := j.isLt; omega⟩ : Fin 16384))

/-! ## The list's words name rows of the table -/

/-- Every word of the list buffer is a word of the flat member list, hence below 100000. -/
theorem list_inb (A : Arrays F) (hin : ∀ (d : Dev nD) j, (A.tf d j).toNat < 100000) (d : Dev nD) (L : grid0.Coords)
    (g : Buf (Elt F) ((lV).view.loc (V d (cV L) (jV L))))
    (hg : ∀ (t : Fin 20) (j : Fin 512), g (ValueIdx.ix1 (⟨512 * t.val + j.val, by have := t.isLt; have := j.isLt; omega⟩ : Fin 10240))
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216))) :
    ∀ x, ((lV).view.read (Elt F) g x).toNat < S100000.size gathers_S100000_S10240.axis := by
  intro x
  show (g x).toNat < 100000
  have hx : (x 0).val < 10240 := (x 0).isLt
  obtain ⟨t, j, e⟩ : ∃ (t : Fin 20) (j : Fin 512), x = ValueIdx.ix1 (⟨512 * t.val + j.val, by have := t.isLt; have := j.isLt; omega⟩ : Fin 10240) := by
    refine ⟨⟨(x 0).val / 512, by omega⟩, ⟨(x 0).val % 512, Nat.mod_lt _ (by decide)⟩, ?_⟩
    funext a
    match a with
    | ⟨0, _⟩ => exact Fin.ext (by show (x 0).val = 512 * ((x 0).val / 512) + (x 0).val % 512; omega)
  rw [e, hg t j]
  exact hin d _

/-! ## One trip's sum, lane by lane -/

/-- The twenty vectors added left to right: at a lane where vector `t` holds the gathered value of member `t` of team
    `b`, the sum is the team's left-nested sum. -/
theorem pay_lane (tf : IVec ⟨1, ![393216]⟩ 32) (sf : FVec F ⟨1, ![100000]⟩ .f32) (b : Fin 16384) (v : Fin 20 → Vec F S16 .f32) (l : S16.Idx)
    (hv : ∀ t, v t l = Cert.TeamSkill.tblAt sf (Cert.TeamSkill.wordAt tf t b)) :
    k0_pay2 (k0_pay1 (v 0) (v 1) (v 2) (v 3) (v 4) (v 5) (v 6) (v 7) (v 8) (v 9) (v 10) (v 11)) (v 12) (v 13) (v 14) (v 15) (v 16) (v 17) (v 18) (v 19) l
      = Cert.TeamSkill.accTo tf sf b 19 (by decide) := by
  unfold k0_pay2 k0_pay1
  simp only [addf, hv]
  rfl

/-! ## The loop's trips -/

/-- The twenty vectors trip `k` loads from the values buffer: member `t`'s sixteen values at `512 t + 16 k`. -/
def ldV (d : Dev nD) (L : grid0.Coords) (fvG : Buf (Elt F) ((vV).view.loc (V d (cV L) (jV L)))) (k : Fin k0_t1_loop.trips) : Fin 20 → Vec F S16 .f32
  | ⟨0, _⟩ => View.readAt (Elt F) (vV).view (Rect.unit (s := S10240) (k0_off2 k) S16.size (k0_off2_inb k)).toLoadRect fvG
  | ⟨r + 1, h⟩ => View.readAt (Elt F) (vV).view (Rect.unit (s := S10240) (k0_off3 k (BitVec.ofNat 32 (512 + 512 * r))) S16.size (k0_off3_inb k ⟨r, by omega⟩)).toLoadRect fvG

omit [FloatOps F] in
/-- The loop runs thirty-two trips. -/
theorem trips_eq : k0_t1_loop.trips = 32 := by decide +kernel

/-- Before the first trip nothing is asked of the result buffer. -/
theorem rok_zero (A : Arrays F) (d : Dev nD) (L : grid0.Coords) (f : Buf (Elt F) ((rV).view.loc (V d (cV L) (jV L)))) : ROK A d L 0 f :=
  fun j hj => absurd hj (by omega)

omit [FloatOps F] in
/-- The values buffer and the result buffer, each read whole, read as their contents. -/
theorem read_vV (d : Dev nD) (L : grid0.Coords) (G : Buf (Elt F) ((vV).view.loc (V d (cV L) (jV L)))) (y : S10240.Idx) :
    (vV).view.read (Elt F) G y = G y := congrFun (View.read_whole cc0_scratch2 G) y
omit [FloatOps F] in
theorem read_rV (d : Dev nD) (L : grid0.Coords) (G : Buf (Elt F) ((rV).view.loc (V d (cV L) (jV L)))) (y : S512.Idx) :
    (rV).view.read (Elt F) G y = G y := congrFun (View.read_whole cc0_scratch3 G) y

omit [FloatOps F] in
theorem trip_lt (k : Fin k0_t1_loop.trips) : k.val < 32 := by
  exact lt_of_lt_of_eq k.isLt trips_eq

omit [FloatOps F] in
/-- A sixteen-lane load of the values buffer at offset `n` reads, at lane `l`, the buffer's element `n + l`. -/
theorem readAt_lane (d : Dev nD) (L : grid0.Coords) (fvG : Buf (Elt F) ((vV).view.loc (V d (cV L) (jV L)))) (off : Fin 1 → Nat)
    (inb : ∀ a, off a + S16.size a ≤ S10240.size a) (n : Nat) (hoff : off 0 = n) (l : Fin 16) :
    View.readAt (Elt F) (vV).view (Rect.unit (s := S10240) off S16.size inb).toLoadRect fvG (ValueIdx.ix1 l)
      = fvG (ValueIdx.ix1 (⟨n + l.val, by have h : off 0 + 16 ≤ 10240 := inb 0; have := l.isLt; omega⟩ : Fin 10240)) := by
  show fvG _ = fvG _
  refine congrArg fvG (funext fun a => ?_)
  match a with
  | ⟨0, _⟩ => exact Fin.ext (by show off 0 + 1 * l.val = n + l.val; omega)

omit [FloatOps F] in
/-- Trip `k`'s vector for member `t`, at lane `l`, is the values buffer's element `512 t + 16 k + l`. -/
theorem ldV_lane (d : Dev nD) (L : grid0.Coords) (fvG : Buf (Elt F) ((vV).view.loc (V d (cV L) (jV L)))) (k : Fin k0_t1_loop.trips) (t : Fin 20) (l : Fin 16) :
    ldV d L fvG k t (ValueIdx.ix1 l)
      = fvG (ValueIdx.ix1 (⟨512 * t.val + 16 * k.val + l.val, by have := trip_lt k; have := t.isLt; have := l.isLt; omega⟩ : Fin 10240)) := by
  have hk := trip_lt k
  match t with
  | ⟨0, _⟩ =>
    refine (readAt_lane d L fvG _ _ (16 * k.val) (by rw [k0_off2_eq k]; rfl) l).trans ?_
    exact congrArg fvG (congrArg ValueIdx.ix1 (Fin.ext (by show 16 * k.val + l.val = 512 * 0 + 16 * k.val + l.val; omega)))
  | ⟨r + 1, h⟩ =>
    have e3 : k0_off3 k (BitVec.ofNat 32 (512 + 512 * r)) = ![512 * r + 16 * k.val + 512] := k0_off3_eq k ⟨r, by omega⟩
    refine (readAt_lane d L fvG _ _ (512 * r + 16 * k.val + 512) (by rw [e3]; rfl) l).trans ?_
    exact congrArg fvG (congrArg ValueIdx.ix1 (Fin.ext (by show 512 * r + 16 * k.val + 512 + l.val = 512 * (r + 1) + 16 * k.val + l.val; omega)))

/-- One more trip: a store of sixteen lanes at `16 k` whose lane `l` is the kernel's result for team `512 (2 s + c) + 16 k + l`
    extends the finished prefix of the result buffer from `16 k` to `16 (k + 1)` positions. -/
theorem rok_step (A : Arrays F) (d : Dev nD) (L : grid0.Coords) (k : Nat) (hk : k < 32) (off : Fin 1 → Nat)
    (inb : ∀ a, off a + S16.size a ≤ S512.size a) (hoff : off 0 = 16 * k)
    (f : Buf (Elt F) ((rV).view.loc (V d (cV L) (jV L)))) (hf : ROK A d L k f) (w : S16.Idx → Elt F .f32)
    (hw : ∀ l : Fin 16, w (ValueIdx.ix1 l) = Cert.TeamSkill.kOut (F := F) (A.tf d) (A.sf d)
      (ValueIdx.ix1 (⟨512 * (2 * (L 1).val + (L 0).val) + 16 * k + l.val, by
        have h1 : (L 1).val < 16 := (L 1).isLt; have h0 : (L 0).val < 2 := (L 0).isLt; have := l.isLt; omega⟩ : Fin 16384))) :
    ROK A d L (k + 1) ((rV).view.writes (Elt F) f [⟨Rect.unit (s := S512) off S16.size inb, w⟩]) := by
  intro j hj
  have h0 : (L 0).val < 2 := (L 0).isLt
  have h1 : (L 1).val < 16 := (L 1).isLt
  by_cases hlt : j.val < 16 * k
  · have hnot : ∀ p ∈ ([⟨Rect.unit (s := S512) off S16.size inb, w⟩] : List (View.Piece (Elt F) S512 .f32)), (ValueIdx.ix1 j : S512.Idx) ∉ p.1.set := by
      intro p hp
      rw [List.mem_singleton] at hp
      subst hp
      rw [Rect.mem_set_unit]
      intro h
      have h' : off 0 ≤ j.val := (h 0).1
      omega
    exact ((read_rV d L ((rV).view.writes (Elt F) f [⟨Rect.unit (s := S512) off S16.size inb, w⟩]) (ValueIdx.ix1 j)).symm.trans
      (View.read_writes_apply_of_forall_not_mem (rV).view f (ValueIdx.ix1 j) _ hnot)).trans ((read_rV d L f _).trans (hf j hlt))
  · have hl : j.val - 16 * k < 16 := by omega
    have ej : (ValueIdx.ix1 j : S512.Idx) = (Rect.unit (s := S512) off S16.size inb).emb (ValueIdx.ix1 (⟨j.val - 16 * k, hl⟩ : Fin 16)) := by
      funext a
      match a with
      | ⟨0, _⟩ => exact Fin.ext (by show j.val = off 0 + 1 * (j.val - 16 * k); omega)
    have e := View.read_writes_cons_emb (rV).view f (Rect.unit (s := S512) off S16.size inb) w [] (ValueIdx.ix1 (⟨j.val - 16 * k, hl⟩ : Fin 16))
    have e1 : ((rV).view.writes (Elt F) f [⟨Rect.unit (s := S512) off S16.size inb, w⟩])
          ((Rect.unit (s := S512) off S16.size inb).emb (ValueIdx.ix1 (⟨j.val - 16 * k, hl⟩ : Fin 16))) = w (ValueIdx.ix1 (⟨j.val - 16 * k, hl⟩ : Fin 16)) :=
      (read_rV d L _ _).symm.trans e
    have e0 : ((rV).view.writes (Elt F) f [⟨Rect.unit (s := S512) off S16.size inb, w⟩]) (ValueIdx.ix1 j)
        = ((rV).view.writes (Elt F) f [⟨Rect.unit (s := S512) off S16.size inb, w⟩])
            ((Rect.unit (s := S512) off S16.size inb).emb (ValueIdx.ix1 (⟨j.val - 16 * k, hl⟩ : Fin 16))) :=
      congrArg ((rV).view.writes (Elt F) f [⟨Rect.unit (s := S512) off S16.size inb, w⟩]) ej
    refine (e0.trans e1).trans ?_
    rw [hw ⟨j.val - 16 * k, hl⟩]
    exact congrArg _ (congrArg ValueIdx.ix1 (Fin.ext (by
      show 512 * (2 * (L 1).val + (L 0).val) + 16 * k + (j.val - 16 * k) = 512 * (2 * (L 1).val + (L 0).val) + j.val; omega)))

/-- Trip `k` of the loop, from the values buffer holding the gathered rows. -/
theorem rok_trip (A : Arrays F) (d : Dev nD) (L : grid0.Coords) (g : Buf (Elt F) ((lV).view.loc (V d (cV L) (jV L))))
    (hg : ∀ (t : Fin 20) (j : Fin 512), g (ValueIdx.ix1 (⟨512 * t.val + j.val, by have := t.isLt; have := j.isLt; omega⟩ : Fin 10240))
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)))
    (fvG : Buf (Elt F) ((vV).view.loc (V d (cV L) (jV L)))) (hv : VOK A d L g fvG) (k : Fin k0_t1_loop.trips)
    (f : Buf (Elt F) ((rV).view.loc (V d (cV L) (jV L)))) (hf : ROK A d L k.val f) :
    ROK A d L (k.val + 1) ((rV).view.writes (Elt F) f [⟨Rect.unit (s := S512) (k0_off4 k) S16.size (k0_off4_inb k),
      k0_pay2 (k0_pay1 (ldV d L fvG k 0) (ldV d L fvG k 1) (ldV d L fvG k 2) (ldV d L fvG k 3) (ldV d L fvG k 4) (ldV d L fvG k 5) (ldV d L fvG k 6) (ldV d L fvG k 7) (ldV d L fvG k 8) (ldV d L fvG k 9) (ldV d L fvG k 10) (ldV d L fvG k 11)) (ldV d L fvG k 12) (ldV d L fvG k 13) (ldV d L fvG k 14) (ldV d L fvG k 15) (ldV d L fvG k 16) (ldV d L fvG k 17) (ldV d L fvG k 18) (ldV d L fvG k 19)⟩]) := by
  have hk := trip_lt k
  have h0 : (L 0).val < 2 := (L 0).isLt
  have h1 : (L 1).val < 16 := (L 1).isLt
  refine rok_step A d L k.val hk (k0_off4 k) (k0_off4_inb k) (by rw [k0_off4_eq k]; rfl) f hf _ (fun l => ?_)
  have hb : 512 * (2 * (L 1).val + (L 0).val) + 16 * k.val + l.val < 16384 := by have := l.isLt; omega
  refine (pay_lane (A.tf d) (A.sf d) ⟨_, hb⟩ (ldV d L fvG k) (ValueIdx.ix1 l) (fun t => ?_)).trans rfl
  have ht := t.isLt
  have hl := l.isLt
  rw [ldV_lane]
  refine (hv _).trans (congrArg (Cert.TeamSkill.tblAt (A.sf d)) ?_)
  have e := hg t ⟨16 * k.val + l.val, by omega⟩
  refine ((congrArg g (congrArg ValueIdx.ix1 (Fin.ext (by
    show 512 * t.val + 16 * k.val + l.val = 512 * t.val + (16 * k.val + l.val); omega)))).trans e).trans ?_
  exact congrArg (A.tf d) (congrArg ValueIdx.ix1 (Fin.ext (by
    show 16384 * t.val + 1024 * (L 1).val + 512 * (L 0).val + (16 * k.val + l.val) = t.val * 16384 + (512 * (2 * (L 1).val + (L 0).val) + 16 * k.val + l.val); omega)))

omit [FloatOps F] in
/-- A write of the whole values buffer leaves the payload, whatever was there. -/
theorem writes_whole_vV (d : Dev nD) (L : grid0.Coords) (junk : Buf (Elt F) ((vV).view.loc (V d (cV L) (jV L))))
    (w : (Rect.whole cc0_scratch2.ty.shape).shape.Idx → Elt F .f32) (x : (Rect.whole cc0_scratch2.ty.shape).shape.Idx) :
    ((vV).view.writes (Elt F) junk [⟨Rect.whole cc0_scratch2.ty.shape, w⟩]) x = w x := by
  have e := View.read_writes_cons_emb (vV).view junk (Rect.whole cc0_scratch2.ty.shape) w [] x
  rw [Rect.emb_whole_apply] at e
  exact (read_vV d L _ x).symm.trans e

omit [FloatOps F] in
/-- The shared table read through its whole-extent slice is the table. -/
theorem read_shSlice (sf : FVec F S100000 .f32)
    (hs : ∀ a, (Rect.unit (s := S100000) ![0] S100000.size inb_S100000_S100000_0).stride a = 1) (y : S100000.Idx) :
    View.read (Elt F) ((shV).slice (Rect.unit (s := S100000) ![0] S100000.size inb_S100000_S100000_0) hs).view sf y = sf y := by
  show sf _ = sf y
  refine congrArg sf (funext fun a => ?_)
  match a with
  | ⟨0, _⟩ => exact Fin.ext (by show 0 + 1 * (y 0).val = (y 0).val; omega)

/-- After the gather the values buffer holds, at every position, the table's row named by the list's word there. -/
theorem vok_gather (A : Arrays F) (d : Dev nD) (L : grid0.Coords) (g : Buf (Elt F) ((lV).view.loc (V d (cV L) (jV L))))
    (hinG : ∀ x, ((lV).view.read (Elt F) g x).toNat < S100000.size gathers_S100000_S10240.axis)
    (hs : ∀ a, (Rect.unit (s := S100000) ![0] S100000.size inb_S100000_S100000_0).stride a = 1)
    (hn : S10240.numel = S10240.size gathers_S100000_S10240.axis')
    (junk : Buf (Elt F) ((vV).view.loc (V d (cV L) (jV L)))) :
    VOK A d L g ((vV).view.writes (Elt F) junk [⟨Rect.whole cc0_scratch2.ty.shape,
      SparseCore.gatherPayload gathers_S100000_S10240
        (View.read (Elt F) ((shV).slice (Rect.unit (s := S100000) ![0] S100000.size inb_S100000_S100000_0) hs).view (A.sf d))
        (SparseCore.rows (View.read (Elt F) (lV).view g) hn hinG)⟩]) := by
  intro x
  refine (writes_whole_vV d L junk _ (ValueIdx.ix1 x)).trans ?_
  have hw : (g (ValueIdx.ix1 x)).toNat < 100000 := hinG (ValueIdx.ix1 x)
  -- the list's entry for position `x` in row-major order is the word at `x`
  have hrow : S10240.rowMajor.symm (Fin.cast hn.symm ((ValueIdx.ix1 x : S10240.Idx) gathers_S100000_S10240.axis')) = (ValueIdx.ix1 x : S10240.Idx) := by
    rw [Equiv.symm_apply_eq]
    exact Fin.ext (by rw [Shape.rowMajor_val_one]; rfl)
  unfold Cert.TeamSkill.tblAt
  rw [dif_pos hw]
  unfold SparseCore.gatherPayload
  refine (read_shSlice (A.sf d) hs _).trans (congrArg (A.sf d) (funext fun a => ?_))
  match a with
  | ⟨0, _⟩ =>
    refine Fin.ext ?_
    have h1 := Shape.Gathers.idx_axis gathers_S100000_S10240 (SparseCore.rows (View.read (Elt F) (lV).view g) hn hinG) (ValueIdx.ix1 x : S10240.Idx)
    refine (congrArg Fin.val h1).trans ?_
    show (g (S10240.rowMajor.symm (Fin.cast hn.symm ((ValueIdx.ix1 x : S10240.Idx) gathers_S100000_S10240.axis')))).toNat = (g (ValueIdx.ix1 x)).toNat
    rw [hrow]

end Cert.Proof.KI

end
-- ==== Proof.BodyBKI.lean ====
/-
  The tile's body after the subcore barrier. The indirect gather fills the value buffer with the table's rows named by
  the list's words: every word is a word of the flat member list, hence names a row. Each of the loop's thirty-two trips
  loads twenty 16-lane vectors of gathered values — member `t`'s values of sixteen consecutive teams — and stores their
  left-nested sum into sixteen lanes of the result buffer; before trip `k` the lanes below `16 k` hold the kernel's
  result for the tile's teams and the gathered values are as gathered. After the last trip all 512 lanes hold it; the
  write-out copies them onto the tile's piece of the result array, positions `512 (2 s + c) + [0, 512)` on tile `(c, s)`.
  The list, the values and the table's read token come back as they were, the two DMA cells at zero.
-/
import proofs.«203918_g8735963480385_cont_9to1c4b_274_26_alg».proof.Proof.BodyBPureKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.KernelIdeal.main_v2_scv : Memref Cert.KernelIdeal.sig Kind.scVector Space.hbm Cert.KernelIdeal.S393216 EltTy.i32)
local notation "sfV" => (Memref.whole Cert.KernelIdeal.main_v3_scv : Memref Cert.KernelIdeal.sig Kind.scVector Space.hbm Cert.KernelIdeal.S100000 EltTy.f32)
local notation "oV" => (Memref.whole Cert.KernelIdeal.main_v4_scv : Memref Cert.KernelIdeal.sig Kind.scVector Space.hbm Cert.KernelIdeal.S16384 EltTy.f32)
local notation "shV" => (Memref.whole Cert.KernelIdeal.cc0_scratch0 : Memref Cert.KernelIdeal.sig Kind.scVector Space.shared Cert.KernelIdeal.S100000 EltTy.f32)
local notation "lV" => (Memref.whole Cert.KernelIdeal.cc0_scratch1 : Memref Cert.KernelIdeal.sig Kind.scVector Space.vmem Cert.KernelIdeal.S10240 EltTy.i32)
local notation "vV" => (Memref.whole Cert.KernelIdeal.cc0_scratch2 : Memref Cert.KernelIdeal.sig Kind.scVector Space.vmem Cert.KernelIdeal.S10240 EltTy.f32)
local notation "rV" => (Memref.whole Cert.KernelIdeal.cc0_scratch3 : Memref Cert.KernelIdeal.sig Kind.scVector Space.vmem Cert.KernelIdeal.S512 EltTy.f32)

/-! ## The tile's piece of the result array -/

/-- The tile's piece of the result array, as the write-out addresses it. -/
abbrev oPieceK (L : grid0.Coords) : Memref sig .scVector .hbm S512 .f32 :=
  (oV).slice (Rect.unit (s := S16384) (k0_off5 L) S512.size (k0_off5_inb L)) (fun _ => rfl)

omit [FloatOps F] in
/-- The rectangle the write-out addresses is the tile's part of the result array: 512 positions from `512 (2 s + c)`. -/
theorem oRect_eq (L : grid0.Coords) : Rect.unit (s := S16384) (k0_off5 L) S512.size (k0_off5_inb L) = oPart (widOf (cL L) (jL L)) := by
  unfold oPart Rect.part Rect.block
  congr 1 <;> funext a
  · rw [k0_off5_eq]
    match a with
    | 0 => simp [Shape.partIx, Shape.partSize, widOf]; omega
  · match a with
    | 0 => simp [Shape.partSize]

omit [FloatOps F] in
theorem set_oPieceK (L : grid0.Coords) : (oPieceK L).view.set = oSet (widOf (cL L) (jL L)) := by
  show ((oV).view.slice (Rect.unit (s := S16384) (k0_off5 L) S512.size (k0_off5_inb L))).set
    = ((View.whole (main_v4_scv : Ref sig .scVector)).slice (oPart (widOf (cL L) (jL L)))).set
  rw [oRect_eq]

omit [FloatOps F] in
theorem pts_oPieceK (d : Dev nD) (L : grid0.Coords) (f : Buf (Elt F) (oLoc d)) :
    ((oPieceK L).view.loc (V d (cV L) (jV L)) ↦[(oPieceK L).view.set]{fullShare} f : sProp 𝕄) = oPts d (widOf (cL L) (jL L)) f := by
  rw [set_oPieceK]

omit [FloatOps F] in
/-- Position `x` of the tile's piece is position `512 (2 s + c) + x` of the result array. -/
theorem oPieceK_emb (L : grid0.Coords) (x0 : Fin 512) :
    (oPieceK L).view.emb (ValueIdx.ix1 x0) = ValueIdx.ix1 (⟨512 * (2 * (L 1).val + (L 0).val) + x0.val, by
      have h1 : (L 1).val < 16 := (L 1).isLt; have h0 : (L 0).val < 2 := (L 0).isLt; have := x0.isLt; omega⟩ : Fin 16384) := by
  funext a
  match a with
  | ⟨0, _⟩ =>
    refine Fin.ext ?_
    show (k0_off5 L) 0 + 1 * x0.val = 512 * (2 * (L 1).val + (L 0).val) + x0.val
    rw [k0_off5_eq]
    show 1024 * (L 1).val + 512 * (L 0).val + 1 * x0.val = _
    omega

/-- After the last trip and the write-out, the tile's piece of the result array holds the kernel's result. -/
theorem odone_pure (A : Arrays F) (d : Dev nD) (L : grid0.Coords) (f : Buf (Elt F) ((rV).view.loc (V d (cV L) (jV L)))) (hf : ROK A d L k0_t1_loop.trips f) :
    ∀ j ∈ oSet (widOf (cL L) (jL L)), ((oPieceK L).view.writes (Elt F) (A.o₀ d)
      [⟨Rect.whole S512, ReadAs.same.apply (View.read (Elt F) (rV).view f)⟩]) j = Cert.TeamSkill.kOut (F := F) (A.tf d) (A.sf d) j := by
  intro j hj
  rw [← set_oPieceK] at hj
  obtain ⟨x, -, rfl⟩ := Finset.mem_map.mp hj
  obtain ⟨x0, rfl⟩ : ∃ x0 : Fin 512, x = ValueIdx.ix1 x0 := ⟨x 0, ValueIdx.eq_ix1 x⟩
  have h1 := View.read_writes_cons_emb (oPieceK L).view (A.o₀ d) (Rect.whole S512) (ReadAs.same.apply (View.read (Elt F) (rV).view f)) [] (ValueIdx.ix1 x0)
  rw [Rect.emb_whole_apply] at h1
  refine (h1 : _ = _).trans ?_
  show f (ValueIdx.ix1 x0) = _
  rw [hf x0 (by rw [trips_eq]; have := x0.isLt; omega), oPieceK_emb]

/-! ## The loop's invariant and the body's second half -/

/-- The loop's invariant before trip `k`: the gathered values as gathered, the result buffer right below lane `16 k`. -/
def invB (A : Arrays F) (d : Dev nD) (L : grid0.Coords) (g : Buf (Elt F) ((lV).view.loc (V d (cV L) (jV L)))) (k : Nat) (_ : Unit) : sProp 𝕄 :=
  iprop((∃ fvG, ((vV).view.loc (V d (cV L) (jV L)) ↦{fullShare} fvG) ∗ ⌜VOK A d L g fvG⌝)
      ∗ (∃ f, ((rV).view.loc (V d (cV L) (jV L)) ↦{fullShare} f) ∗ ⌜ROK A d L k f⌝))

set_option maxHeartbeats 4000000 in
/-- The body's second half: from the list filled and the table's read token to the tile's piece of the result holding
    the kernel's result there, everything else handed back. The gather and its wait, the write-out and its wait are
    single steps; the loop goes by its invariant, one trip at a symbolic `k`. -/
theorem afterBarrier (A : Arrays F) (hin : ∀ (d : Dev nD) j, (A.tf d j).toNat < 100000) : AfterBarrier A := by
  unfold AfterBarrier
  intro d L O W hO g hg fv fr Ψ
  have hinG := list_inb A hin d L g hg
  iintro ⟨Hmw, Hl, Hv, Hr, Hsh, Ho, HsemB, HsemD, HO, HΨ⟩
  ihave Ho' := (Entails.of_eq (pts_oPieceK (F := F) d L _).symm) $$ Ho
  sl_exec
  sl_for (invB A d L g) $$ [Hv Hr]
  case region =>
    intro k _
    unfold invB
    iintro ⟨⟨%fvG, Hv, %hv⟩, ⟨%f, Hr, %hf⟩⟩
    sl_exec
    sl_step
    isplitl [Hv]
    · iexists fvG; isplitl [Hv]; · iexact Hv
      ipureintro; exact hv
    · iexists _; isplitl [Hr]; · iexact Hr
      ipureintro; exact rok_trip A d L g hg fvG hv k f hf
  · unfold invB
    isplitl [Hv]
    · iexists _; isplitl [Hv]; · iexact Hv
      ipureintro; exact vok_gather A d L g hinG _ _ _
    · iexists _; isplitl [Hr]; · iexact Hr
      ipureintro; exact rok_zero A d L fr
  iintro %_ HI
  unfold invB
  icases HI with ⟨⟨%fvG, Hv, %hv⟩, ⟨%f, Hr, %hf⟩⟩
  sl_exec
  sl_step
  iapply HΨ
  isplitl [Ho']
  · unfold oDone
    iexists _
    isplitl [Ho']
    · iapply (Entails.of_eq (pts_oPieceK (F := F) d L _)); iexact Ho'
    · ipureintro; exact odone_pure A d L f hf
  isplitl [Hl]; · iexact Hl
  isplitl [Hv]; · iexists _; iexact Hv
  isplitl [Hr]; · iexists _; iexact Hr
  isplitl [Hsh]; · iexact Hsh
  isplitl [HsemB]; · iexact HsemB
  isplitl [HsemD]; · iexact HsemD
  iexists (insert (SemLoc.dma cc0_scoped1.sem, (default : HIx 1)) (insert (SemLoc.dma cc0_scratch5.sem, (default : HIx 1)) W)); isplitr
  · ipureintro; intro p hp
    rcases Finset.mem_insert.mp hp with hp | hp
    · exact .inr (by rw [hp]; rfl)
    rcases Finset.mem_insert.mp hp with hp | hp
    · exact .inr (by rw [hp]; rfl)
    · exact .inl hp
  · iexact HO

end Cert.Proof.KI

end
-- ==== Proof.BodyKI.lean ====
/-
  The tile's body whole: its first half, across the subcore barrier, composed with its second half. The only fact about the
  data it needs is that every word of the flat member list names a row of the table.
-/
import proofs.«203918_g8735963480385_cont_9to1c4b_274_26_alg».proof.Proof.BodyAKI
import proofs.«203918_g8735963480385_cont_9to1c4b_274_26_alg».proof.Proof.BodyBKI

noncomputable section

namespace Cert.Proof.KI

open Cert.KernelIdeal Cert.KernelIdeal.Gen
open Idealize.ShloMosaic Idealize.SL.Sem

variable {F : FTy → Type} [FloatOps F]

/-- The tile's body, for arrays whose member words all name rows of the table. -/
theorem tile_body (A : Arrays F) (hin : ∀ (d : Dev nD) j, (A.tf d j).toNat < 100000) : TileBody A :=
  tile_body_of A (afterBarrier A hin)

end Cert.Proof.KI

end
-- ==== Proof.ListKB.lean ====
/-
  The tile's list buffer after its twenty copies. Copy `t` writes 512 words through the window `[512 t, 512 t + 512)` of
  the buffer; the windows are pairwise disjoint and tile the buffer. So (i) on window `k` the contents after copies
  `0 … k` already are the final contents, every later copy going through a window disjoint from it — which lets the four
  windows held apart and the rest, all at the final contents, be joined into the whole buffer —, and (ii) the final
  contents at position `512 t + j` are copy `t`'s payload at `j`. The payloads are arbitrary here; the kernel's payload
  `t` at `j` is word `16384 t + 1024 s + 512 c + j` of the flat member list on tile `(c, s)`.
-/
import proofs.«203918_g8735963480385_cont_9to1c4b_274_26_alg».proof.Proof.BodyDefsKB
import Idealize.ShloMosaic.Lib.WritesUnit
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.Kernel.main_v2_scv : Memref Cert.Kernel.sig Kind.scVector Space.hbm Cert.Kernel.S393216 EltTy.i32)
local notation "sfV" => (Memref.whole Cert.Kernel.main_v3_scv : Memref Cert.Kernel.sig Kind.scVector Space.hbm Cert.Kernel.S100000 EltTy.f32)
local notation "oV" => (Memref.whole Cert.Kernel.main_v4_scv : Memref Cert.Kernel.sig Kind.scVector Space.hbm Cert.Kernel.S16384 EltTy.f32)
local notation "shV" => (Memref.whole Cert.Kernel.cc0_scratch0 : Memref Cert.Kernel.sig Kind.scVector Space.shared Cert.Kernel.S100000 EltTy.f32)
local notation "lV" => (Memref.whole Cert.Kernel.cc0_scratch1 : Memref Cert.Kernel.sig Kind.scVector Space.vmem Cert.Kernel.S10240 EltTy.i32)
local notation "vV" => (Memref.whole Cert.Kernel.cc0_scratch2 : Memref Cert.Kernel.sig Kind.scVector Space.vmem Cert.Kernel.S10240 EltTy.f32)
local notation "rV" => (Memref.whole Cert.Kernel.cc0_scratch3 : Memref Cert.Kernel.sig Kind.scVector Space.vmem Cert.Kernel.S512 EltTy.f32)

/-! ## Writes through windows disjoint from a set leave the set as it was -/

section Generic
variable {sig' : RefSig} {κ : Kind} {sp : Space} {s : Shape} {e : EltTy} {Val : EltTy → Type}

omit [FloatOps F] in
/-- A list of writes, each through a window disjoint from `I`, put in front of another list changes nothing on `I`. -/
theorem writes_append_eq_on (v : View sig' κ sp s e) (f : v.ty.Contents Val) (I : Finset v.ty.Idx)
    (L₂ : List (View.Piece Val s e)) :
    ∀ L₁ : List (View.Piece Val s e), (∀ p ∈ L₁, Disjoint I (v.slice p.1).set) →
      ∀ i ∈ I, v.writes Val f (L₁ ++ L₂) i = v.writes Val f L₂ i
  | [], _, _, _ => rfl
  | p :: L₁, h, i, hi => by
    rw [List.cons_append, View.writes_cons,
      View.write_of_not_mem _ _ Finset.univ (fun hm =>
        Finset.disjoint_left.mp (h p List.mem_cons_self) hi (by rwa [View.setOn_univ] at hm))]
    exact writes_append_eq_on v f I L₂ L₁ (fun p' hp' => h p' (List.mem_cons_of_mem _ hp')) i hi

omit [FloatOps F] in
/-- Two rectangles of a whole buffer with no common index have no common element. -/
theorem whole_slice_disjoint (b : Ref sig' κ) (r r' : Rect b.ty.shape) (h : Disjoint r.set r'.set) :
    Disjoint (α := Finset (View.whole b).ty.Idx) ((View.whole b).slice r).set ((View.whole b).slice r').set := by
  rw [View.set_slice_whole, View.set_slice_whole]
  exact h

end Generic

/-! ## The windows -/

omit [FloatOps F] in
/-- Two 512-word windows of the list buffer that do not overlap as intervals share no element. -/
theorem win_disjoint {a b : ℕ} (hab : a + 512 ≤ b ∨ b + 512 ≤ a)
    (ha : ∀ x, (![a] : Fin 1 → ℕ) x + S512.size x ≤ S10240.size x)
    (hb : ∀ x, (![b] : Fin 1 → ℕ) x + S512.size x ≤ S10240.size x) :
    Disjoint (α := Finset (lV).view.ty.Idx) ((lV).view.slice (Rect.unit (s := S10240) ![a] S512.size ha)).set
      ((lV).view.slice (Rect.unit (s := S10240) ![b] S512.size hb)).set :=
  whole_slice_disjoint (cc0_scratch1 : Ref sig .scVector) _ _ (Rect.unit_disjoint (0 : Fin 1) hab)

/-- The first four windows, as the sets of the list buffer's elements under them. -/
abbrev win0 : Finset (lV).view.ty.Idx := ((lV).slice (Rect.unit (s := S10240) ![0] S512.size inb_S10240_S512_0) (fun _ => rfl)).view.set
abbrev win1 : Finset (lV).view.ty.Idx := ((lV).slice (Rect.unit (s := S10240) ![512] S512.size inb_S10240_S512_512) (fun _ => rfl)).view.set
abbrev win2 : Finset (lV).view.ty.Idx := ((lV).slice (Rect.unit (s := S10240) ![1024] S512.size inb_S10240_S512_1024) (fun _ => rfl)).view.set
abbrev win3 : Finset (lV).view.ty.Idx := ((lV).slice (Rect.unit (s := S10240) ![1536] S512.size inb_S10240_S512_1536) (fun _ => rfl)).view.set

/-! ## The twenty pieces: copy `t`'s window with a payload `q` -/

section Pieces
variable (q : S512.Idx → Elt F .i32)

abbrev pc0 : View.Piece (Elt F) S10240 .i32 := ⟨Rect.unit (s := S10240) ![0] S512.size inb_S10240_S512_0, q⟩
abbrev pc1 : View.Piece (Elt F) S10240 .i32 := ⟨Rect.unit (s := S10240) ![512] S512.size inb_S10240_S512_512, q⟩
abbrev pc2 : View.Piece (Elt F) S10240 .i32 := ⟨Rect.unit (s := S10240) ![1024] S512.size inb_S10240_S512_1024, q⟩
abbrev pc3 : View.Piece (Elt F) S10240 .i32 := ⟨Rect.unit (s := S10240) ![1536] S512.size inb_S10240_S512_1536, q⟩
abbrev pc4 : View.Piece (Elt F) S10240 .i32 := ⟨Rect.unit (s := S10240) ![2048] S512.size inb_S10240_S512_2048, q⟩
abbrev pc5 : View.Piece (Elt F) S10240 .i32 := ⟨Rect.unit (s := S10240) ![2560] S512.size inb_S10240_S512_2560, q⟩
abbrev pc6 : View.Piece (Elt F) S10240 .i32 := ⟨Rect.unit (s := S10240) ![3072] S512.size inb_S10240_S512_3072, q⟩
abbrev pc7 : View.Piece (Elt F) S10240 .i32 := ⟨Rect.unit (s := S10240) ![3584] S512.size inb_S10240_S512_3584, q⟩
abbrev pc8 : View.Piece (Elt F) S10240 .i32 := ⟨Rect.unit (s := S10240) ![4096] S512.size inb_S10240_S512_4096, q⟩
abbrev pc9 : View.Piece (Elt F) S10240 .i32 := ⟨Rect.unit (s := S10240) ![4608] S512.size inb_S10240_S512_4608, q⟩
abbrev pc10 : View.Piece (Elt F) S10240 .i32 := ⟨Rect.unit (s := S10240) ![5120] S512.size inb_S10240_S512_5120, q⟩
abbrev pc11 : View.Piece (Elt F) S10240 .i32 := ⟨Rect.unit (s := S10240) ![5632] S512.size inb_S10240_S512_5632, q⟩
abbrev pc12 : View.Piece (Elt F) S10240 .i32 := ⟨Rect.unit (s := S10240) ![6144] S512.size inb_S10240_S512_6144, q⟩
abbrev pc13 : View.Piece (Elt F) S10240 .i32 := ⟨Rect.unit (s := S10240) ![6656] S512.size inb_S10240_S512_6656, q⟩
abbrev pc14 : View.Piece (Elt F) S10240 .i32 := ⟨Rect.unit (s := S10240) ![7168] S512.size inb_S10240_S512_7168, q⟩
abbrev pc15 : View.Piece (Elt F) S10240 .i32 := ⟨Rect.unit (s := S10240) ![7680] S512.size inb_S10240_S512_7680, q⟩
abbrev pc16 : View.Piece (Elt F) S10240 .i32 := ⟨Rect.unit (s := S10240) ![8192] S512.size inb_S10240_S512_8192, q⟩
abbrev pc17 : View.Piece (Elt F) S10240 .i32 := ⟨Rect.unit (s := S10240) ![8704] S512.size inb_S10240_S512_8704, q⟩
abbrev pc18 : View.Piece (Elt F) S10240 .i32 := ⟨Rect.unit (s := S10240) ![9216] S512.size inb_S10240_S512_9216, q⟩
abbrev pc19 : View.Piece (Elt F) S10240 .i32 := ⟨Rect.unit (s := S10240) ![9728] S512.size inb_S10240_S512_9728, q⟩

end Pieces

/-! ## The final contents, for any twenty payloads -/

section Join
variable (d : Dev nD) (L : grid0.Coords) (fl : Buf (Elt F) ((lV).view.loc (V d (cV L) (jV L))))
variable (p0 p1 p2 p3 p4 p5 p6 p7 p8 p9 p10 p11 p12 p13 p14 p15 p16 p17 p18 p19 : S512.Idx → Elt F .i32)

/-- The list buffer after the twenty copies over contents `fl`: the twenty pieces written, the last copy first. -/
def listFinalOf : Buf (Elt F) ((lV).view.loc (V d (cV L) (jV L))) :=
  (lV).view.writes (Elt F) fl
    [pc19 p19, pc18 p18, pc17 p17, pc16 p16, pc15 p15, pc14 p14, pc13 p13, pc12 p12, pc11 p11, pc10 p10,
      pc9 p9, pc8 p8, pc7 p7, pc6 p6, pc5 p5, pc4 p4, pc3 p3, pc2 p2, pc1 p1, pc0 p0]

/-- On window 0 the contents after copy 0 are the final ones. -/
theorem listFinalOf_eq_on0 :
    ∀ i ∈ win0, (lV).view.writes (Elt F) fl [pc0 p0] i = listFinalOf d L fl p0 p1 p2 p3 p4 p5 p6 p7 p8 p9 p10 p11 p12 p13 p14 p15 p16 p17 p18 p19 i := fun i hi =>
  (writes_append_eq_on (lV).view fl win0 [pc0 p0]
    [pc19 p19, pc18 p18, pc17 p17, pc16 p16, pc15 p15, pc14 p14, pc13 p13, pc12 p12, pc11 p11, pc10 p10,
      pc9 p9, pc8 p8, pc7 p7, pc6 p6, pc5 p5, pc4 p4, pc3 p3, pc2 p2, pc1 p1]
    (by repeat (first | exact (fun _ h => absurd h List.not_mem_nil) | (refine List.forall_mem_cons.mpr ⟨win_disjoint ?_ ?_ ?_, ?_⟩; decide; decide; decide)))
    i hi).symm

/-- On window 1 the contents after copies 0 and 1 are the final ones. -/
theorem listFinalOf_eq_on1 :
    ∀ i ∈ win1, (lV).view.writes (Elt F) fl [pc1 p1, pc0 p0] i = listFinalOf d L fl p0 p1 p2 p3 p4 p5 p6 p7 p8 p9 p10 p11 p12 p13 p14 p15 p16 p17 p18 p19 i := fun i hi =>
  (writes_append_eq_on (lV).view fl win1 [pc1 p1, pc0 p0]
    [pc19 p19, pc18 p18, pc17 p17, pc16 p16, pc15 p15, pc14 p14, pc13 p13, pc12 p12, pc11 p11, pc10 p10,
      pc9 p9, pc8 p8, pc7 p7, pc6 p6, pc5 p5, pc4 p4, pc3 p3, pc2 p2]
    (by repeat (first | exact (fun _ h => absurd h List.not_mem_nil) | (refine List.forall_mem_cons.mpr ⟨win_disjoint ?_ ?_ ?_, ?_⟩; decide; decide; decide)))
    i hi).symm

/-- On window 2 the contents after copies 0 … 2 are the final ones. -/
theorem listFinalOf_eq_on2 :
    ∀ i ∈ win2, (lV).view.writes (Elt F) fl [pc2 p2, pc1 p1, pc0 p0] i = listFinalOf d L fl p0 p1 p2 p3 p4 p5 p6 p7 p8 p9 p10 p11 p12 p13 p14 p15 p16 p17 p18 p19 i := fun i hi =>
  (writes_append_eq_on (lV).view fl win2 [pc2 p2, pc1 p1, pc0 p0]
    [pc19 p19, pc18 p18, pc17 p17, pc16 p16, pc15 p15, pc14 p14, pc13 p13, pc12 p12, pc11 p11, pc10 p10,
      pc9 p9, pc8 p8, pc7 p7, pc6 p6, pc5 p5, pc4 p4, pc3 p3]
    (by repeat (first | exact (fun _ h => absurd h List.not_mem_nil) | (refine List.forall_mem_cons.mpr ⟨win_disjoint ?_ ?_ ?_, ?_⟩; decide; decide; decide)))
    i hi).symm

/-- On window 3 the contents after copies 0 … 3 are the final ones. -/
theorem listFinalOf_eq_on3 :
    ∀ i ∈ win3, (lV).view.writes (Elt F) fl [pc3 p3, pc2 p2, pc1 p1, pc0 p0] i = listFinalOf d L fl p0 p1 p2 p3 p4 p5 p6 p7 p8 p9 p10 p11 p12 p13 p14 p15 p16 p17 p18 p19 i := fun i hi =>
  (writes_append_eq_on (lV).view fl win3 [pc3 p3, pc2 p2, pc1 p1, pc0 p0]
    [pc19 p19, pc18 p18, pc17 p17, pc16 p16, pc15 p15, pc14 p14, pc13 p13, pc12 p12, pc11 p11, pc10 p10,
      pc9 p9, pc8 p8, pc7 p7, pc6 p6, pc5 p5, pc4 p4]
    (by repeat (first | exact (fun _ h => absurd h List.not_mem_nil) | (refine List.forall_mem_cons.mpr ⟨win_disjoint ?_ ?_ ?_, ?_⟩; decide; decide; decide)))
    i hi).symm

/-- Windows 0 … 3, each at the contents written when its copy was issued, and the rest of the buffer at the final
    contents, are the whole buffer at the final contents. -/
theorem list_join :
    iprop(((lV).view.loc (V d (cV L) (jV L)) ↦[win0]{fullShare} (lV).view.writes (Elt F) fl [pc0 p0])
        ∗ ((lV).view.loc (V d (cV L) (jV L)) ↦[win1]{fullShare} (lV).view.writes (Elt F) fl [pc1 p1, pc0 p0])
        ∗ ((lV).view.loc (V d (cV L) (jV L)) ↦[win2]{fullShare} (lV).view.writes (Elt F) fl [pc2 p2, pc1 p1, pc0 p0])
        ∗ ((lV).view.loc (V d (cV L) (jV L)) ↦[win3]{fullShare} (lV).view.writes (Elt F) fl [pc3 p3, pc2 p2, pc1 p1, pc0 p0])
        ∗ ((lV).view.loc (V d (cV L) (jV L)) ↦[(((Finset.univ \ win0) \ win1) \ win2) \ win3]{fullShare}
            (lV).view.writes (Elt F) fl
              [pc19 p19, pc18 p18, pc17 p17, pc16 p16, pc15 p15, pc14 p14, pc13 p13, pc12 p12, pc11 p11, pc10 p10,
                pc9 p9, pc8 p8, pc7 p7, pc6 p6, pc5 p5, pc4 p4, pc3 p3, pc2 p2, pc1 p1, pc0 p0]))
      ⊢ ((lV).view.loc (V d (cV L) (jV L)) ↦{fullShare} listFinalOf d L fl p0 p1 p2 p3 p4 p5 p6 p7 p8 p9 p10 p11 p12 p13 p14 p15 p16 p17 p18 p19 : sProp 𝕄) := by
  have e0 : ((lV).view.loc (V d (cV L) (jV L)) ↦[win0]{fullShare} (lV).view.writes (Elt F) fl [pc0 p0] : sProp 𝕄)
      = ((lV).view.loc (V d (cV L) (jV L)) ↦[win0]{fullShare} listFinalOf d L fl p0 p1 p2 p3 p4 p5 p6 p7 p8 p9 p10 p11 p12 p13 p14 p15 p16 p17 p18 p19) :=
    pointsTo_congr (listFinalOf_eq_on0 d L fl p0 p1 p2 p3 p4 p5 p6 p7 p8 p9 p10 p11 p12 p13 p14 p15 p16 p17 p18 p19)
  have e1 : ((lV).view.loc (V d (cV L) (jV L)) ↦[win1]{fullShare} (lV).view.writes (Elt F) fl [pc1 p1, pc0 p0] : sProp 𝕄)
      = ((lV).view.loc (V d (cV L) (jV L)) ↦[win1]{fullShare} listFinalOf d L fl p0 p1 p2 p3 p4 p5 p6 p7 p8 p9 p10 p11 p12 p13 p14 p15 p16 p17 p18 p19) :=
    pointsTo_congr (listFinalOf_eq_on1 d L fl p0 p1 p2 p3 p4 p5 p6 p7 p8 p9 p10 p11 p12 p13 p14 p15 p16 p17 p18 p19)
  have e2 : ((lV).view.loc (V d (cV L) (jV L)) ↦[win2]{fullShare} (lV).view.writes (Elt F) fl [pc2 p2, pc1 p1, pc0 p0] : sProp 𝕄)
      = ((lV).view.loc (V d (cV L) (jV L)) ↦[win2]{fullShare} listFinalOf d L fl p0 p1 p2 p3 p4 p5 p6 p7 p8 p9 p10 p11 p12 p13 p14 p15 p16 p17 p18 p19) :=
    pointsTo_congr (listFinalOf_eq_on2 d L fl p0 p1 p2 p3 p4 p5 p6 p7 p8 p9 p10 p11 p12 p13 p14 p15 p16 p17 p18 p19)
  have e3 : ((lV).view.loc (V d (cV L) (jV L)) ↦[win3]{fullShare} (lV).view.writes (Elt F) fl [pc3 p3, pc2 p2, pc1 p1, pc0 p0] : sProp 𝕄)
      = ((lV).view.loc (V d (cV L) (jV L)) ↦[win3]{fullShare} listFinalOf d L fl p0 p1 p2 p3 p4 p5 p6 p7 p8 p9 p10 p11 p12 p13 p14 p15 p16 p17 p18 p19) :=
    pointsTo_congr (listFinalOf_eq_on3 d L fl p0 p1 p2 p3 p4 p5 p6 p7 p8 p9 p10 p11 p12 p13 p14 p15 p16 p17 p18 p19)
  rw [e0, e1, e2, e3]
  have h3 : win3 ⊆ ((Finset.univ \ win0) \ win1) \ win2 :=
    Finset.subset_sdiff.mpr ⟨Finset.subset_sdiff.mpr ⟨Finset.subset_sdiff.mpr ⟨Finset.subset_univ _,
      win_disjoint (by decide) _ _⟩, win_disjoint (by decide) _ _⟩, win_disjoint (by decide) _ _⟩
  have h2 : win2 ⊆ (Finset.univ \ win0) \ win1 :=
    Finset.subset_sdiff.mpr ⟨Finset.subset_sdiff.mpr ⟨Finset.subset_univ _, win_disjoint (by decide) _ _⟩, win_disjoint (by decide) _ _⟩
  have h1 : win1 ⊆ Finset.univ \ win0 := Finset.subset_sdiff.mpr ⟨Finset.subset_univ _, win_disjoint (by decide) _ _⟩
  refine (sep_mono_right (sep_mono_right (sep_mono_right
    (pointsTo_split_subset (q := fullShare) (f := listFinalOf d L fl p0 p1 p2 p3 p4 p5 p6 p7 p8 p9 p10 p11 p12 p13 p14 p15 p16 p17 p18 p19) h3).2))).trans ?_
  refine (sep_mono_right (sep_mono_right
    (pointsTo_split_subset (q := fullShare) (f := listFinalOf d L fl p0 p1 p2 p3 p4 p5 p6 p7 p8 p9 p10 p11 p12 p13 p14 p15 p16 p17 p18 p19) h2).2)).trans ?_
  refine (sep_mono_right (pointsTo_split_subset (q := fullShare) (f := listFinalOf d L fl p0 p1 p2 p3 p4 p5 p6 p7 p8 p9 p10 p11 p12 p13 p14 p15 p16 p17 p18 p19) h1).2).trans ?_
  exact (pointsTo_split_subset (q := fullShare) (f := listFinalOf d L fl p0 p1 p2 p3 p4 p5 p6 p7 p8 p9 p10 p11 p12 p13 p14 p15 p16 p17 p18 p19) (Finset.subset_univ win0)).2

/-- The twenty payloads as a family over the copies. -/
abbrev payOf : Fin 20 → S512.Idx → Elt F .i32 :=
  ![p0, p1, p2, p3, p4, p5, p6, p7, p8, p9, p10, p11, p12, p13, p14, p15, p16, p17, p18, p19]

/-- Position `512 t + j` of the list buffer holds copy `t`'s payload at `j`. -/
theorem listFinalOf_apply (t : Fin 20) (j : Fin 512) :
    listFinalOf d L fl p0 p1 p2 p3 p4 p5 p6 p7 p8 p9 p10 p11 p12 p13 p14 p15 p16 p17 p18 p19
        (ValueIdx.ix1 (⟨512 * t.val + j.val, by have := t.isLt; have := j.isLt; omega⟩ : Fin 10240))
      = payOf p0 p1 p2 p3 p4 p5 p6 p7 p8 p9 p10 p11 p12 p13 p14 p15 p16 p17 p18 p19 t (ValueIdx.ix1 j) :=
  View.read_tilePieces (lV).view fl S512.size (fun (i : Fin 20) => (![512 * i.val] : Fin 1 → ℕ))
    (fun i a => by
      have := i.isLt
      match a with
      | ⟨0, _⟩ => show 512 * i.val + 512 ≤ 10240; omega)
    (payOf p0 p1 p2 p3 p4 p5 p6 p7 p8 p9 p10 p11 p12 p13 p14 p15 p16 p17 p18 p19) 20 (Nat.le_refl 20)
    (ValueIdx.ix1 (⟨512 * t.val + j.val, by have := t.isLt; have := j.isLt; omega⟩ : Fin 10240)) t t.isLt
    (ValueIdx.ix1 j)
    (fun a => match a with | ⟨0, _⟩ => rfl) (0 : Fin 1)
    (fun i' hne => by
      have hv : i'.val ≠ t.val := fun h => hne (Fin.ext h)
      have := j.isLt
      show 512 * t.val + j.val < 512 * i'.val ∨ 512 * i'.val + 512 ≤ 512 * t.val + j.val
      omega)

end Join

/-! ## The kernel's payloads -/

variable (A : Arrays F) (d : Dev nD) (L : grid0.Coords)

/-- Copy `t`'s payload at `j` is word `16384 t + 1024 s + 512 c + j` of the flat member list. -/
theorem listPay_apply (t : Fin 20) (j : Fin 512) :
    listPay A d L t (ValueIdx.ix1 j)
      = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)) := by
  show A.tf d _ = A.tf d _
  refine congrArg (A.tf d) (funext fun a => Fin.ext ?_)
  match a with
  | ⟨0, _⟩ =>
    show k0_off1 L (BitVec.ofNat 32 (16384 * t.val)) 0 + 1 * j.val = 16384 * t.val + 1024 * (L 1).val + 512 * (L 0).val + j.val
    rw [k0_off1_eq L t]
    show 16384 * t.val + 1024 * (L 1).val + 512 * (L 0).val + 1 * j.val = _
    omega

/-- The four windows and the rest joined, with what the joined buffer holds: for payloads that are the flat list's
    pieces, position `512 t + j` holds word `16384 t + 1024 s + 512 c + j` of the flat member list. -/
theorem list_joined (fl : Buf (Elt F) ((lV).view.loc (V d (cV L) (jV L)))) (p0 p1 p2 p3 p4 p5 p6 p7 p8 p9 p10 p11 p12 p13 p14 p15 p16 p17 p18 p19 : S512.Idx → Elt F .i32)
    (hp : ∀ (t : Fin 20) (j : Fin 512), payOf p0 p1 p2 p3 p4 p5 p6 p7 p8 p9 p10 p11 p12 p13 p14 p15 p16 p17 p18 p19 t (ValueIdx.ix1 j)
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216))) :
    iprop(((lV).view.loc (V d (cV L) (jV L)) ↦[win0]{fullShare} (lV).view.writes (Elt F) fl [pc0 p0])
        ∗ ((lV).view.loc (V d (cV L) (jV L)) ↦[win1]{fullShare} (lV).view.writes (Elt F) fl [pc1 p1, pc0 p0])
        ∗ ((lV).view.loc (V d (cV L) (jV L)) ↦[win2]{fullShare} (lV).view.writes (Elt F) fl [pc2 p2, pc1 p1, pc0 p0])
        ∗ ((lV).view.loc (V d (cV L) (jV L)) ↦[win3]{fullShare} (lV).view.writes (Elt F) fl [pc3 p3, pc2 p2, pc1 p1, pc0 p0])
        ∗ ((lV).view.loc (V d (cV L) (jV L)) ↦[(((Finset.univ \ win0) \ win1) \ win2) \ win3]{fullShare}
            (lV).view.writes (Elt F) fl
              [pc19 p19, pc18 p18, pc17 p17, pc16 p16, pc15 p15, pc14 p14, pc13 p13, pc12 p12, pc11 p11, pc10 p10,
                pc9 p9, pc8 p8, pc7 p7, pc6 p6, pc5 p5, pc4 p4, pc3 p3, pc2 p2, pc1 p1, pc0 p0]))
      ⊢ (iprop(∃ g : Buf (Elt F) ((lV).view.loc (V d (cV L) (jV L))),
          ⌜∀ (t : Fin 20) (j : Fin 512), g (ValueIdx.ix1 (⟨512 * t.val + j.val, by have := t.isLt; have := j.isLt; omega⟩ : Fin 10240))
            = A.tf d (ValueIdx.ix1 (⟨16384 * t.val + 1024 * (L 1).val + 512 * (L 0).val + j.val, by
                have := t.isLt; have := j.isLt; have h1 : (L 1).val < 16 := (L 1).isLt; have h0 : (L 0).val < 2 := (L 0).isLt; omega⟩ : Fin 393216))⌝
          ∗ ((lV).view.loc (V d (cV L) (jV L)) ↦{fullShare} g)) : sProp 𝕄) := by
  refine (list_join d L fl p0 p1 p2 p3 p4 p5 p6 p7 p8 p9 p10 p11 p12 p13 p14 p15 p16 p17 p18 p19).trans ?_
  iintro H
  iexists listFinalOf d L fl p0 p1 p2 p3 p4 p5 p6 p7 p8 p9 p10 p11 p12 p13 p14 p15 p16 p17 p18 p19
  isplitr
  · ipureintro
    intro t j
    exact (listFinalOf_apply d L fl p0 p1 p2 p3 p4 p5 p6 p7 p8 p9 p10 p11 p12 p13 p14 p15 p16 p17 p18 p19 t j).trans (hp t j)
  · iexact H

end Cert.Proof.KB

end
-- ==== Proof.ListPayKB.lean ====
/-
  The joined list buffer for the kernel's own payloads. Copy `t` moves 512 words of the flat member list from offset
  `16384 t + 1024 s + 512 c` on tile `(c, s)`; so for payloads that ARE those pieces (twenty equations, one per copy) the
  joined buffer holds, at position `512 t + j`, word `16384 t + 1024 s + 512 c + j` of the flat member list.
-/
import proofs.«203918_g8735963480385_cont_9to1c4b_274_26_alg».proof.Proof.ListKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.Kernel.main_v2_scv : Memref Cert.Kernel.sig Kind.scVector Space.hbm Cert.Kernel.S393216 EltTy.i32)
local notation "sfV" => (Memref.whole Cert.Kernel.main_v3_scv : Memref Cert.Kernel.sig Kind.scVector Space.hbm Cert.Kernel.S100000 EltTy.f32)
local notation "oV" => (Memref.whole Cert.Kernel.main_v4_scv : Memref Cert.Kernel.sig Kind.scVector Space.hbm Cert.Kernel.S16384 EltTy.f32)
local notation "shV" => (Memref.whole Cert.Kernel.cc0_scratch0 : Memref Cert.Kernel.sig Kind.scVector Space.shared Cert.Kernel.S100000 EltTy.f32)
local notation "lV" => (Memref.whole Cert.Kernel.cc0_scratch1 : Memref Cert.Kernel.sig Kind.scVector Space.vmem Cert.Kernel.S10240 EltTy.i32)
local notation "vV" => (Memref.whole Cert.Kernel.cc0_scratch2 : Memref Cert.Kernel.sig Kind.scVector Space.vmem Cert.Kernel.S10240 EltTy.f32)
local notation "rV" => (Memref.whole Cert.Kernel.cc0_scratch3 : Memref Cert.Kernel.sig Kind.scVector Space.vmem Cert.Kernel.S512 EltTy.f32)

variable (A : Arrays F) (d : Dev nD) (L : grid0.Coords)

/-- The kernel's twenty payloads, as a family over the copies, at a position. -/
theorem payOf_listPay_apply (t : Fin 20) (j : Fin 512) :
    payOf (listPay A d L 0) (listPay A d L 1) (listPay A d L 2) (listPay A d L 3) (listPay A d L 4) (listPay A d L 5)
        (listPay A d L 6) (listPay A d L 7) (listPay A d L 8) (listPay A d L 9) (listPay A d L 10) (listPay A d L 11)
        (listPay A d L 12) (listPay A d L 13) (listPay A d L 14) (listPay A d L 15) (listPay A d L 16) (listPay A d L 17)
        (listPay A d L 18) (listPay A d L 19) t (ValueIdx.ix1 j)
      = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)) :=
  match t with
  | ⟨0, _⟩ => listPay_apply A d L 0 j
  | ⟨1, _⟩ => listPay_apply A d L 1 j
  | ⟨2, _⟩ => listPay_apply A d L 2 j
  | ⟨3, _⟩ => listPay_apply A d L 3 j
  | ⟨4, _⟩ => listPay_apply A d L 4 j
  | ⟨5, _⟩ => listPay_apply A d L 5 j
  | ⟨6, _⟩ => listPay_apply A d L 6 j
  | ⟨7, _⟩ => listPay_apply A d L 7 j
  | ⟨8, _⟩ => listPay_apply A d L 8 j
  | ⟨9, _⟩ => listPay_apply A d L 9 j
  | ⟨10, _⟩ => listPay_apply A d L 10 j
  | ⟨11, _⟩ => listPay_apply A d L 11 j
  | ⟨12, _⟩ => listPay_apply A d L 12 j
  | ⟨13, _⟩ => listPay_apply A d L 13 j
  | ⟨14, _⟩ => listPay_apply A d L 14 j
  | ⟨15, _⟩ => listPay_apply A d L 15 j
  | ⟨16, _⟩ => listPay_apply A d L 16 j
  | ⟨17, _⟩ => listPay_apply A d L 17 j
  | ⟨18, _⟩ => listPay_apply A d L 18 j
  | ⟨19, _⟩ => listPay_apply A d L 19 j
  | ⟨n + 20, h⟩ => absurd h (by omega)

/-- The four windows and the rest joined, for payloads equal to the kernel's: the joined buffer holds the tile's twenty
    pieces of the flat member list. -/
theorem list_joined_of_eq (fl : Buf (Elt F) ((lV).view.loc (V d (cV L) (jV L))))
    (p0 p1 p2 p3 p4 p5 p6 p7 p8 p9 p10 p11 p12 p13 p14 p15 p16 p17 p18 p19 : S512.Idx → Elt F .i32)
    (h0 : p0 = listPay A d L 0) (h1 : p1 = listPay A d L 1) (h2 : p2 = listPay A d L 2) (h3 : p3 = listPay A d L 3)
    (h4 : p4 = listPay A d L 4) (h5 : p5 = listPay A d L 5) (h6 : p6 = listPay A d L 6) (h7 : p7 = listPay A d L 7)
    (h8 : p8 = listPay A d L 8) (h9 : p9 = listPay A d L 9) (h10 : p10 = listPay A d L 10) (h11 : p11 = listPay A d L 11)
    (h12 : p12 = listPay A d L 12) (h13 : p13 = listPay A d L 13) (h14 : p14 = listPay A d L 14) (h15 : p15 = listPay A d L 15)
    (h16 : p16 = listPay A d L 16) (h17 : p17 = listPay A d L 17) (h18 : p18 = listPay A d L 18) (h19 : p19 = listPay A d L 19) :
    iprop(((lV).view.loc (V d (cV L) (jV L)) ↦[win0]{fullShare} (lV).view.writes (Elt F) fl [pc0 p0])
        ∗ ((lV).view.loc (V d (cV L) (jV L)) ↦[win1]{fullShare} (lV).view.writes (Elt F) fl [pc1 p1, pc0 p0])
        ∗ ((lV).view.loc (V d (cV L) (jV L)) ↦[win2]{fullShare} (lV).view.writes (Elt F) fl [pc2 p2, pc1 p1, pc0 p0])
        ∗ ((lV).view.loc (V d (cV L) (jV L)) ↦[win3]{fullShare} (lV).view.writes (Elt F) fl [pc3 p3, pc2 p2, pc1 p1, pc0 p0])
        ∗ ((lV).view.loc (V d (cV L) (jV L)) ↦[(((Finset.univ \ win0) \ win1) \ win2) \ win3]{fullShare}
            (lV).view.writes (Elt F) fl
              [pc19 p19, pc18 p18, pc17 p17, pc16 p16, pc15 p15, pc14 p14, pc13 p13, pc12 p12, pc11 p11, pc10 p10,
                pc9 p9, pc8 p8, pc7 p7, pc6 p6, pc5 p5, pc4 p4, pc3 p3, pc2 p2, pc1 p1, pc0 p0]))
      ⊢ (iprop(∃ g : Buf (Elt F) ((lV).view.loc (V d (cV L) (jV L))),
          ⌜∀ (t : Fin 20) (j : Fin 512), g (ValueIdx.ix1 (⟨512 * t.val + j.val, by have := t.isLt; have := j.isLt; omega⟩ : Fin 10240))
            = A.tf d (ValueIdx.ix1 (⟨16384 * t.val + 1024 * (L 1).val + 512 * (L 0).val + j.val, by
                have := t.isLt; have := j.isLt; have h1 : (L 1).val < 16 := (L 1).isLt; have h0 : (L 0).val < 2 := (L 0).isLt; omega⟩ : Fin 393216))⌝
          ∗ ((lV).view.loc (V d (cV L) (jV L)) ↦{fullShare} g)) : sProp 𝕄) := by
  subst h0 h1 h2 h3 h4 h5 h6 h7 h8 h9 h10 h11 h12 h13 h14 h15 h16 h17 h18 h19
  exact list_joined A d L fl _ _ _ _ _ _ _ _ _ _ _ _ _ _ _ _ _ _ _ _ (payOf_listPay_apply A d L)

end Cert.Proof.KB

end
-- ==== Proof.BodyAKB.lean ====
/-
  The tile's body up to and across the subcore barrier, and its assembly with the second half.

  Every tile copies its twenty 512-word pieces of the flat member list into its list buffer: twenty transfers started on
  one cell before any is waited for, then twenty waits of one piece's units each — only the last wait knows every piece
  has landed, and then the list buffer's twenty windows are joined back into the buffer whole, piece `t` of it being
  positions `16384 t + 1024 s + 512 c + [0, 512)` of the flat list on tile `(c, s)`. Between the issues and the waits, tile 0
  of each SparseCore — the kernel compares its subcore number with 0 — copies the table into the SparseCore's shared
  scratch; the shared scratch is therefore held under the condition "this is tile 0", and the kernel's spelling of that
  condition is shown equivalent to ours. At the barrier tile 0 hands each tile's round a read token of the staged table and
  keeps the remainder of the share; every tile leaves the barrier with its own token. The second half of the body (the
  gather through the token, the sums, the write-out) is a hypothesis here, proved in its own module.
-/
import proofs.«203918_g8735963480385_cont_9to1c4b_274_26_alg».proof.Proof.BodyDefsKB
import proofs.«203918_g8735963480385_cont_9to1c4b_274_26_alg».proof.Proof.ListPayKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.Kernel.main_v2_scv : Memref Cert.Kernel.sig Kind.scVector Space.hbm Cert.Kernel.S393216 EltTy.i32)
local notation "sfV" => (Memref.whole Cert.Kernel.main_v3_scv : Memref Cert.Kernel.sig Kind.scVector Space.hbm Cert.Kernel.S100000 EltTy.f32)
local notation "oV" => (Memref.whole Cert.Kernel.main_v4_scv : Memref Cert.Kernel.sig Kind.scVector Space.hbm Cert.Kernel.S16384 EltTy.f32)
local notation "shV" => (Memref.whole Cert.Kernel.cc0_scratch0 : Memref Cert.Kernel.sig Kind.scVector Space.shared Cert.Kernel.S100000 EltTy.f32)
local notation "lV" => (Memref.whole Cert.Kernel.cc0_scratch1 : Memref Cert.Kernel.sig Kind.scVector Space.vmem Cert.Kernel.S10240 EltTy.i32)
local notation "vV" => (Memref.whole Cert.Kernel.cc0_scratch2 : Memref Cert.Kernel.sig Kind.scVector Space.vmem Cert.Kernel.S10240 EltTy.f32)
local notation "rV" => (Memref.whole Cert.Kernel.cc0_scratch3 : Memref Cert.Kernel.sig Kind.scVector Space.vmem Cert.Kernel.S512 EltTy.f32)

variable (A : Arrays F) (d : Dev nD) (L : grid0.Coords)

omit [FloatOps F] in
/-- The staging condition as the kernel computes it is "this is tile 0". -/
theorem guard_iff : (jL L).val = 0 ↔ Scalar.cmpi .ne (Scalar.extui (Scalar.cmpi .eq (BitVec.ofNat 32 (L 1).val) 0#32)) 0#32 = 1#1 := by
  have h : ∀ x : Fin 16, x.val = 0 ↔ Scalar.cmpi .ne (Scalar.extui (Scalar.cmpi .eq (BitVec.ofNat 32 x.val) 0#32)) 0#32 = 1#1 := by decide
  exact h (L 1)
omit [FloatOps F] in
theorem guard_nz (hn : ¬ (jL L).val = 0) : ¬ Scalar.cmpi .ne (Scalar.extui (Scalar.cmpi .eq (BitVec.ofNat 32 (L 1).val) 0#32)) 0#32 = 1#1 :=
  fun h => hn ((guard_iff L).mpr h)
omit [FloatOps F] in
theorem guard_z (hz : (jL L).val = 0) : Scalar.cmpi .ne (Scalar.extui (Scalar.cmpi .eq (BitVec.ofNat 32 (L 1).val) 0#32)) 0#32 = 1#1 :=
  (guard_iff L).mp hz

include A in
/-- The shared scratch as tile `L` is handed it, its contents named: held under "this is tile 0". -/
theorem shGo_elim : (shGo (F := F) d L : sProp 𝕄) ⊢ iprop(∃ f : Buf (Elt F) (shLoc d (cV L)),
    Guarded ((jL L).val = 0) (fun _ => ((shV).view.loc (V d (cV L) (jV L)) ↦{fullShare} f : sProp 𝕄)) (fun _ => iprop(emp))) := by
  unfold shGo Guarded
  by_cases h : (jL L).val = 0
  · rw [if_pos h]
    iintro ⟨%f, H⟩
    iexists f
    rw [dif_pos h]
    iexact H
  · rw [if_neg h]
    iintro -
    iexists (shTbl A d (cV L))
    rw [dif_neg h]
    iempintro

/-! ## The staged table and the barrier's payloads -/

omit [FloatOps F] in
/-- What tile 0's staging copy leaves in the shared scratch is the table. -/
theorem staged_eq (fsh : Buf (Elt F) (shLoc d (cV L))) :
    View.write (Elt F) (shV).view fsh (ReadAs.same.apply (View.read (Elt F) (sfV).view (A.sf d))) Finset.univ = shTbl A d (cV L) := by
  rw [View.write_whole_univ]
  simp only [Memref.view_whole, View.read_whole]

/-- The staged scratch, held under the kernel's own spelling `C` of "this is tile 0" at the copied contents `pay`, is the
    table held under ours. -/
theorem staged_guard (fsh : Buf (Elt F) (shLoc d (cV L))) (C : Prop) [Decidable C] (hC : C ↔ (jL L).val = 0)
    (pay : S100000.Idx → Elt F .f32) (hpay : pay = ReadAs.same.apply (View.read (Elt F) (sfV).view (A.sf d))) :
    (Guarded C (fun _ => ((shV).view.loc (V d (cV L) (jV L)) ↦{fullShare} View.write (Elt F) (shV).view fsh pay Finset.univ : sProp 𝕄))
        (fun _ => iprop(emp)))
      ⊢ Guarded ((jL L).val = 0) (fun _ => (shLoc d (cV L) ↦{fullShare} shTbl A d (cV L) : sProp 𝕄)) (fun _ => iprop(emp)) := by
  subst hpay
  rw [Guarded.congr hC]
  refine Guarded.mono (fun h => ?_) (fun _ => BI.Entails.refl _)
  rw [staged_eq]
  exact BI.Entails.refl _

omit [FloatOps F] in
/-- Tile 0's duties hand over the sixteen read tokens of the table, one to each tile's round. -/
theorem pays_zero (hv : (jV L).val = 0) :
    (bigSep Finset.univ fun j : Fin (grid0.bound 1) => (bRd (F := F) A).payload (bcell d (cV L) (j.castLE hsub0)) 0 (jV L).val)
      = bigSep Finset.univ fun i : Fin 16 => (shLoc d (cV L) ↦{shareTok fullShare 16 i} shTbl A d (cV L) : sProp 𝕄) := by
  show (bigSep Finset.univ fun j : Fin 16 => bPay A (bcell d (cV L) (Fin.castLE hsub0 j)) (jV L).val) = _
  refine bigSep_congr fun j _ => ?_
  unfold bPay; dsimp only
  rw [if_pos hv]
  rfl
omit [FloatOps F] in
/-- The other tiles' duties hand over nothing. -/
theorem pays_nonzero (hv : ¬ (jV L).val = 0) :
    (bigSep Finset.univ fun j : Fin (grid0.bound 1) => (bRd (F := F) A).payload (bcell d (cV L) (j.castLE hsub0)) 0 (jV L).val)
      = (iprop(emp) : sProp 𝕄) := by
  rw [← bigSep_emp' (Finset.univ : Finset (Fin (grid0.bound 1)))]
  refine bigSep_congr fun j _ => ?_
  show bPay A (bcell d (cV L) (Fin.castLE hsub0 j)) (jV L).val = _
  unfold bPay; dsimp only
  rw [if_neg hv]

/-- Before the barrier: tile 0 splits the table into its sixteen read tokens, one for each tile's round, and keeps the
    remainder; the other tiles hand over nothing. -/
theorem pays_intro :
    (Guarded ((jL L).val = 0) (fun _ => (shLoc d (cV L) ↦{fullShare} shTbl A d (cV L) : sProp 𝕄)) (fun _ => iprop(emp)))
      ⊢ iprop((bigSep Finset.univ fun j : Fin (grid0.bound 1) => (bRd (F := F) A).payload (bcell d (cV L) (j.castLE hsub0)) 0 (jV L).val)
          ∗ (if (jL L).val = 0 then (shLoc d (cV L) ↦{qs₀} shTbl A d (cV L) : sProp 𝕄) else iprop(emp))) := by
  by_cases hz : (jL L).val = 0
  · rw [Guarded.pos hz, if_pos hz, pays_zero A d L hz]
    refine (Transfers.pointsTo_toks_split fullShare 16).trans ?_
    iintro ⟨Hr, Ht⟩
    isplitl [Ht]
    · iexact Ht
    · iexact Hr
  · rw [Guarded.neg hz, if_neg hz, pays_nonzero A d L hz]
    iintro -
    isplitl
    · iempintro
    · iempintro

omit [FloatOps F] in
/-- After the barrier: what a tile's own round collected holds its read token of the table (tile 0's duty). -/
theorem pays_elim : (bigSep ((bRd (F := F) A).duties (bcell d (cV L) (jV L)) 0 \ ∅) fun n => (bRd (F := F) A).payload (bcell d (cV L) (jV L)) 0 n)
    ⊢ (shTok A d (cV L) (jL L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay A (bcell d (cV L) (jV L)) 0 ⊢ _
  unfold bPay; dsimp only
  rw [if_pos rfl]; exact BI.Entails.refl _

set_option maxHeartbeats 4000000 in
/-- The tile's body: the twenty copies of its pieces of the member list as one recorded batch on one cell, the staging
    of the table under "this is tile 0", the waits; the list buffer's windows joined; the barrier, handing over the
    table's read tokens and receiving its own; then the second half. -/
theorem tile_body_of (hAB : AfterBarrier A) : TileBody A := by
  intro d L hF O W hO hOlev
  simp only [cc0__sc_kernel_eq_skeleton]; unfold cc0__sc_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Htf, Hsf, Ho, Hsh0⟩, ⟨⟨%fl, Hl⟩, ⟨%fv, Hv⟩, ⟨%fr, Hr⟩, Hbufs⟩, ⟨HsemA, HsemB, HsemC, HsemD, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Htf' := (Entails.of_eq (show (tfPts A d (qt (cL L) (jL L)) : sProp 𝕄) = ((tfV).view.loc (V d (cV L) (jV L)) ↦{qt (cL L) (jL L)} A.tf d) from rfl)) $$ Htf
  ihave Hsf' := (Entails.of_eq (show (sfPts A d (qt (cL L) (jL L)) : sProp 𝕄) = ((sfV).view.loc (V d (cV L) (jV L)) ↦{qt (cL L) (jL L)} A.sf d) from rfl)) $$ Hsf
  ihave Hsh1 := (shGo_elim A d L) $$ Hsh0
  icases Hsh1 with ⟨%fsh, Hsh'⟩
  ihave Hl' := (Entails.of_eq (show ((V d (cV L) (jV L)).loc cc0_scratch1 ↦{fullShare} fl : sProp 𝕄) = ((lV).view.loc (V d (cV L) (jV L)) ↦{fullShare} fl) from rfl)) $$ Hl
  ihave Hv' := (Entails.of_eq (show ((V d (cV L) (jV L)).loc cc0_scratch2 ↦{fullShare} fv : sProp 𝕄) = ((vV).view.loc (V d (cV L) (jV L)) ↦{fullShare} fv) from rfl)) $$ Hv
  ihave Hr' := (Entails.of_eq (show ((V d (cV L) (jV L)).loc cc0_scratch3 ↦{fullShare} fr : sProp 𝕄) = ((rV).view.loc (V d (cV L) (jV L)) ↦{fullShare} fr) from rfl)) $$ Hr
  have _plan : Transfers.BatchOf (V d (cV L) (jV L)) (SemLoc.dma (sig := sig) cc0_scratch4.sem) 20 (windows := true) := trivial
  -- the twenty copies, the staging under its guard, the twenty waits
  set_option sl_exec.guardIff true in
    sl_exec (disch := first | exact guard_iff L | exact (guard_iff L).symm)
  -- the table's read tokens for the barrier
  ihave Hg := (staged_guard A d L fsh (tile_body_of.sl.v105 L = 1#1) (guard_iff L).symm (tile_body_of.sl.dma0_1 A d) rfl) $$ if1
  ihave Hp := (pays_intro A d L) $$ Hg
  icases Hp with ⟨Hpays, Hrem⟩
  iapply (SparseCore.wp_subcoreBarrier 𝒱₀ none EB (bRd (F := F) A) d (sc := cV L) (i := jV L) sc_bar0 (grid0.bound 1) hsub0 (L 1) rfl κ (fun _ => 0) (jV L).val
      (fun j => bRd_mem₀ A d _ _ _) (fun _ => rfl) (bRd_expect A d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htok := (pays_elim A d L) $$ Hgot
  -- the list buffer whole again: piece t of it is the tile's piece t of the flat member list
  ihave Hlist := (list_joined_of_eq A d L fl (tile_body_of.sl.dma0 A d L) (tile_body_of.sl.dma1 A d L) (tile_body_of.sl.dma2 A d L) (tile_body_of.sl.dma3 A d L) (tile_body_of.sl.dma4 A d L) (tile_body_of.sl.dma5 A d L) (tile_body_of.sl.dma6 A d L) (tile_body_of.sl.dma7 A d L) (tile_body_of.sl.dma8 A d L) (tile_body_of.sl.dma9 A d L) (tile_body_of.sl.dma10 A d L) (tile_body_of.sl.dma11 A d L) (tile_body_of.sl.dma12 A d L) (tile_body_of.sl.dma13 A d L) (tile_body_of.sl.dma14 A d L) (tile_body_of.sl.dma15 A d L) (tile_body_of.sl.dma16 A d L) (tile_body_of.sl.dma17 A d L) (tile_body_of.sl.dma18 A d L) (tile_body_of.sl.dma19 A d L) rfl rfl rfl rfl rfl rfl rfl rfl rfl rfl rfl rfl rfl rfl rfl rfl rfl rfl rfl rfl) $$ [Hl'_5 Hl'_4 Hl'_3 Hl'_2 Hl']
  · isplitl [Hl'_5]; · iexact Hl'_5
    isplitl [Hl'_4]; · iexact Hl'_4
    isplitl [Hl'_3]; · iexact Hl'_3
    isplitl [Hl'_2]; · iexact Hl'_2
    iexact Hl'
  icases Hlist with ⟨%g, %hg, Hlist⟩
  -- the second half
  iapply (hAB d L O _ hO g hg fv fr _) $$ [Hlist Hv' Hr' Htok Ho HsemB HsemD HO Hrem Hbufs HsemA HsemC Hsems]
  isplitr; · iexact Hmw2
  isplitl [Hlist]; · iexact Hlist
  isplitl [Hv']; · iexact Hv'
  isplitl [Hr']; · iexact Hr'
  isplitl [Htok]; · iapply (Entails.of_eq (show (shTok A d (cV L) (jL L) : sProp 𝕄) = ((shV).view.loc (V d (cV L) (jV L)) ↦{qs (jL L)} shTbl A d (cV L)) from rfl)); iexact Htok
  isplitl [Ho]; · iexact Ho
  isplitl [HsemB]; · iexact HsemB
  isplitl [HsemD]; · iexact HsemD
  isplitl [HO]; · iexact HO
  iintro ⟨Hdone, Hl, ⟨%fv', Hv⟩, ⟨%fr', Hr⟩, Htok, HsemB, HsemD, %W', %hW', HO⟩
  isplitl [Hdone Htok Hrem]
  · isplitl [Hdone]; · iexact Hdone
    unfold shBack
    isplitl [Htok]; · iapply (Entails.of_eq (show ((shV).view.loc (V d (cV L) (jV L)) ↦{qs (jL L)} shTbl A d (cV L) : sProp 𝕄) = shTok A d (cV L) (jL L) from rfl)); iexact Htok
    iexact Hrem
  isplitl [Hl Hv Hr Hbufs]
  · isplitl [Hl]; · iexists _; iapply (Entails.of_eq (show ((lV).view.loc (V d (cV L) (jV L)) ↦{fullShare} g : sProp 𝕄) = ((V d (cV L) (jV L)).loc cc0_scratch1 ↦{fullShare} g) from rfl)); iexact Hl
    isplitl [Hv]; · iexists _; iapply (Entails.of_eq (show ((vV).view.loc (V d (cV L) (jV L)) ↦{fullShare} fv' : sProp 𝕄) = ((V d (cV L) (jV L)).loc cc0_scratch2 ↦{fullShare} fv') from rfl)); iexact Hv
    isplitl [Hr]; · iexists _; iapply (Entails.of_eq (show ((rV).view.loc (V d (cV L) (jV L)) ↦{fullShare} fr' : sProp 𝕄) = ((V d (cV L) (jV L)).loc cc0_scratch3 ↦{fullShare} fr') from rfl)); iexact Hr
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists W'; isplitr
  swap; · iexact HO
  ipureintro; intro p hp
  rcases hW' p hp with hp | hp
  swap; · exact .inr (.inl hp)
  rcases Finset.mem_insert.mp hp with hp | hp; · exact .inr (.inr (hp ▸ rfl))
  iterate 20 (rcases Finset.mem_insert.mp hp with hp | hp; · exact .inr (.inl (hp ▸ rfl)))
  unfold tile_body_of.sl.W0 at hp
  split at hp
  · rcases Finset.mem_insert.mp hp with hp | hp; · exact .inr (.inl (hp ▸ rfl))
    exact .inl hp
  · exact .inl hp

end Cert.Proof.KB

end
-- ==== Proof.BodyBPureKB.lean ====
/-
  The pure facts of the tile's body after the barrier: what the gathered vector, one trip's stored vector and the
  tile's result piece ARE, as equations between functions, apart from the memory operations that produce them.

  The list buffer's word `512 t + j` is member `t`'s word of team `512 (2 s + c) + j` on tile `(c, s)`; every word of the
  flat member list names a row of the table, so every word of the list buffer does. The gather writes, at every
  position of the values buffer, the table's row named by the list's word at that position. Trip `k` of the loop
  reads, for each member `t`, the sixteen values at `512 t + 16 k + [0, 16)`, adds the twenty vectors left to right,
  lane by lane, and stores the sum at `16 k + [0, 16)` of the result buffer: lane `l` of it is the left-nested sum of
  the twenty gathered values of team `512 (2 s + c) + 16 k + l`, which is the kernel's result for that team.
-/
import proofs.«203918_g8735963480385_cont_9to1c4b_274_26_alg».proof.Proof.BodyDefsKB
import Idealize.ShloMosaic.Lib.SparseCore.Stream
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay)

variable {F : FTy → Type} [FloatOps F]

local notation "tfV" => (Memref.whole Cert.Kernel.main_v2_scv : Memref Cert.Kernel.sig Kind.scVector Space.hbm Cert.Kernel.S393216 EltTy.i32)
local notation "sfV" => (Memref.whole Cert.Kernel.main_v3_scv : Memref Cert.Kernel.sig Kind.scVector Space.hbm Cert.Kernel.S100000 EltTy.f32)
local notation "oV" => (Memref.whole Cert.Kernel.main_v4_scv : Memref Cert.Kernel.sig Kind.scVector Space.hbm Cert.Kernel.S16384 EltTy.f32)
local notation "shV" => (Memref.whole Cert.Kernel.cc0_scratch0 : Memref Cert.Kernel.sig Kind.scVector Space.shared Cert.Kernel.S100000 EltTy.f32)
local notation "lV" => (Memref.whole Cert.Kernel.cc0_scratch1 : Memref Cert.Kernel.sig Kind.scVector Space.vmem Cert.Kernel.S10240 EltTy.i32)
local notation "vV" => (Memref.whole Cert.Kernel.cc0_scratch2 : Memref Cert.Kernel.sig Kind.scVector Space.vmem Cert.Kernel.S10240 EltTy.f32)
local notation "rV" => (Memref.whole Cert.Kernel.cc0_scratch3 : Memref Cert.Kernel.sig Kind.scVector Space.vmem Cert.Kernel.S512 EltTy.f32)

/-! ## The two invariants' pure halves -/

open Idealize.ShloMosaic.ValueIdx in
/-- The values buffer holds, at every position, the table's row named by the list buffer's word there. -/
def VOK (A : Arrays F) (d : Dev nD) (L : grid0.Coords) (g : Buf (Elt F) ((lV).view.loc (V d (cV L) (jV L)))) (fvG : Buf (Elt F) ((vV).view.loc (V d (cV L) (jV L)))) : Prop :=
  ∀ x : Fin 10240, fvG (ix1 x) = Cert.TeamSkill.tblAt (A.sf d) (g (ix1 x))
open Idealize.ShloMosaic.ValueIdx in
/-- The result buffer holds the kernel's result at its first `16 k` positions: what `k` trips of the loop leave. -/
def ROK (A : Arrays F) (d : Dev nD) (L : grid0.Coords) (k : Nat) (f : Buf (Elt F) ((rV).view.loc (V d (cV L) (jV L)))) : Prop :=
  ∀ j : Fin 512, j.val < 16 * k → f (ix1 j) = Cert.TeamSkill.kOut (F := F) (A.tf d) (A.sf d) (ix1 (⟨512 * (2 * (L 1).val + (L 0).val) + j.val, by have h1 : (L 1).val < 16 := (L 1).isLt; have h0 : (L 0).val < 2 := (L 0).isLt; have := j.isLt; omega⟩ : Fin 16384))

/-! ## The list's words name rows of the table -/

/-- Every word of the list buffer is a word of the flat member list, hence below 100000. -/
theorem list_inb (A : Arrays F) (hin : ∀ (d : Dev nD) j, (A.tf d j).toNat < 100000) (d : Dev nD) (L : grid0.Coords)
    (g : Buf (Elt F) ((lV).view.loc (V d (cV L) (jV L))))
    (hg : ∀ (t : Fin 20) (j : Fin 512), g (ValueIdx.ix1 (⟨512 * t.val + j.val, by have := t.isLt; have := j.isLt; omega⟩ : Fin 10240))
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216))) :
    ∀ x, ((lV).view.read (Elt F) g x).toNat < S100000.size gathers_S100000_S10240.axis := by
  intro x
  show (g x).toNat < 100000
  have hx : (x 0).val < 10240 := (x 0).isLt
  obtain ⟨t, j, e⟩ : ∃ (t : Fin 20) (j : Fin 512), x = ValueIdx.ix1 (⟨512 * t.val + j.val, by have := t.isLt; have := j.isLt; omega⟩ : Fin 10240) := by
    refine ⟨⟨(x 0).val / 512, by omega⟩, ⟨(x 0).val % 512, Nat.mod_lt _ (by decide)⟩, ?_⟩
    funext a
    match a with
    | ⟨0, _⟩ => exact Fin.ext (by show (x 0).val = 512 * ((x 0).val / 512) + (x 0).val % 512; omega)
  rw [e, hg t j]
  exact hin d _

/-! ## One trip's sum, lane by lane -/

/-- The twenty vectors added left to right: at a lane where vector `t` holds the gathered value of member `t` of team
    `b`, the sum is the team's left-nested sum. -/
theorem pay_lane (tf : IVec ⟨1, ![393216]⟩ 32) (sf : FVec F ⟨1, ![100000]⟩ .f32) (b : Fin 16384) (v : Fin 20 → Vec F S16 .f32) (l : S16.Idx)
    (hv : ∀ t, v t l = Cert.TeamSkill.tblAt sf (Cert.TeamSkill.wordAt tf t b)) :
    k0_pay2 (k0_pay1 (v 0) (v 1) (v 2) (v 3) (v 4) (v 5) (v 6) (v 7) (v 8) (v 9) (v 10) (v 11)) (v 12) (v 13) (v 14) (v 15) (v 16) (v 17) (v 18) (v 19) l
      = Cert.TeamSkill.accTo tf sf b 19 (by decide) := by
  unfold k0_pay2 k0_pay1
  simp only [addf, hv]
  rfl

/-! ## The loop's trips -/

/-- The twenty vectors trip `k` loads from the values buffer: member `t`'s sixteen values at `512 t + 16 k`. -/
def ldV (d : Dev nD) (L : grid0.Coords) (fvG : Buf (Elt F) ((vV).view.loc (V d (cV L) (jV L)))) (k : Fin k0_t1_loop.trips) : Fin 20 → Vec F S16 .f32
  | ⟨0, _⟩ => View.readAt (Elt F) (vV).view (Rect.unit (s := S10240) (k0_off2 k) S16.size (k0_off2_inb k)).toLoadRect fvG
  | ⟨r + 1, h⟩ => View.readAt (Elt F) (vV).view (Rect.unit (s := S10240) (k0_off3 k (BitVec.ofNat 32 (512 + 512 * r))) S16.size (k0_off3_inb k ⟨r, by omega⟩)).toLoadRect fvG

omit [FloatOps F] in
/-- The loop runs thirty-two trips. -/
theorem trips_eq : k0_t1_loop.trips = 32 := by decide +kernel

/-- Before the first trip nothing is asked of the result buffer. -/
theorem rok_zero (A : Arrays F) (d : Dev nD) (L : grid0.Coords) (f : Buf (Elt F) ((rV).view.loc (V d (cV L) (jV L)))) : ROK A d L 0 f :=
  fun j hj => absurd hj (by omega)

omit [FloatOps F] in
/-- The values buffer and the result buffer, each read whole, read as their contents. -/
theorem read_vV (d : Dev nD) (L : grid0.Coords) (G : Buf (Elt F) ((vV).view.loc (V d (cV L) (jV L)))) (y : S10240.Idx) :
    (vV).view.read (Elt F) G y = G y := congrFun (View.read_whole cc0_scratch2 G) y
omit [FloatOps F] in
theorem read_rV (d : Dev nD) (L : grid0.Coords) (G : Buf (Elt F) ((rV).view.loc (V d (cV L) (jV L)))) (y : S512.Idx) :
    (rV).view.read (Elt F) G y = G y := congrFun (View.read_whole cc0_scratch3 G) y

omit [FloatOps F] in
theorem trip_lt (k : Fin k0_t1_loop.trips) : k.val < 32 := by
  exact lt_of_lt_of_eq k.isLt trips_eq

omit [FloatOps F] in
/-- A sixteen-lane load of the values buffer at offset `n` reads, at lane `l`, the buffer's element `n + l`. -/
theorem readAt_lane (d : Dev nD) (L : grid0.Coords) (fvG : Buf (Elt F) ((vV).view.loc (V d (cV L) (jV L)))) (off : Fin 1 → Nat)
    (inb : ∀ a, off a + S16.size a ≤ S10240.size a) (n : Nat) (hoff : off 0 = n) (l : Fin 16) :
    View.readAt (Elt F) (vV).view (Rect.unit (s := S10240) off S16.size inb).toLoadRect fvG (ValueIdx.ix1 l)
      = fvG (ValueIdx.ix1 (⟨n + l.val, by have h : off 0 + 16 ≤ 10240 := inb 0; have := l.isLt; omega⟩ : Fin 10240)) := by
  show fvG _ = fvG _
  refine congrArg fvG (funext fun a => ?_)
  match a with
  | ⟨0, _⟩ => exact Fin.ext (by show off 0 + 1 * l.val = n + l.val; omega)

omit [FloatOps F] in
/-- Trip `k`'s vector for member `t`, at lane `l`, is the values buffer's element `512 t + 16 k + l`. -/
theorem ldV_lane (d : Dev nD) (L : grid0.Coords) (fvG : Buf (Elt F) ((vV).view.loc (V d (cV L) (jV L)))) (k : Fin k0_t1_loop.trips) (t : Fin 20) (l : Fin 16) :
    ldV d L fvG k t (ValueIdx.ix1 l)
      = fvG (ValueIdx.ix1 (⟨512 * t.val + 16 * k.val + l.val, by have := trip_lt k; have := t.isLt; have := l.isLt; omega⟩ : Fin 10240)) := by
  have hk := trip_lt k
  match t with
  | ⟨0, _⟩ =>
    refine (readAt_lane d L fvG _ _ (16 * k.val) (by rw [k0_off2_eq k]; rfl) l).trans ?_
    exact congrArg fvG (congrArg ValueIdx.ix1 (Fin.ext (by show 16 * k.val + l.val = 512 * 0 + 16 * k.val + l.val; omega)))
  | ⟨r + 1, h⟩ =>
    have e3 : k0_off3 k (BitVec.ofNat 32 (512 + 512 * r)) = ![512 * r + 16 * k.val + 512] := k0_off3_eq k ⟨r, by omega⟩
    refine (readAt_lane d L fvG _ _ (512 * r + 16 * k.val + 512) (by rw [e3]; rfl) l).trans ?_
    exact congrArg fvG (congrArg ValueIdx.ix1 (Fin.ext (by show 512 * r + 16 * k.val + 512 + l.val = 512 * (r + 1) + 16 * k.val + l.val; omega)))

/-- One more trip: a store of sixteen lanes at `16 k` whose lane `l` is the kernel's result for team `512 (2 s + c) + 16 k + l`
    extends the finished prefix of the result buffer from `16 k` to `16 (k + 1)` positions. -/
theorem rok_step (A : Arrays F) (d : Dev nD) (L : grid0.Coords) (k : Nat) (hk : k < 32) (off : Fin 1 → Nat)
    (inb : ∀ a, off a + S16.size a ≤ S512.size a) (hoff : off 0 = 16 * k)
    (f : Buf (Elt F) ((rV).view.loc (V d (cV L) (jV L)))) (hf : ROK A d L k f) (w : S16.Idx → Elt F .f32)
    (hw : ∀ l : Fin 16, w (ValueIdx.ix1 l) = Cert.TeamSkill.kOut (F := F) (A.tf d) (A.sf d)
      (ValueIdx.ix1 (⟨512 * (2 * (L 1).val + (L 0).val) + 16 * k + l.val, by
        have h1 : (L 1).val < 16 := (L 1).isLt; have h0 : (L 0).val < 2 := (L 0).isLt; have := l.isLt; omega⟩ : Fin 16384))) :
    ROK A d L (k + 1) ((rV).view.writes (Elt F) f [⟨Rect.unit (s := S512) off S16.size inb, w⟩]) := by
  intro j hj
  have h0 : (L 0).val < 2 := (L 0).isLt
  have h1 : (L 1).val < 16 := (L 1).isLt
  by_cases hlt : j.val < 16 * k
  · have hnot : ∀ p ∈ ([⟨Rect.unit (s := S512) off S16.size inb, w⟩] : List (View.Piece (Elt F) S512 .f32)), (ValueIdx.ix1 j : S512.Idx) ∉ p.1.set := by
      intro p hp
      rw [List.mem_singleton] at hp
      subst hp
      rw [Rect.mem_set_unit]
      intro h
      have h' : off 0 ≤ j.val := (h 0).1
      omega
    exact ((read_rV d L ((rV).view.writes (Elt F) f [⟨Rect.unit (s := S512) off S16.size inb, w⟩]) (ValueIdx.ix1 j)).symm.trans
      (View.read_writes_apply_of_forall_not_mem (rV).view f (ValueIdx.ix1 j) _ hnot)).trans ((read_rV d L f _).trans (hf j hlt))
  · have hl : j.val - 16 * k < 16 := by omega
    have ej : (ValueIdx.ix1 j : S512.Idx) = (Rect.unit (s := S512) off S16.size inb).emb (ValueIdx.ix1 (⟨j.val - 16 * k, hl⟩ : Fin 16)) := by
      funext a
      match a with
      | ⟨0, _⟩ => exact Fin.ext (by show j.val = off 0 + 1 * (j.val - 16 * k); omega)
    have e := View.read_writes_cons_emb (rV).view f (Rect.unit (s := S512) off S16.size inb) w [] (ValueIdx.ix1 (⟨j.val - 16 * k, hl⟩ : Fin 16))
    have e1 : ((rV).view.writes (Elt F) f [⟨Rect.unit (s := S512) off S16.size inb, w⟩])
          ((Rect.unit (s := S512) off S16.size inb).emb (ValueIdx.ix1 (⟨j.val - 16 * k, hl⟩ : Fin 16))) = w (ValueIdx.ix1 (⟨j.val - 16 * k, hl⟩ : Fin 16)) :=
      (read_rV d L _ _).symm.trans e
    have e0 : ((rV).view.writes (Elt F) f [⟨Rect.unit (s := S512) off S16.size inb, w⟩]) (ValueIdx.ix1 j)
        = ((rV).view.writes (Elt F) f [⟨Rect.unit (s := S512) off S16.size inb, w⟩])
            ((Rect.unit (s := S512) off S16.size inb).emb (ValueIdx.ix1 (⟨j.val - 16 * k, hl⟩ : Fin 16))) :=
      congrArg ((rV).view.writes (Elt F) f [⟨Rect.unit (s := S512) off S16.size inb, w⟩]) ej
    refine (e0.trans e1).trans ?_
    rw [hw ⟨j.val - 16 * k, hl⟩]
    exact congrArg _ (congrArg ValueIdx.ix1 (Fin.ext (by
      show 512 * (2 * (L 1).val + (L 0).val) + 16 * k + (j.val - 16 * k) = 512 * (2 * (L 1).val + (L 0).val) + j.val; omega)))

/-- Trip `k` of the loop, from the values buffer holding the gathered rows. -/
theorem rok_trip (A : Arrays F) (d : Dev nD) (L : grid0.Coords) (g : Buf (Elt F) ((lV).view.loc (V d (cV L) (jV L))))
    (hg : ∀ (t : Fin 20) (j : Fin 512), g (ValueIdx.ix1 (⟨512 * t.val + j.val, by have := t.isLt; have := j.isLt; omega⟩ : Fin 10240))
        = A.tf d (ValueIdx.ix1 (⟨16384 * t.val + 1024 * (L 1).val + 512 * (L 0).val + j.val, by
            have := t.isLt; have := j.isLt; have h1 : (L 1).val < 16 := (L 1).isLt; have h0 : (L 0).val < 2 := (L 0).isLt; omega⟩ : Fin 393216)))
    (fvG : Buf (Elt F) ((vV).view.loc (V d (cV L) (jV L)))) (hv : VOK A d L g fvG) (k : Fin k0_t1_loop.trips)
    (f : Buf (Elt F) ((rV).view.loc (V d (cV L) (jV L)))) (hf : ROK A d L k.val f) :
    ROK A d L (k.val + 1) ((rV).view.writes (Elt F) f [⟨Rect.unit (s := S512) (k0_off4 k) S16.size (k0_off4_inb k),
      k0_pay2 (k0_pay1 (ldV d L fvG k 0) (ldV d L fvG k 1) (ldV d L fvG k 2) (ldV d L fvG k 3) (ldV d L fvG k 4) (ldV d L fvG k 5) (ldV d L fvG k 6) (ldV d L fvG k 7) (ldV d L fvG k 8) (ldV d L fvG k 9) (ldV d L fvG k 10) (ldV d L fvG k 11)) (ldV d L fvG k 12) (ldV d L fvG k 13) (ldV d L fvG k 14) (ldV d L fvG k 15) (ldV d L fvG k 16) (ldV d L fvG k 17) (ldV d L fvG k 18) (ldV d L fvG k 19)⟩]) := by
  have hk := trip_lt k
  have h0 : (L 0).val < 2 := (L 0).isLt
  have h1 : (L 1).val < 16 := (L 1).isLt
  refine rok_step A d L k.val hk (k0_off4 k) (k0_off4_inb k) (by rw [k0_off4_eq k]; rfl) f hf _ (fun l => ?_)
  have hb : 512 * (2 * (L 1).val + (L 0).val) + 16 * k.val + l.val < 16384 := by have := l.isLt; omega
  refine (pay_lane (A.tf d) (A.sf d) ⟨_, hb⟩ (ldV d L fvG k) (ValueIdx.ix1 l) (fun t => ?_)).trans rfl
  have ht := t.isLt
  have hl := l.isLt
  rw [ldV_lane]
  refine (hv _).trans (congrArg (Cert.TeamSkill.tblAt (A.sf d)) ?_)
  have e := hg t ⟨16 * k.val + l.val, by omega⟩
  refine ((congrArg g (congrArg ValueIdx.ix1 (Fin.ext (by
    show 512 * t.val + 16 * k.val + l.val = 512 * t.val + (16 * k.val + l.val); omega)))).trans e).trans ?_
  exact congrArg (A.tf d) (congrArg ValueIdx.ix1 (Fin.ext (by
    show 16384 * t.val + 1024 * (L 1).val + 512 * (L 0).val + (16 * k.val + l.val) = t.val * 16384 + (512 * (2 * (L 1).val + (L 0).val) + 16 * k.val + l.val); omega)))

omit [FloatOps F] in
/-- A write of the whole values buffer leaves the payload, whatever was there. -/
theorem writes_whole_vV (d : Dev nD) (L : grid0.Coords) (junk : Buf (Elt F) ((vV).view.loc (V d (cV L) (jV L))))
    (w : (Rect.whole cc0_scratch2.ty.shape).shape.Idx → Elt F .f32) (x : (Rect.whole cc0_scratch2.ty.shape).shape.Idx) :
    ((vV).view.writes (Elt F) junk [⟨Rect.whole cc0_scratch2.ty.shape, w⟩]) x = w x := by
  have e := View.read_writes_cons_emb (vV).view junk (Rect.whole cc0_scratch2.ty.shape) w [] x
  rw [Rect.emb_whole_apply] at e
  exact (read_vV d L _ x).symm.trans e

omit [FloatOps F] in
/-- The shared table read through its whole-extent slice is the table. -/
theorem read_shSlice (sf : FVec F S100000 .f32)
    (hs : ∀ a, (Rect.unit (s := S100000) ![0] S100000.size inb_S100000_S100000_0).stride a = 1) (y : S100000.Idx) :
    View.read (Elt F) ((shV).slice (Rect.unit (s := S100000) ![0] S100000.size inb_S100000_S100000_0) hs).view sf y = sf y := by
  show sf _ = sf y
  refine congrArg sf (funext fun a => ?_)
  match a with
  | ⟨0, _⟩ => exact Fin.ext (by show 0 + 1 * (y 0).val = (y 0).val; omega)

/-- After the gather the values buffer holds, at every position, the table's row named by the list's word there. -/
theorem vok_gather (A : Arrays F) (d : Dev nD) (L : grid0.Coords) (g : Buf (Elt F) ((lV).view.loc (V d (cV L) (jV L))))
    (hinG : ∀ x, ((lV).view.read (Elt F) g x).toNat < S100000.size gathers_S100000_S10240.axis)
    (hs : ∀ a, (Rect.unit (s := S100000) ![0] S100000.size inb_S100000_S100000_0).stride a = 1)
    (hn : S10240.numel = S10240.size gathers_S100000_S10240.axis')
    (junk : Buf (Elt F) ((vV).view.loc (V d (cV L) (jV L)))) :
    VOK A d L g ((vV).view.writes (Elt F) junk [⟨Rect.whole cc0_scratch2.ty.shape,
      SparseCore.gatherPayload gathers_S100000_S10240
        (View.read (Elt F) ((shV).slice (Rect.unit (s := S100000) ![0] S100000.size inb_S100000_S100000_0) hs).view (A.sf d))
        (SparseCore.rows (View.read (Elt F) (lV).view g) hn hinG)⟩]) := by
  intro x
  refine (writes_whole_vV d L junk _ (ValueIdx.ix1 x)).trans ?_
  have hw : (g (ValueIdx.ix1 x)).toNat < 100000 := hinG (ValueIdx.ix1 x)
  -- the list's entry for position `x` in row-major order is the word at `x`
  have hrow : S10240.rowMajor.symm (Fin.cast hn.symm ((ValueIdx.ix1 x : S10240.Idx) gathers_S100000_S10240.axis')) = (ValueIdx.ix1 x : S10240.Idx) := by
    rw [Equiv.symm_apply_eq]
    exact Fin.ext (by rw [Shape.rowMajor_val_one]; rfl)
  unfold Cert.TeamSkill.tblAt
  rw [dif_pos hw]
  unfold SparseCore.gatherPayload
  refine (read_shSlice (A.sf d) hs _).trans (congrArg (A.sf d) (funext fun a => ?_))
  match a with
  | ⟨0, _⟩ =>
    refine Fin.ext ?_
    have h1 := Shape.Gathers.idx_axis gathers_S100000_S10240 (SparseCore.rows (View.read (Elt F) (lV).view g) hn hinG) (ValueIdx.ix1 x : S10240.Idx)
    refine (congrArg Fin.val h1).trans ?_
    show (g (S10240.rowMajor.symm (Fin.cast hn.symm ((ValueIdx.ix1 x : S10240.Idx) gathers_S100000_S10240.axis')))).toNat = (g (ValueIdx.ix1 x)).toNat
    rw [hrow]

end Cert.Proof.KB

end
-- ==== Proof.BodyBKB.lean ====
/-
  The tile's body after the subcore barrier. The indirect gather fills the value buffer with the table's rows named by
  the list's words: every word is a word of the flat member list, hence names a row. Each of the loop's thirty-two trips
  loads twenty 16-lane vectors of gathered values — member `t`'s values of sixteen consecutive teams — and stores their
  left-nested sum into sixteen lanes of the result buffer; before trip `k` the lanes below `16 k` hold the kernel's
  result for the tile's teams and the gathered values are as gathered. After the last trip all 512 lanes hold it; the
  write-out copies them onto the tile's piece of the result array, positions `512 (2 s + c) + [0, 512)` on tile `(c, s)`.
  The list, the values and the table's read token come back as they were, the two DMA cells at zero.
-/
import proofs.«203918_g8735963480385_cont_9to1c4b_274_26_alg».proof.Proof.BodyBPureKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

local notation "tfV" => (Memref.whole Cert.Kernel.main_v2_scv : Memref Cert.Kernel.sig Kind.scVector Space.hbm Cert.Kernel.S393216 EltTy.i32)
local notation "sfV" => (Memref.whole Cert.Kernel.main_v3_scv : Memref Cert.Kernel.sig Kind.scVector Space.hbm Cert.Kernel.S100000 EltTy.f32)
local notation "oV" => (Memref.whole Cert.Kernel.main_v4_scv : Memref Cert.Kernel.sig Kind.scVector Space.hbm Cert.Kernel.S16384 EltTy.f32)
local notation "shV" => (Memref.whole Cert.Kernel.cc0_scratch0 : Memref Cert.Kernel.sig Kind.scVector Space.shared Cert.Kernel.S100000 EltTy.f32)
local notation "lV" => (Memref.whole Cert.Kernel.cc0_scratch1 : Memref Cert.Kernel.sig Kind.scVector Space.vmem Cert.Kernel.S10240 EltTy.i32)
local notation "vV" => (Memref.whole Cert.Kernel.cc0_scratch2 : Memref Cert.Kernel.sig Kind.scVector Space.vmem Cert.Kernel.S10240 EltTy.f32)
local notation "rV" => (Memref.whole Cert.Kernel.cc0_scratch3 : Memref Cert.Kernel.sig Kind.scVector Space.vmem Cert.Kernel.S512 EltTy.f32)

/-! ## The tile's piece of the result array -/

/-- The tile's piece of the result array, as the write-out addresses it. -/
abbrev oPieceK (L : grid0.Coords) : Memref sig .scVector .hbm S512 .f32 :=
  (oV).slice (Rect.unit (s := S16384) (k0_off5 L) S512.size (k0_off5_inb L)) (fun _ => rfl)

omit [FloatOps F] in
/-- The rectangle the write-out addresses is the tile's part of the result array: 512 positions from `512 (2 s + c)`. -/
theorem oRect_eq (L : grid0.Coords) : Rect.unit (s := S16384) (k0_off5 L) S512.size (k0_off5_inb L) = oPart (widOf (cL L) (jL L)) := by
  unfold oPart Rect.part Rect.block
  congr 1 <;> funext a
  · rw [k0_off5_eq]
    match a with
    | 0 => simp [Shape.partIx, Shape.partSize, widOf]; omega
  · match a with
    | 0 => simp [Shape.partSize]

omit [FloatOps F] in
theorem set_oPieceK (L : grid0.Coords) : (oPieceK L).view.set = oSet (widOf (cL L) (jL L)) := by
  show ((oV).view.slice (Rect.unit (s := S16384) (k0_off5 L) S512.size (k0_off5_inb L))).set
    = ((View.whole (main_v4_scv : Ref sig .scVector)).slice (oPart (widOf (cL L) (jL L)))).set
  rw [oRect_eq]

omit [FloatOps F] in
theorem pts_oPieceK (d : Dev nD) (L : grid0.Coords) (f : Buf (Elt F) (oLoc d)) :
    ((oPieceK L).view.loc (V d (cV L) (jV L)) ↦[(oPieceK L).view.set]{fullShare} f : sProp 𝕄) = oPts d (widOf (cL L) (jL L)) f := by
  rw [set_oPieceK]

omit [FloatOps F] in
/-- Position `x` of the tile's piece is position `512 (2 s + c) + x` of the result array. -/
theorem oPieceK_emb (L : grid0.Coords) (x0 : Fin 512) :
    (oPieceK L).view.emb (ValueIdx.ix1 x0) = ValueIdx.ix1 (⟨512 * (2 * (L 1).val + (L 0).val) + x0.val, by
      have h1 : (L 1).val < 16 := (L 1).isLt; have h0 : (L 0).val < 2 := (L 0).isLt; have := x0.isLt; omega⟩ : Fin 16384) := by
  funext a
  match a with
  | ⟨0, _⟩ =>
    refine Fin.ext ?_
    show (k0_off5 L) 0 + 1 * x0.val = 512 * (2 * (L 1).val + (L 0).val) + x0.val
    rw [k0_off5_eq]
    show 1024 * (L 1).val + 512 * (L 0).val + 1 * x0.val = _
    omega

/-- After the last trip and the write-out, the tile's piece of the result array holds the kernel's result. -/
theorem odone_pure (A : Arrays F) (d : Dev nD) (L : grid0.Coords) (f : Buf (Elt F) ((rV).view.loc (V d (cV L) (jV L)))) (hf : ROK A d L k0_t1_loop.trips f) :
    ∀ j ∈ oSet (widOf (cL L) (jL L)), ((oPieceK L).view.writes (Elt F) (A.o₀ d)
      [⟨Rect.whole S512, ReadAs.same.apply (View.read (Elt F) (rV).view f)⟩]) j = Cert.TeamSkill.kOut (F := F) (A.tf d) (A.sf d) j := by
  intro j hj
  rw [← set_oPieceK] at hj
  obtain ⟨x, -, rfl⟩ := Finset.mem_map.mp hj
  obtain ⟨x0, rfl⟩ : ∃ x0 : Fin 512, x = ValueIdx.ix1 x0 := ⟨x 0, ValueIdx.eq_ix1 x⟩
  have h1 := View.read_writes_cons_emb (oPieceK L).view (A.o₀ d) (Rect.whole S512) (ReadAs.same.apply (View.read (Elt F) (rV).view f)) [] (ValueIdx.ix1 x0)
  rw [Rect.emb_whole_apply] at h1
  refine (h1 : _ = _).trans ?_
  show f (ValueIdx.ix1 x0) = _
  rw [hf x0 (by rw [trips_eq]; have := x0.isLt; omega), oPieceK_emb]

/-! ## The loop's invariant and the body's second half -/

/-- The loop's invariant before trip `k`: the gathered values as gathered, the result buffer right below lane `16 k`. -/
def invB (A : Arrays F) (d : Dev nD) (L : grid0.Coords) (g : Buf (Elt F) ((lV).view.loc (V d (cV L) (jV L)))) (k : Nat) (_ : Unit) : sProp 𝕄 :=
  iprop((∃ fvG, ((vV).view.loc (V d (cV L) (jV L)) ↦{fullShare} fvG) ∗ ⌜VOK A d L g fvG⌝)
      ∗ (∃ f, ((rV).view.loc (V d (cV L) (jV L)) ↦{fullShare} f) ∗ ⌜ROK A d L k f⌝))

set_option maxHeartbeats 4000000 in
/-- The body's second half: from the list filled and the table's read token to the tile's piece of the result holding
    the kernel's result there, everything else handed back. The gather and its wait, the write-out and its wait are
    single steps; the loop goes by its invariant, one trip at a symbolic `k`. -/
theorem afterBarrier (A : Arrays F) (hin : ∀ (d : Dev nD) j, (A.tf d j).toNat < 100000) : AfterBarrier A := by
  unfold AfterBarrier
  intro d L O W hO g hg fv fr Ψ
  have hinG := list_inb A hin d L g hg
  iintro ⟨Hmw, Hl, Hv, Hr, Hsh, Ho, HsemB, HsemD, HO, HΨ⟩
  ihave Ho' := (Entails.of_eq (pts_oPieceK (F := F) d L _).symm) $$ Ho
  sl_exec
  sl_for (invB A d L g) $$ [Hv Hr]
  case region =>
    intro k _
    unfold invB
    iintro ⟨⟨%fvG, Hv, %hv⟩, ⟨%f, Hr, %hf⟩⟩
    sl_exec
    sl_step
    isplitl [Hv]
    · iexists fvG; isplitl [Hv]; · iexact Hv
      ipureintro; exact hv
    · iexists _; isplitl [Hr]; · iexact Hr
      ipureintro; exact rok_trip A d L g hg fvG hv k f hf
  · unfold invB
    isplitl [Hv]
    · iexists _; isplitl [Hv]; · iexact Hv
      ipureintro; exact vok_gather A d L g hinG _ _ _
    · iexists _; isplitl [Hr]; · iexact Hr
      ipureintro; exact rok_zero A d L fr
  iintro %_ HI
  unfold invB
  icases HI with ⟨⟨%fvG, Hv, %hv⟩, ⟨%f, Hr, %hf⟩⟩
  sl_exec
  sl_step
  iapply HΨ
  isplitl [Ho']
  · unfold oDone
    iexists _
    isplitl [Ho']
    · iapply (Entails.of_eq (pts_oPieceK (F := F) d L _)); iexact Ho'
    · ipureintro; exact odone_pure A d L f hf
  isplitl [Hl]; · iexact Hl
  isplitl [Hv]; · iexists _; iexact Hv
  isplitl [Hr]; · iexists _; iexact Hr
  isplitl [Hsh]; · iexact Hsh
  isplitl [HsemB]; · iexact HsemB
  isplitl [HsemD]; · iexact HsemD
  iexists (insert (SemLoc.dma cc0_scoped1.sem, (default : HIx 1)) (insert (SemLoc.dma cc0_scratch5.sem, (default : HIx 1)) W)); isplitr
  · ipureintro; intro p hp
    rcases Finset.mem_insert.mp hp with hp | hp
    · exact .inr (by rw [hp]; rfl)
    rcases Finset.mem_insert.mp hp with hp | hp
    · exact .inr (by rw [hp]; rfl)
    · exact .inl hp
  · iexact HO

end Cert.Proof.KB

end
-- ==== Proof.BodyKB.lean ====
/-
  The tile's body whole: its first half, across the subcore barrier, composed with its second half. The only fact about the
  data it needs is that every word of the flat member list names a row of the table.
-/
import proofs.«203918_g8735963480385_cont_9to1c4b_274_26_alg».proof.Proof.BodyAKB
import proofs.«203918_g8735963480385_cont_9to1c4b_274_26_alg».proof.Proof.BodyBKB

noncomputable section

namespace Cert.Proof.KB

open Cert.Kernel Cert.Kernel.Gen
open Idealize.ShloMosaic Idealize.SL.Sem

variable {F : FTy → Type} [FloatOps F]

/-- The tile's body, for arrays whose member words all name rows of the table. -/
theorem tile_body (A : Arrays F) (hin : ∀ (d : Dev nD) j, (A.tf d j).toNat < 100000) : TileBody A :=
  tile_body_of A (afterBarrier A hin)

end Cert.Proof.KB

end
-- ==== Proof.lean ====
/-
  The proof of the certificate's claim: its five conjuncts, each from the module that proves it.

  The kernel gathers, for each of 16384 teams and each of the team's twenty members, the member's skill out of a table of
  100000 skills, and adds the twenty values; the reference takes the same rows and sums over the members' axis. Under the
  precondition every member word names a row of the table.

  1. The kernel as printed runs and leaves its arguments unchanged (`ClaimsKB`, `frame_kb'`). The run (`RunKB`) is the
     launch theorem for a SparseCore program applied to: the tile's body lifted to the launch's obligation (`OblKB`),
     the split of a SparseCore's operands among its sixteen tiles (`SplitKB`), the launch element of the ghost state
     (`LaunchKB`), and @main on the TensorCore with what the final memory says (`MainKB`); all over the shared
     vocabulary of `CommonKB`. The tile's body needs every word of the flat member list to name a row of the table:
     a member's word by the precondition (`PreRange`), a padding word being the word 0 (`KernelValue`).
  2. The idealized kernel runs and leaves its arguments unchanged (`ClaimsKI`, `frame_ki'`): the same modules at the
     ideal float instance (`…KI`).
  3. The idealized reference runs and leaves its arguments unchanged (`ClaimsKI`, `frame_ri`): its twenty-six host
     operations in a straight line (`RefRun`).
  4. The idealization rewrote no operation, so there is nothing to preserve: the conjunct is `True`.
  5. At the ideal instance, from memories that agree on the arguments, both programs end with the same result
     (`ClaimsKI`, `algebraic'`): the kernel's left-nested sum of twenty extended reals is their sum (`KernelValue`), the
     reference's composed term under the precondition is that sum too (`RefValue`), and both are the specification's
     array (`Spec`): each team's sum of its members' skills.
-/
import proofs.«203918_g8735963480385_cont_9to1c4b_274_26_alg».proof.Proof.ClaimsKI
import proofs.«203918_g8735963480385_cont_9to1c4b_274_26_alg».proof.Proof.ClaimsKB
import proofs.«203918_g8735963480385_cont_9to1c4b_274_26_alg».proof.Proof.BodyKI
import proofs.«203918_g8735963480385_cont_9to1c4b_274_26_alg».proof.Proof.BodyKB

noncomputable section

namespace Cert.Proof

open Idealize.ShloMosaic Idealize.SL.Sem

/-- The claim, from the tile's body at the two float instances. -/
theorem claim_of_bodies
    (hki : ∀ (A : KI.Arrays Ideal), (∀ (d : Dev Cert.KernelIdeal.nD) j, (A.tf d j).toNat < 100000) → KI.TileBody A)
    (hkb : ∀ (A : KB.Arrays Bits), (∀ (d : Dev Cert.Kernel.nD) j, (A.tf d j).toNat < 100000) → KB.TileBody A) :
    Cert.Claim :=
  ⟨Cert.Kernel.Gen.facts, Cert.KernelIdeal.Gen.facts, Cert.ReferenceIdeal.Gen.facts, Cert.Pre_input_domain.Gen.facts,
    KBClaims.frame_kb' fun m hpre => hkb (KB.arrays m) (KBClaims.hin_kb m hpre),
    KIClaims.frame_ki' fun m hpre => hki (KI.arrays m) (KIClaims.hin_ki m hpre),
    KIClaims.frame_ri,
    trivial,
    KIClaims.algebraic' fun m hpre => hki (KI.arrays m) (KIClaims.hin_ki m hpre)⟩

/-- The claim: the tile's body holds at both float instances. -/
theorem claim : Cert.Claim :=
  claim_of_bodies (fun A hin => KI.tile_body A hin) (fun A hin => KB.tile_body A hin)

end Cert.Proof

end
